-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  IdealRules.named_const.Statement Cert.KernelIdeal.κ "inv_keep" .f32 0x3F8E38E4#32 ((8388608 / 7549747 : ℝ) : EReal)
  ∧ IdealRules.named_const.Statement Cert.KernelIdeal.κ "inv_keep" .f32 0x3F8E38E4#32 ((8388608 / 7549747 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x64 : Shape := ⟨2, ![4096, 64]⟩
abbrev S4096x4096 : Shape := ⟨2, ![4096, 4096]⟩
abbrev S4096x1 : Shape := ⟨2, ![4096, 1]⟩
abbrev S1 : Shape := ⟨1, ![1]⟩
abbrev S_ : Shape := ⟨0, ![]⟩

class Facts : Prop where
  bcast_S_S4096x64 : S_.BroadcastsInDim S4096x64 (![] : Fin 0 → Fin S4096x64.rank)
  reducesTo_S4096x64_S_d0_1 : S4096x64.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096x1 : S_.BroadcastsInDim S4096x1 (![] : Fin 0 → Fin S4096x1.rank)
  reducesTo_S4096x1_S_d0_1 : S4096x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S4096x1 .f32) (main_arg5 : FVec F S1 .f32) (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  let main_v19 : FVec F S4096x1 .f32 := Host.absf main_arg4
  let main_cst_6 : FVec F S_ .f32 := constant S_ .f32 0x7F800000#32
  let main_v20 : FVec F S4096x1 .f32 := broadcastInDim S4096x1 ![] bcast_S_S4096x1 main_cst_6
  let main_v21 : IVec S4096x1 1 := cmpf .olt main_v19 main_v20
  let main_c_7 : IVec S_ 1 := constantI S_ 1 1#1
  let main_v22 : IVec S_ 1 := (fun x v => Host.reduce IntOp.andi x v reducesTo_S4096x1_S_d0_1 h_S_) main_v21 main_c_7
  let main_v23 : IVec S_ 1 := andi main_v18 main_v22
  let main_v24 : FVec F S1 .f32 := Host.absf main_arg5
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  main_v28

def fn {F : FTy → Type} [FloatOps F] (main_arg0 : FVec F S4096x64 .f32) (main_arg1 : FVec F S4096x64 .f32) (main_arg2 : FVec F S4096x64 .f32) (main_arg3 : FVec F S4096x4096 .f32) (main_arg4 : FVec F S4096x1 .f32) (main_arg5 : FVec F S1 .f32) : IVec S_ 1 :=
  let main_v0 : FVec F S4096x64 .f32 := Host.absf main_arg0
  let main_cst : FVec F S_ .f32 := constant S_ .f32 0x7F800000#32
  let main_v1 : FVec F S4096x64 .f32 := broadcastInDim S4096x64 ![] bcast_S_S4096x64 main_cst
  let main_v2 : IVec S4096x64 1 := cmpf .olt main_v0 main_v1
  let main_c : IVec S_ 1 := constantI S_ 1 1#1
  let main_v3 : IVec S_ 1 := (fun x v => Host.reduce IntOp.andi x v reducesTo_S4096x64_S_d0_1 h_S_) main_v2 main_c
  let main_v4 : FVec F S4096x64 .f32 := Host.absf main_arg1
  let main_cst_0 : FVec F S_ .f32 := constant S_ .f32 0x7F800000#32
  let main_v5 : FVec F S4096x64 .f32 := broadcastInDim S4096x64 ![] bcast_S_S4096x64 main_cst_0
  let main_v6 : IVec S4096x64 1 := cmpf .olt main_v4 main_v5
  let main_c_1 : IVec S_ 1 := constantI S_ 1 1#1
  let main_v7 : IVec S_ 1 := (fun x v => Host.reduce IntOp.andi x v reducesTo_S4096x64_S_d0_1 h_S_) main_v6 main_c_1
  let main_v8 : IVec S_ 1 := andi main_v3 main_v7
  let main_v9 : FVec F S4096x64 .f32 := Host.absf main_arg2
  let main_cst_2 : FVec F S_ .f32 := constant S_ .f32 0x7F800000#32
  let main_v10 : FVec F S4096x64 .f32 := broadcastInDim S4096x64 ![] bcast_S_S4096x64 main_cst_2
  let main_v11 : IVec S4096x64 1 := cmpf .olt main_v9 main_v10
  let main_c_3 : IVec S_ 1 := constantI S_ 1 1#1
  let main_v12 : IVec S_ 1 := (fun x v => Host.reduce IntOp.andi x v reducesTo_S4096x64_S_d0_1 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_arg4 main_arg5 main_v13 main_v16
-- ==== Kernel.lean ====
abbrev S4096x64 : Shape := ⟨2, ![4096, 64]⟩
abbrev S4096x4096 : Shape := ⟨2, ![4096, 4096]⟩
abbrev S4096x1 : Shape := ⟨2, ![4096, 1]⟩
abbrev S1 : Shape := ⟨1, ![1]⟩
abbrev S1x1 : Shape := ⟨2, ![1, 1]⟩
abbrev S1024x64 : Shape := ⟨2, ![1024, 64]⟩
abbrev S1024x1024 : Shape := ⟨2, ![1024, 1024]⟩
abbrev S1024x1 : Shape := ⟨2, ![1024, 1]⟩
abbrev S1x1024x1024 : Shape := ⟨3, ![1, 1024, 1024]⟩
abbrev S1x1x1 : Shape := ⟨3, ![1, 1, 1]⟩

abbrev nBuf : Space → Nat
  | .hbm => 8
  | .vmem => 23
  | .smem => 0
  | _ => 0

abbrev bufTy : (tb : Table) → Fin (tcTables nBuf tb) → BufTy
  | .hbm, ⟨0, _⟩ => ⟨S4096x64, .f32⟩
  | .hbm, ⟨1, _⟩ => ⟨S4096x64, .f32⟩
  | .hbm, ⟨2, _⟩ => ⟨S4096x64, .f32⟩
  | .hbm, ⟨3, _⟩ => ⟨S4096x4096, .f32⟩
  | .hbm, ⟨4, _⟩ => ⟨S4096x1, .f32⟩
  | .hbm, ⟨5, _⟩ => ⟨S1, .f32⟩
  | .hbm, ⟨6, _⟩ => ⟨S1x1, .f32⟩
  | .hbm, ⟨7, _⟩ => ⟨S4096x64, .f32⟩
  | .local _ .vmem, ⟨0, _⟩ => ⟨S1024x64, .f32⟩
  | .local _ .vmem, ⟨1, _⟩ => ⟨S1024x64, .f32⟩
  | .local _ .vmem, ⟨2, _⟩ => ⟨S1024x64, .f32⟩
  | .local _ .vmem, ⟨3, _⟩ => ⟨S1024x64, .f32⟩
  | .local _ .vmem, ⟨4, _⟩ => ⟨S1024x1024, .f32⟩
  | .local _ .vmem, ⟨5, _⟩ => ⟨S1024x1024, .f32⟩
  | .local _ .vmem, ⟨6, _⟩ => ⟨S1024x1, .f32⟩
  | .local _ .vmem, ⟨7, _⟩ => ⟨S1024x1, .f32⟩
  | .local _ .vmem, ⟨8, _⟩ => ⟨S1x1, .f32⟩
  | .local _ .vmem, ⟨9, _⟩ => ⟨S1024x64, .f32⟩
  | .local _ .vmem, ⟨10, _⟩ => ⟨S1024x64, .f32⟩
  | .local _ .vmem, ⟨11, _⟩ => ⟨S1024x64, .f32⟩
  | .local _ .vmem, ⟨12, _⟩ => ⟨S1024x64, .f32⟩
  | .local _ .vmem, ⟨13, _⟩ => ⟨S1024x64, .f32⟩
  | .local _ .vmem, ⟨14, _⟩ => ⟨S1024x64, .f32⟩
  | .local _ .vmem, ⟨15, _⟩ => ⟨S1024x1024, .f32⟩
  | .local _ .vmem, ⟨16, _⟩ => ⟨S1024x1024, .f32⟩
  | .local _ .vmem, ⟨17, _⟩ => ⟨S1024x1, .f32⟩
  | .local _ .vmem, ⟨18, _⟩ => ⟨S1024x1, .f32⟩
  | .local _ .vmem, ⟨19, _⟩ => ⟨S1x1, .f32⟩
  | .local _ .vmem, ⟨20, _⟩ => ⟨S1024x64, .f32⟩
  | .local _ .vmem, ⟨21, _⟩ => ⟨S1024x64, .f32⟩
  | .local _ .vmem, ⟨22, _⟩ => ⟨S1024x64, .f32⟩
  | _, _ => ⟨S4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_stg4_0 : Ref sig .tc := ⟨.vmem, 17, rfl⟩
abbrev cc1_stg4_1 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc1_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16
abbrev cc1_sem4_0 : DmaSem sig := 17
abbrev cc1_sem4_1 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev grid1 : Pipeline.Grid := ⟨2, ![4, 4], ![false, false]⟩

def k1_cond2 (i : grid1.Coords) : BitVec 1 :=
  let arg1 : BitVec 32 := BitVec.ofNat 32 (i 1).val
  let c3_i32 : BitVec 32 := 3#32
  let v34 : BitVec 1 := Scalar.cmpi .eq arg1 c3_i32
  let v35 : BitVec 32 := Scalar.extui v34
  let c0_i32_20 : BitVec 32 := 0#32
  let v36 : BitVec 1 := Scalar.cmpi .ne v35 c0_i32_20
  v36

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1024x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 1 → Memref sig .tc .vmem S1x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S1024x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

class Facts₀ : Prop where
  inb_S1x1_S1x1_0_0 : ∀ a, (![0, 0] : Fin 2 → Nat) a + S1x1.size a ≤ S1x1.size a
  h_S1x1 : 0 < S1x1.numel
  inb_S1024x64_S1024x64_0_0 : ∀ a, (![0, 0] : Fin 2 → Nat) a + S1024x64.size a ≤ S1024x64.size a
  h_S1024x64 : 0 < S1024x64.numel
  inb_S1024x1024_S1024x1024_0_0 : ∀ a, (![0, 0] : Fin 2 → Nat) a + S1024x1024.size a ≤ S1024x1024.size a
  h_S1024x1024 : 0 < S1024x1024.numel
  natLt_1_32 : 1 < 32
  inb_S1024x1_S1024x1_0_0 : ∀ a, (![0, 0] : Fin 2 → Nat) a + S1024x1.size a ≤ S1024x1.size a
  h_S1024x1 : 0 < S1024x1.numel
  broadcasts_S1024x1_S1024x1024 : S1024x1.Broadcasts S1024x1024
  shapeCasts_S1x1_S1x1 : S1x1.ShapeCasts S1x1
  shapeCasts_S1024x1024_S1x1024x1024 : S1024x1024.ShapeCasts S1x1024x1024
  reduces_S1x1024x1024_S1 : S1x1024x1024.Reduces [1, 2] S1
  shapeCasts_S1_S1x1x1 : S1.ShapeCasts S1x1x1
  inpos_S1x1x1_p0_0_0 : ∀ a, (![0, 0, 0] : Fin 3 → Nat) a < S1x1x1.size a
  shapeCasts_S1024x64_S1024x64 : S1024x64.ShapeCasts S1024x64
  inpos_S1x1_p0_0 : ∀ a, (![0, 0] : Fin 2 → Nat) a < S1x1.size a
  bitsLt_bf16_f32 : FTy.bits .bf16 < FTy.bits .f32
  dot_S1024x64_S1024x64_S1024x1024_1_1_0_0_n_n_wf : DotDims.WF S1024x64 S1024x64 S1024x1024 [1] [1] [0] [0] [] []
  dot_S1024x1024_S1024x64_S1024x64_1_0_0_1_n_n_wf : DotDims.WF S1024x1024 S1024x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x64.size a ≤ S4096x64.size a
  hwx0_0 : ∀ i : grid0.Coords, EltTy.bits .f32 = 32 ∨ (Rect.block (s := S4096x64) S1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x64.size a ≤ S4096x64.size a
  hwx0_1 : ∀ i : grid0.Coords, EltTy.bits .f32 = 32 ∨ (Rect.block (s := S4096x64) S1024x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S4096x4096.size a
  hwx0_2 : ∀ i : grid0.Coords, EltTy.bits .f32 = 32 ∨ (Rect.block (s := S4096x4096) S1024x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S4096x1.size a
  hwx0_3 : ∀ i : grid0.Coords, EltTy.bits .f32 = 32 ∨ (Rect.block (s := S4096x1) S1024x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x64.size a ≤ S4096x64.size a
  hwx1_0 : ∀ i : grid1.Coords, EltTy.bits .f32 = 32 ∨ (Rect.block (s := S4096x64) S1024x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x64.size a ≤ S4096x64.size a
  hwx1_1 : ∀ i : grid1.Coords, EltTy.bits .f32 = 32 ∨ (Rect.block (s := S4096x64) S1024x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x64.size a ≤ S4096x64.size a
  hwx1_2 : ∀ i : grid1.Coords, EltTy.bits .f32 = 32 ∨ (Rect.block (s := S4096x64) S1024x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S4096x4096.size a
  hwx1_3 : ∀ i : grid1.Coords, EltTy.bits .f32 = 32 ∨ (Rect.block (s := S4096x4096) S1024x1024.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x1.size a ≤ S4096x1.size a
  hwx1_4 : ∀ i : grid1.Coords, EltTy.bits .f32 = 32 ∨ (Rect.block (s := S4096x1) S1024x1.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x1.size a ≤ S1x1.size a
  hwx1_5 : ∀ i : grid1.Coords, EltTy.bits .f32 = 32 ∨ (Rect.block (s := S1x1) S1x1.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1024x64.size a ≤ S4096x64.size a
  hwx1_6 : ∀ i : grid1.Coords, EltTy.bits .f32 = 32 ∨ (Rect.block (s := S4096x64) S1024x64.size (cc1_transform_6 i) (hinb1_6 i)).WholeWords (EltTy.packing .f32)

variable [Facts₀]

def dot_S1024x64_S1024x64_S1024x1024_1_1_0_0_n_n : DotDims S1024x64 S1024x64 S1024x1024 where
  lhsContracting := [1]
  rhsContracting := [1]
  lhsNonContracting := [0]
  rhsNonContracting := [0]
  lhsBatch := []
  rhsBatch := []
  wf := dot_S1024x64_S1024x64_S1024x1024_1_1_0_0_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf

abbrev win0_0 : Pipeline.Window sig grid0 :=
  Pipeline.Window.ofSpec (Memref.whole main_arg0) S1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1024x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S1024x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x1.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg0) S1024x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S1024x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S1024x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S1024x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S1024x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v0) S1x1.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v1) S1024x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun _ => false | 6 => fun i => !(k1_cond2 i == 1#1) | ⟨_ + 7, h⟩ => absurd h (Nat.not_lt.2 (Nat.le_add_left _ _))

class Facts : Prop extends Facts₀ where

variable [Facts]
-- ==== ReferenceIdeal.lean ====
abbrev S4096x64 : Shape := ⟨2, ![4096, 64]⟩
abbrev S4096x4096 : Shape := ⟨2, ![4096, 4096]⟩
abbrev S4096x1 : Shape := ⟨2, ![4096, 1]⟩
abbrev S1 : Shape := ⟨1, ![1]⟩
abbrev S64x4096 : Shape := ⟨2, ![64, 4096]⟩
abbrev S_ : Shape := ⟨0, ![]⟩

abbrev nBuf : Space → Nat
  | .hbm => 30
  | .vmem => 0
  | .smem => 0
  | _ => 0

abbrev bufTy : (tb : Table) → Fin (tcTables nBuf tb) → BufTy
  | .hbm, ⟨0, _⟩ => ⟨S4096x64, .f32⟩
  | .hbm, ⟨1, _⟩ => ⟨S4096x64, .f32⟩
  | .hbm, ⟨2, _⟩ => ⟨S4096x64, .f32⟩
  | .hbm, ⟨3, _⟩ => ⟨S4096x4096, .f32⟩
  | .hbm, ⟨4, _⟩ => ⟨S4096x1, .f32⟩
  | .hbm, ⟨5, _⟩ => ⟨S1, .f32⟩
  | .hbm, ⟨6, _⟩ => ⟨S64x4096, .f32⟩
  | .hbm, ⟨7, _⟩ => ⟨S4096x4096, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S4096x4096, .f32⟩
  | .hbm, ⟨12, _⟩ => ⟨S4096x4096, .f32⟩
  | .hbm, ⟨13, _⟩ => ⟨S_, .f32⟩
  | .hbm, ⟨14, _⟩ => ⟨S4096x4096, .f32⟩
  | .hbm, ⟨15, _⟩ => ⟨S4096x4096, .i1⟩
  | .hbm, ⟨16, _⟩ => ⟨S4096x4096, .f32⟩
  | .hbm, ⟨17, _⟩ => ⟨S_, .f32⟩
  | .hbm, ⟨18, _⟩ => ⟨S4096x4096, .f32⟩
  | .hbm, ⟨19, _⟩ => ⟨S4096x4096, .f32⟩
  | .hbm, ⟨20, _⟩ => ⟨S4096x4096, .f32⟩
  | .hbm, ⟨21, _⟩ => ⟨S4096x4096, .f32⟩
  | .hbm, ⟨22, _⟩ => ⟨S4096x4096, .f32⟩
  | .hbm, ⟨23, _⟩ => ⟨S4096x4096, .f32⟩
  | .hbm, ⟨24, _⟩ => ⟨S_, .f32⟩
  | .hbm, ⟨25, _⟩ => ⟨S_, .f32⟩
  | .hbm, ⟨26, _⟩ => ⟨S4096x4096, .f32⟩
  | .hbm, ⟨27, _⟩ => ⟨S4096x4096, .f32⟩
  | .hbm, ⟨28, _⟩ => ⟨S4096x4096, .f32⟩
  | .hbm, ⟨29, _⟩ => ⟨S4096x64, .f32⟩
  | _, _ => ⟨S4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩

abbrev nD : Nat := 1
abbrev τ : Topo := Topo.v7x

variable {F : FTy → Type} [FloatOps F]

class Facts₀ : Prop where
  transposes_S4096x64_S64x4096_1_0 : S4096x64.Transposes [1, 0] S64x4096
  bcast_S_S4096x4096 : S_.BroadcastsInDim S4096x4096 (![] : Fin 0 → Fin S4096x4096.rank)
  bcast_S4096x1_S4096x4096_0_1 : S4096x1.BroadcastsInDim S4096x4096 (![0, 1] : Fin 2 → Fin S4096x4096.rank)
  reducesTo_S4096x4096_S_d0_1 : S4096x4096.ReducesTo [0, 1] S_
  h_S_ : 0 < S_.numel
  dot_S4096x64_S64x4096_S4096x4096_1_0_0_1_n_n_wf : DotDims.WF S4096x64 S64x4096 S4096x4096 [1] [0] [0] [1] [] []
  dot_S4096x4096_S4096x64_S4096x64_1_0_0_1_n_n_wf : DotDims.WF S4096x4096 S4096x64 S4096x64 [1] [0] [0] [1] [] []

variable [Facts₀]

def dot_S4096x64_S64x4096_S4096x4096_1_0_0_1_n_n : DotDims S4096x64 S64x4096 S4096x4096 where
  lhsContracting := [1]
  rhsContracting := [0]
  lhsNonContracting := [0]
  rhsNonContracting := [1]
  lhsBatch := []
  rhsBatch := []
  wf := dot_S4096x64_S64x4096_S4096x4096_1_0_0_1_n_n_wf
def dot_S4096x4096_S4096x64_S4096x64_1_0_0_1_n_n : DotDims S4096x4096 S4096x64 S4096x64 where
  lhsContracting := [1]
  rhsContracting := [0]
  lhsNonContracting := [0]
  rhsNonContracting := [1]
  lhsBatch := []
  rhsBatch := []
  wf := dot_S4096x4096_S4096x64_S4096x64_1_0_0_1_n_n_wf

class Facts : Prop extends Facts₀ where

variable [Facts]
-- ==== Proof.K.R0Runs.lean ====
/- The first region (the sum of the floor mask over all sixteen tiles): what its two control cases share.
   The region runs over a 4 x 4 grid; at point t = 4 i + j it sees row-tile i of the queries and of the row factors,
   row-tile j of the keys, tile (i, j) of the uniform draws, and the one-element accumulator. The accumulator is
   reset at the first point only and added to at every point. -/
import proofs.«173389_j39676907883922_1_alg».proof.Proof.Gen.Kernel.Launch
import proofs.«173389_j39676907883922_1_alg».proof.Proof.Gen.Kernel.Skeleton
import proofs.«173389_j39676907883922_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Frame0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents the region is entered with, per core: every statement below is relative to them
variable (V : (c : Dev nD) → (b : Ref sig .tc) → Buf (Elt F) ((c : Thread nD τ).loc b))

/-- Window w's block at grid point t, read off the window's array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block of the array at every grid point, whether the block was
    fetched at that point or kept from an earlier one (its index did not move in between). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block of the array at every grid point, whether the block was
    fetched at that point or kept from an earlier one (its index did not move in between). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block of the array at every grid point, whether the block was
    fetched at that point or kept from an earlier one (its index did not move in between). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block of the array at every grid point, whether the block was
    fetched at that point or kept from an earlier one (its index did not move in between). -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- The reset condition as the body computes it from the grid coordinates: both coordinates are zero. -/
abbrev cond0_0 (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first of the sixteen points and at no other. -/
theorem hcond0_0 : ∀ t : Fin cfg0.N, cond0_0 (grid0.coords t) ↔ t.val % 16 = 0 :=
  (by decide +kernel : ∀ t : Fin grid0.N, cond0_0 (grid0.coords t) ↔ t.val % 16 = 0)

/-- One staging buffer of the accumulator's window, through which its contents are stated. -/
abbrev VO0_4 : View sig .tc .vmem S1x1 .f32 := (Memref.whole cc0_stg4_0 : Memref sig .tc .vmem S1x1 .f32).view
/-- Each window's current staging memref at point t, and that it is a whole buffer. -/
abbrev ms0_0 (t : Fin cfg0.N) : Memref sig .tc .vmem S1024x64 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1 .f32 := win0_4.stage (cfg0.slots t 4)
abbrev hs0_4 (t : Fin cfg0.N) : (ms0_4 t).IsWhole := hstage0_4 ((cfg0.slots t 4).cast nbuf0_4)

end Cert.Kernel.Frame0

end
-- ==== Proof.K.R0RunA.lean ====
/- The first region's body at the first grid point, where the accumulator is reset: run symbolically on whole
   staging buffers. The four inputs are read and handed back unchanged; the accumulator, found at any contents,
   ends with the pieces the two stores write (the zero, then zero plus this tile's sum). -/
import proofs.«173389_j39676907883922_1_alg».proof.Proof.K.R0Runs

set_option maxRecDepth 16384

noncomputable section

namespace Cert.Kernel.Frame0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the accumulator's buffer (last store first) when the reset condition holds,
    with the proof that the body, given the four input buffers at contents x0 … x3 and the accumulator's at anything,
    runs to its end holding the inputs as they were and the accumulator with those pieces written. -/
noncomputable def kernelRun0_A (c : Dev nD) (i : grid0.Coords) (arg2 : Memref sig .tc .vmem S1024x64 .f32) (harg2 : arg2.IsWhole) (arg3 : Memref sig .tc .vmem S1024x64 .f32) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1x1 .f32) (harg6 : arg6.IsWhole) (hc0 : cond0_0 i)
    (x0 : Vec F S1024x64 .f32) (x1 : Vec F S1024x64 .f32) (x2 : Vec F S1024x1024 .f32) (x3 : Vec F S1024x1 .f32) :
    { L4 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)) -∗ K ⟨⟩))
          ⊢ wp frame (wpE (defs₀ (F := F)) Variants.none c none) E (cc0__sum_r_kernel i arg2 harg2 arg3 harg3 arg4 harg4 arg5 harg5 arg6 harg6) K } := by
  refine ⟨?_, fun E K => ?run⟩
  case run =>
    simp only [cc0__sum_r_kernel_eq_skeleton]; unfold cc0__sum_r_kernel_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg2.eq_unread hf0; obtain rfl := harg3.eq_unread hf1; obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

end Cert.Kernel.Frame0

end
-- ==== Proof.K.R0RunB.lean ====
/- The first region's body at every grid point after the first, where the accumulator is only added to: run
   symbolically on whole staging buffers. The accumulator is found at its running contents (what the point before
   left) and ends with the one piece the store writes (those contents plus this tile's sum). -/
import proofs.«173389_j39676907883922_1_alg».proof.Proof.K.R0Runs

set_option maxRecDepth 16384

noncomputable section

namespace Cert.Kernel.Frame0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The piece the body's store leaves in the accumulator's buffer when the reset condition fails, with the proof
    that the body, given the four input buffers at contents x0 … x3 and the accumulator's at xo4, runs to its end
    holding the inputs as they were and the accumulator with that piece written. -/
noncomputable def kernelRun0_B (c : Dev nD) (i : grid0.Coords) (arg2 : Memref sig .tc .vmem S1024x64 .f32) (harg2 : arg2.IsWhole) (arg3 : Memref sig .tc .vmem S1024x64 .f32) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1x1 .f32) (harg6 : arg6.IsWhole) (hc0 : ¬cond0_0 i)
    (x0 : Vec F S1024x64 .f32) (x1 : Vec F S1024x64 .f32) (x2 : Vec F S1024x1024 .f32) (x3 : Vec F S1024x1 .f32) (xo4 : Vec F S1x1 .f32) :
    { L4 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo4
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)) -∗ K ⟨⟩))
          ⊢ wp frame (wpE (defs₀ (F := F)) Variants.none c none) E (cc0__sum_r_kernel i arg2 harg2 arg3 harg3 arg4 harg4 arg5 harg5 arg6 harg6) K } := by
  refine ⟨?_, fun E K => ?run⟩
  case run =>
    simp only [cc0__sum_r_kernel_eq_skeleton]; unfold cc0__sum_r_kernel_skel
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

end Cert.Kernel.Frame0

end
-- ==== Proof.K.R0Frame.lean ====
/- The first region, point by point: what the accumulator's staging buffer holds after the body at each of the
   sixteen grid points (the reset point's contents, then each later point's contents over what the point before
   left), the region's proof data built on that, and the body's obligation at every point. -/
import proofs.«173389_j39676907883922_1_alg».proof.Proof.K.R0RunA
import proofs.«173389_j39676907883922_1_alg».proof.Proof.K.R0RunB

set_option maxRecDepth 16384

noncomputable section

namespace Cert.Kernel.Frame0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- At the reset point the body's two stores into the one-element accumulator cover it. -/
theorem cover0_A_4 (c : Dev nD) (i : grid0.Coords) (arg2 : Memref sig .tc .vmem S1024x64 .f32) (harg2 : arg2.IsWhole) (arg3 : Memref sig .tc .vmem S1024x64 .f32) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1x1 .f32) (harg6 : arg6.IsWhole) (hc0 : cond0_0 i)
    (x0 : Vec F S1024x64 .f32) (x1 : Vec F S1024x64 .f32) (x2 : Vec F S1024x1024 .f32) (x3 : Vec F S1024x1 .f32) (y : S1x1.Idx) :
    ∃ pc ∈ (kernelRun0_A c i arg2 harg2 arg3 harg3 arg4 harg4 arg5 harg5 arg6 harg6 hc0 x0 x1 x2 x3).1, y ∈ pc.1.set :=
  View.cover_of_tiledL (kernelRun0_A c i arg2 harg2 arg3 harg3 arg4 harg4 arg5 harg5 arg6 harg6 hc0 x0 x1 x2 x3).1 S1x1.size (by sl_kernel_rfl) y

/-- What the reset point leaves in the accumulator's buffer: its pieces read back. -/
def out0_A_4 (c : Dev nD) (i : grid0.Coords) (arg2 : Memref sig .tc .vmem S1024x64 .f32) (harg2 : arg2.IsWhole) (arg3 : Memref sig .tc .vmem S1024x64 .f32) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1x1 .f32) (harg6 : arg6.IsWhole) (hc0 : cond0_0 i)
    (x0 : Vec F S1024x64 .f32) (x1 : Vec F S1024x64 .f32) (x2 : Vec F S1024x1024 .f32) (x3 : Vec F S1024x1 .f32) : Vec F S1x1 .f32 :=
  VO0_4.read (Elt F) (VO0_4.writes (Elt F) VO0_4.junk (kernelRun0_A c i arg2 harg2 arg3 harg3 arg4 harg4 arg5 harg5 arg6 harg6 hc0 x0 x1 x2 x3).1)

/-- At a later point the body's one store into the accumulator covers it. -/
theorem cover0_B_4 (c : Dev nD) (i : grid0.Coords) (arg2 : Memref sig .tc .vmem S1024x64 .f32) (harg2 : arg2.IsWhole) (arg3 : Memref sig .tc .vmem S1024x64 .f32) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1x1 .f32) (harg6 : arg6.IsWhole) (hc0 : ¬cond0_0 i)
    (x0 : Vec F S1024x64 .f32) (x1 : Vec F S1024x64 .f32) (x2 : Vec F S1024x1024 .f32) (x3 : Vec F S1024x1 .f32) (xo4 : Vec F S1x1 .f32) (y : S1x1.Idx) :
    ∃ pc ∈ (kernelRun0_B c i arg2 harg2 arg3 harg3 arg4 harg4 arg5 harg5 arg6 harg6 hc0 x0 x1 x2 x3 xo4).1, y ∈ pc.1.set :=
  View.cover_of_tiledL (kernelRun0_B c i arg2 harg2 arg3 harg3 arg4 harg4 arg5 harg5 arg6 harg6 hc0 x0 x1 x2 x3 xo4).1 S1x1.size (by sl_kernel_rfl) y

/-- What a later point leaves in the accumulator's buffer, given what it found there: its piece read back. -/
def out0_B_4 (c : Dev nD) (i : grid0.Coords) (arg2 : Memref sig .tc .vmem S1024x64 .f32) (harg2 : arg2.IsWhole) (arg3 : Memref sig .tc .vmem S1024x64 .f32) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1x1 .f32) (harg6 : arg6.IsWhole) (hc0 : ¬cond0_0 i)
    (x0 : Vec F S1024x64 .f32) (x1 : Vec F S1024x64 .f32) (x2 : Vec F S1024x1024 .f32) (x3 : Vec F S1024x1 .f32) (xo4 : Vec F S1x1 .f32) : Vec F S1x1 .f32 :=
  VO0_4.read (Elt F) (VO0_4.writes (Elt F) VO0_4.junk (kernelRun0_B c i arg2 harg2 arg3 harg3 arg4 harg4 arg5 harg5 arg6 harg6 hc0 x0 x1 x2 x3 xo4).1)

/-- The accumulation: the accumulator's buffer after the body at position n. Position 0 is the reset point; every
    later position runs the adding case over what position n - 1 left (the buffer is not written back in between). -/
def outsAt0 (c : Dev nD) : (n : ℕ) → n < cfg0.N → Vec F S1x1 .f32
  | 0, hn => out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) ((hcond0_0 ⟨0, hn⟩).mpr (Nat.zero_mod _)) (iblk0 V c 0 ⟨0, hn⟩) (iblk0 V c 1 ⟨0, hn⟩) (iblk0 V c 2 ⟨0, hn⟩) (iblk0 V c 3 ⟨0, hn⟩)
  | n + 1, hn =>
    if h0 : (n + 1) % 16 = 0 then
      out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) ((hcond0_0 ⟨n + 1, hn⟩).mpr h0) (iblk0 V c 0 ⟨n + 1, hn⟩) (iblk0 V c 1 ⟨n + 1, hn⟩) (iblk0 V c 2 ⟨n + 1, hn⟩) (iblk0 V c 3 ⟨n + 1, hn⟩)
    else
      out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => h0 ((hcond0_0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn))

/-- The accumulation at the reset point. -/
theorem outsAt0_A (c : Dev nD) (t : Fin cfg0.N) (h0 : t.val % 16 = 0) :
    outsAt0 V c t.val t.isLt = out0_A_4 c (grid0.coords t) (ms0_0 t) (hs0_0 t) (ms0_1 t) (hs0_1 t) (ms0_2 t) (hs0_2 t) (ms0_3 t) (hs0_3 t) (ms0_4 t) (hs0_4 t) ((hcond0_0 t).mpr h0) (iblk0 V c 0 t) (iblk0 V c 1 t) (iblk0 V c 2 t) (iblk0 V c 3 t) := by
  obtain ⟨n, hn⟩ := t
  cases n with
  | zero => exact rfl
  | succ n => exact (dif_pos h0).trans rfl

/-- The accumulation at a later point: the adding case over what the point before left. -/
theorem outsAt0_B (c : Dev nD) (t : Fin cfg0.N) (h0 : ¬t.val % 16 = 0) :
    outsAt0 V c t.val t.isLt = out0_B_4 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk0 V c 0 t) (iblk0 V c 1 t) (iblk0 V c 2 t) (iblk0 V c 3 t) (outsAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The region's proof data on core c: the arrays as the region finds them; after the body at point t each input's
    buffer still at its block and the accumulator's at the accumulation's value; the scoped rest and the generator
    register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => outsAt0 V c t.val t.isLt
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = outsAt0 V c t.val t.isLt := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-- At a point after the first the accumulator's current staging buffer holds what the body left at the point
    before: the window has one buffer, is written back at the last point only, and is never idle or clipped. -/
theorem before0_4_B (c : Dev nD) (t : Fin cfg0.N) (h0 : ¬t.val % 16 = 0) (d) :
    (dat0 V c).before 4 t d = outsAt0 V c (t.val - 1) (Nat.lt_of_le_of_lt (Nat.sub_le _ _) t.isLt) := by
  have hN : t.val < 16 := lt_of_lt_of_eq t.isLt (show cfg0.N = 16 from N_0)
  rw [Dat.before_out_kept _ 4 rfl t (by omega) (Bool.eq_false_iff.mpr fun h => by have := (flush0_4 _).mp h; dsimp only at this; omega)
    (fun _ => rfl) (fun _ _ => rfl)]
  dsimp only [dat0]

/-- What the body is called with at point t, window by window, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t))

set_option maxHeartbeats 1600000 in
/-- The body at any point: the inputs' buffers hold their blocks; the closed form of the reset condition says which
    case the point is in; at a later point the accumulator holds what the point before left; so that case's run
    applies, and its pieces read back are the accumulation's value at the point. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  have hN : t.val < 16 := lt_of_lt_of_eq t.isLt (show cfg0.N = 16 from N_0)
  by_cases h0 : t.val % 16 = 0
  · rw [outsAt0_A V c t h0]
    unfold out0_A_4
    iintro ⟨HΦ, Ho, ⟨%d0, H0⟩, ⟨%d1, H1⟩, ⟨%d2, H2⟩, ⟨%d3, H3⟩, ⟨%d4, H4⟩⟩
    iapply ((kernelRun0_A c (grid0.coords t) _ _ _ _ _ _ _ _ _ _ ((hcond0_0 t).mpr h0) (iblk0 V c 0 t) (iblk0 V c 1 t) (iblk0 V c 2 t) (iblk0 V c 3 t)).2 Set.univ _)
    isplitl [H0]; · iexact H0
    isplitl [H1]; · iexact H1
    isplitl [H2]; · iexact H2
    isplitl [H3]; · iexact H3
    isplitl [H4]; · iexists _; iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover0_A_4 c _ _ _ _ _ _ _ _ _ _ _ _ _ _ _ _)
  · rw [outsAt0_B V c t h0]
    simp only [before0_4_B V c t h0]
    unfold out0_B_4
    iintro ⟨HΦ, Ho, ⟨%d0, H0⟩, ⟨%d1, H1⟩, ⟨%d2, H2⟩, ⟨%d3, H3⟩, ⟨%d4, H4⟩⟩
    iapply ((kernelRun0_B c (grid0.coords t) _ _ _ _ _ _ _ _ _ _ (fun h => h0 ((hcond0_0 t).mp h)) (iblk0 V c 0 t) (iblk0 V c 1 t) (iblk0 V c 2 t) (iblk0 V c 3 t) _).2 Set.univ _)
    isplitl [H0]; · iexact H0
    isplitl [H1]; · iexact H1
    isplitl [H2]; · iexact H2
    isplitl [H3]; · iexact H3
    isplitl [H4]; · iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover0_B_4 c _ _ _ _ _ _ _ _ _ _ _ _ _ _ _ _ _)

/-- The body's obligation at every point. -/
theorem body_obligation0 (c : Dev nD) : BodyObligation (dat0 (F := F) V c) (defs₀ (F := F)) Variants.none () Set.univ := fun t => by
  rw [bigSep_W0, bigSep_W0]
  exact sound_body0 V c t

end Cert.Kernel.Frame0

end
-- ==== Proof.K.R1Runs.lean ====
import proofs.«173389_j39676907883922_1_alg».proof.Proof.Gen.Kernel.Launch
import proofs.«173389_j39676907883922_1_alg».proof.Proof.Gen.Kernel.Skeleton
import proofs.«173389_j39676907883922_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

-- membership of an index in a rectangle of these extents is checked structurally, one step per coordinate
set_option maxRecDepth 16384

noncomputable section

namespace Cert.Kernel.Frame1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second kernel region (pipeline 1), entered with the buffer contents `V`

What the three control cases of its body share: the blocks its windows read, the two branch conditions in closed
form over the 4×4 grid (point `t` is row tile `t / 4`, column tile `t % 4`), where the output window is idle,
and the names of the staging and scratch memrefs. -/

section Blocks
variable (V : (c : Dev nD) → (b : Ref sig .tc) → Buf (Elt F) ((c : Thread nD τ).loc b))

/-- Window `w`'s block at point `t`, read off the window's array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not (where it is
    not fetched the block index has not moved), for any proof data over the arrays `V` whose body leaves the
    block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not (where it is
    not fetched the block index has not moved), for any proof data over the arrays `V` whose body leaves the
    block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not (where it is
    not fetched the block index has not moved), for any proof data over the arrays `V` whose body leaves the
    block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not (where it is
    not fetched the block index has not moved), for any proof data over the arrays `V` whose body leaves the
    block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not (where it is
    not fetched the block index has not moved), for any proof data over the arrays `V` whose body leaves the
    block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not (where it is
    not fetched the block index has not moved), for any proof data over the arrays `V` whose body leaves the
    block in place. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

end Blocks

/-! ## The two branch conditions -/

/-- The accumulator is reset: the column tile is the first (`j = 0`), as the body computes it from the grid coordinates. -/
abbrev cond1_0 (i : grid1.Coords) : Prop := (Scalar.cmpi .ne (Scalar.extui (Scalar.cmpi .eq (BitVec.ofNat 32 (i 1).val) 0#32)) 0#32) = 1#1
/-- It holds exactly at the points ≡ 0 (mod 4). -/
theorem hcond1_0 : ∀ t : Fin cfg1.N, cond1_0 (grid1.coords t) ↔ t.val % 4 = 0 :=
  (by decide +kernel : ∀ t : Fin grid1.N, cond1_0 (grid1.coords t) ↔ t.val % 4 = 0)

/-- The accumulator is copied out: the column tile is the last (`j = 3`). -/
abbrev cond1_1 (i : grid1.Coords) : Prop := k1_cond2 i = 1#1
/-- It holds exactly at the points ≡ 3 (mod 4). -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
/-- At the first column tile the body stores nothing into the output window, and its block is not written back. -/
theorem idleAt1_6_A : ∀ t : Fin cfg1.N, cond1_0 (grid1.coords t) → ¬cond1_1 (grid1.coords t) → cfg1.idle 6 (grid1.coords t) = true := by decide +kernel
theorem noFlush1_6_A : ∀ t : Fin cfg1.N, cond1_0 (grid1.coords t) → ¬cond1_1 (grid1.coords t) → (cfg1.win 6).flush t = false := by decide +kernel
/-- The same at the two middle column tiles. -/
theorem idleAt1_6_B : ∀ t : Fin cfg1.N, ¬cond1_0 (grid1.coords t) → ¬cond1_1 (grid1.coords t) → cfg1.idle 6 (grid1.coords t) = true := by decide +kernel
theorem noFlush1_6_B : ∀ t : Fin cfg1.N, ¬cond1_0 (grid1.coords t) → ¬cond1_1 (grid1.coords t) → (cfg1.win 6).flush t = false := by decide +kernel
/-- At the last column tile the body stores the output window's whole block. -/
theorem liveAt1_6_C : ∀ t : Fin cfg1.N, ¬cond1_0 (grid1.coords t) → cond1_1 (grid1.coords t) → cfg1.idle 6 (grid1.coords t) = false := by decide +kernel

/-! ## The memrefs the body is called with -/

/-- One staging buffer of the output window, through which its contents are stated (which one does not matter). -/
abbrev VO1_6 : View sig .tc .vmem S1024x64 .f32 := (Memref.whole cc1_stg6_0 : Memref sig .tc .vmem S1024x64 .f32).view
abbrev ms1_0 (t : Fin cfg1.N) : Memref sig .tc .vmem S1024x64 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x1 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x1 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1024x64 .f32 := win1_6.stage (cfg1.slots t 6)
abbrev hs1_6 (t : Fin cfg1.N) : (ms1_6 t).IsWhole := hstage1_6 ((cfg1.slots t 6).cast nbuf1_6)
/-- The accumulator: a whole scoped buffer of the kernel's own, passed beside the windows and carried between points. -/
abbrev scM1_0 : Memref sig .tc .vmem S1024x64 .f32 := Memref.whole cc1_scratch0
/-- The same as a view: what the accumulator holds is stated through it. -/
abbrev VS1_0 : View sig .tc .vmem S1024x64 .f32 := scM1_0.view

/-- The region's invariant at entry, spelt out: every scoped buffer that is no staging buffer of this region at some
    contents — the first region's nine staging buffers, and the accumulator as a memref owned at some contents — beside
    the generator register at some state. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ d, owns (c : Thread nD τ) scM1_0 fullShare d)) ∗ (∃ r, prngReg c r)) := by
  unfold Pipeline.ΦA; rw [scopedRest1_eq]; simp only [scM1_0, owns_whole]; try rfl

end Cert.Kernel.Frame1

end
-- ==== Proof.K.R1RunA.lean ====
import proofs.«173389_j39676907883922_1_alg».proof.Proof.K.R1Runs

-- membership of an index in a rectangle of these extents is checked structurally, one step per coordinate
set_option maxRecDepth 16384

noncomputable section

namespace Cert.Kernel.Frame1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run's proof term is large: closing the definition walks it past the default budget
set_option maxHeartbeats 1000000 in
/-- The body at the first column tile (the accumulator is reset; nothing is copied out), run on whole memrefs: the six input windows' buffers at
    their contents `x0 … x5`, the output window's buffer, which the body does not touch, handed back as it was (`xi6`), the accumulator at anything.
    It ends with the inputs as they were and the accumulator holding the body's stores, as pieces (last store first,
    `LS0`) written over what it held. The piece lists are found by the run. -/
noncomputable def kernelRun1_A (c : Dev nD) (i : grid1.Coords) (arg2 : Memref sig .tc .vmem S1024x64 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1x1 .f32) (harg7 : arg7.IsWhole) (arg8 : Memref sig .tc .vmem S1024x64 .f32) (harg8 : arg8.IsWhole) (arg9 : Memref sig .tc .vmem S1024x64 .f32) (harg9 : arg9.IsWhole) (hc0 : cond1_0 i) (hc1 : ¬cond1_1 i)
    (x0 : Vec F S1024x64 .f32) (x1 : Vec F S1024x64 .f32) (x2 : Vec F S1024x64 .f32) (x3 : Vec F S1024x1024 .f32) (x4 : Vec F S1024x1 .f32) (x5 : Vec F S1x1 .f32) :
    Σ' (L6 : List (View.Piece (Elt F) S1024x64 .f32)), { LS0 : List (View.Piece (Elt F) S1024x64 .f32) //
      ∀ (xi6 : Vec F S1024x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc1__attn_out_kernel i arg2 harg2 arg3 harg3 arg4 harg4 arg5 harg5 arg6 harg6 arg7 harg7 arg8 harg8 arg9 harg9) K } := by
  refine ⟨[], ?_, fun xi6 E K => ?run⟩
  case run =>
    simp only [cc1__attn_out_kernel_eq_skeleton]; unfold cc1__attn_out_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS0

end Cert.Kernel.Frame1

end
-- ==== Proof.K.R1RunB.lean ====
import proofs.«173389_j39676907883922_1_alg».proof.Proof.K.R1RunA

-- membership of an index in a rectangle of these extents is checked structurally, one step per coordinate
set_option maxRecDepth 16384

noncomputable section

namespace Cert.Kernel.Frame1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run's proof term is large: closing the definition walks it past the default budget
set_option maxHeartbeats 1000000 in
/-- The body at a middle column tile (neither branch is taken), run on whole memrefs: the six input windows' buffers at
    their contents `x0 … x5`, the output window's buffer, which the body does not touch, handed back as it was (`xi6`), the accumulator at the contents `xs0` the point before left.
    It ends with the inputs as they were and the accumulator holding the body's stores, as pieces (last store first,
    `LS0`) written over what it held. The piece lists are found by the run. -/
noncomputable def kernelRun1_B (c : Dev nD) (i : grid1.Coords) (arg2 : Memref sig .tc .vmem S1024x64 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1x1 .f32) (harg7 : arg7.IsWhole) (arg8 : Memref sig .tc .vmem S1024x64 .f32) (harg8 : arg8.IsWhole) (arg9 : Memref sig .tc .vmem S1024x64 .f32) (harg9 : arg9.IsWhole) (hc0 : ¬cond1_0 i) (hc1 : ¬cond1_1 i)
    (x0 : Vec F S1024x64 .f32) (x1 : Vec F S1024x64 .f32) (x2 : Vec F S1024x64 .f32) (x3 : Vec F S1024x1024 .f32) (x4 : Vec F S1024x1 .f32) (x5 : Vec F S1x1 .f32) (xs0 : Vec F S1024x64 .f32) :
    Σ' (L6 : List (View.Piece (Elt F) S1024x64 .f32)), { LS0 : List (View.Piece (Elt F) S1024x64 .f32) //
      ∀ (xi6 : Vec F S1024x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc1__attn_out_kernel i arg2 harg2 arg3 harg3 arg4 harg4 arg5 harg5 arg6 harg6 arg7 harg7 arg8 harg8 arg9 harg9) K } := by
  refine ⟨[], ?_, fun xi6 E K => ?run⟩
  case run =>
    simp only [cc1__attn_out_kernel_eq_skeleton]; unfold cc1__attn_out_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS0

end Cert.Kernel.Frame1

end
-- ==== Proof.K.R1RunC.lean ====
import proofs.«173389_j39676907883922_1_alg».proof.Proof.K.R1RunB

-- membership of an index in a rectangle of these extents is checked structurally, one step per coordinate
set_option maxRecDepth 16384

noncomputable section

namespace Cert.Kernel.Frame1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run's proof term is large: closing the definition walks it past the default budget
set_option maxHeartbeats 1000000 in
/-- The body at the last column tile (the accumulator is not reset; it is copied to the output block), run on whole memrefs: the six input windows' buffers at
    their contents `x0 … x5`, the output window's buffer at anything, handed back with the body's store written into it (`L6`), the accumulator at the contents `xs0` the point before left.
    It ends with the inputs as they were and the accumulator holding the body's stores, as pieces (last store first,
    `LS0`) written over what it held. The piece lists are found by the run. -/
noncomputable def kernelRun1_C (c : Dev nD) (i : grid1.Coords) (arg2 : Memref sig .tc .vmem S1024x64 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1x1 .f32) (harg7 : arg7.IsWhole) (arg8 : Memref sig .tc .vmem S1024x64 .f32) (harg8 : arg8.IsWhole) (arg9 : Memref sig .tc .vmem S1024x64 .f32) (harg9 : arg9.IsWhole) (hc0 : ¬cond1_0 i) (hc1 : cond1_1 i)
    (x0 : Vec F S1024x64 .f32) (x1 : Vec F S1024x64 .f32) (x2 : Vec F S1024x64 .f32) (x3 : Vec F S1024x1024 .f32) (x4 : Vec F S1024x1 .f32) (x5 : Vec F S1x1 .f32) (xs0 : Vec F S1024x64 .f32) :
    Σ' (L6 : List (View.Piece (Elt F) S1024x64 .f32)), { LS0 : List (View.Piece (Elt F) S1024x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0)) -∗ K ⟨⟩))
          ⊢ wp frame (wpE (defs₀ (F := F)) Variants.none c none) E (cc1__attn_out_kernel i arg2 harg2 arg3 harg3 arg4 harg4 arg5 harg5 arg6 harg6 arg7 harg7 arg8 harg8 arg9 harg9) K } := by
  refine ⟨?_, ?_, fun E K => ?run⟩
  case run =>
    simp only [cc1__attn_out_kernel_eq_skeleton]; unfold cc1__attn_out_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact HS0

end Cert.Kernel.Frame1

end
-- ==== Proof.K.R1Frame.lean ====
import proofs.«173389_j39676907883922_1_alg».proof.Proof.K.R1RunC

-- membership of an index in a rectangle of these extents is checked structurally, one step per coordinate
set_option maxRecDepth 16384

noncomputable section

namespace Cert.Kernel.Frame1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second kernel region: what its buffers hold point by point, its proof data, and the body obligation -/

/-! ## What each case leaves, read back from the pieces its run found -/

/-- In case A the body stores nothing into the output window: no pieces. A placeholder that nothing consults, since
    at these points the window is neither written back nor read at the next point. -/
def out1_A_6 (c : Dev nD) (i : grid1.Coords) (arg2 : Memref sig .tc .vmem S1024x64 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1x1 .f32) (harg7 : arg7.IsWhole) (arg8 : Memref sig .tc .vmem S1024x64 .f32) (harg8 : arg8.IsWhole) (arg9 : Memref sig .tc .vmem S1024x64 .f32) (harg9 : arg9.IsWhole) (hc0 : cond1_0 i) (hc1 : ¬cond1_1 i)
    (x0 : Vec F S1024x64 .f32) (x1 : Vec F S1024x64 .f32) (x2 : Vec F S1024x64 .f32) (x3 : Vec F S1024x1024 .f32) (x4 : Vec F S1024x1 .f32) (x5 : Vec F S1x1 .f32) : Vec F S1024x64 .f32 :=
  VO1_6.read (Elt F) (VO1_6.writes (Elt F) VO1_6.junk (kernelRun1_A c i arg2 harg2 arg3 harg3 arg4 harg4 arg5 harg5 arg6 harg6 arg7 harg7 arg8 harg8 arg9 harg9 hc0 hc1 x0 x1 x2 x3 x4 x5).1)

/-- Case A's stores into the accumulator cover it. -/
theorem scover1_A_0 (c : Dev nD) (i : grid1.Coords) (arg2 : Memref sig .tc .vmem S1024x64 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1x1 .f32) (harg7 : arg7.IsWhole) (arg8 : Memref sig .tc .vmem S1024x64 .f32) (harg8 : arg8.IsWhole) (arg9 : Memref sig .tc .vmem S1024x64 .f32) (harg9 : arg9.IsWhole) (hc0 : cond1_0 i) (hc1 : ¬cond1_1 i)
    (x0 : Vec F S1024x64 .f32) (x1 : Vec F S1024x64 .f32) (x2 : Vec F S1024x64 .f32) (x3 : Vec F S1024x1024 .f32) (x4 : Vec F S1024x1 .f32) (x5 : Vec F S1x1 .f32) (y : S1024x64.Idx) :
    ∃ pc ∈ (kernelRun1_A c i arg2 harg2 arg3 harg3 arg4 harg4 arg5 harg5 arg6 harg6 arg7 harg7 arg8 harg8 arg9 harg9 hc0 hc1 x0 x1 x2 x3 x4 x5).2.1, y ∈ pc.1.set :=
  View.cover_of_tiledL (kernelRun1_A c i arg2 harg2 arg3 harg3 arg4 harg4 arg5 harg5 arg6 harg6 arg7 harg7 arg8 harg8 arg9 harg9 hc0 hc1 x0 x1 x2 x3 x4 x5).2.1 S1024x64.size (by sl_kernel_rfl) y

/-- What case A leaves in the accumulator: its pieces read back. -/
def sout1_A_0 (c : Dev nD) (i : grid1.Coords) (arg2 : Memref sig .tc .vmem S1024x64 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1x1 .f32) (harg7 : arg7.IsWhole) (arg8 : Memref sig .tc .vmem S1024x64 .f32) (harg8 : arg8.IsWhole) (arg9 : Memref sig .tc .vmem S1024x64 .f32) (harg9 : arg9.IsWhole) (hc0 : cond1_0 i) (hc1 : ¬cond1_1 i)
    (x0 : Vec F S1024x64 .f32) (x1 : Vec F S1024x64 .f32) (x2 : Vec F S1024x64 .f32) (x3 : Vec F S1024x1024 .f32) (x4 : Vec F S1024x1 .f32) (x5 : Vec F S1x1 .f32) : Vec F S1024x64 .f32 :=
  VS1_0.read (Elt F) (VS1_0.writes (Elt F) VS1_0.junk (kernelRun1_A c i arg2 harg2 arg3 harg3 arg4 harg4 arg5 harg5 arg6 harg6 arg7 harg7 arg8 harg8 arg9 harg9 hc0 hc1 x0 x1 x2 x3 x4 x5).2.1)

/-- In case B the body stores nothing into the output window: no pieces. A placeholder that nothing consults, since
    at these points the window is neither written back nor read at the next point. -/
def out1_B_6 (c : Dev nD) (i : grid1.Coords) (arg2 : Memref sig .tc .vmem S1024x64 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1x1 .f32) (harg7 : arg7.IsWhole) (arg8 : Memref sig .tc .vmem S1024x64 .f32) (harg8 : arg8.IsWhole) (arg9 : Memref sig .tc .vmem S1024x64 .f32) (harg9 : arg9.IsWhole) (hc0 : ¬cond1_0 i) (hc1 : ¬cond1_1 i)
    (x0 : Vec F S1024x64 .f32) (x1 : Vec F S1024x64 .f32) (x2 : Vec F S1024x64 .f32) (x3 : Vec F S1024x1024 .f32) (x4 : Vec F S1024x1 .f32) (x5 : Vec F S1x1 .f32) (xs0 : Vec F S1024x64 .f32) : Vec F S1024x64 .f32 :=
  VO1_6.read (Elt F) (VO1_6.writes (Elt F) VO1_6.junk (kernelRun1_B c i arg2 harg2 arg3 harg3 arg4 harg4 arg5 harg5 arg6 harg6 arg7 harg7 arg8 harg8 arg9 harg9 hc0 hc1 x0 x1 x2 x3 x4 x5 xs0).1)

/-- Case B's stores into the accumulator cover it. -/
theorem scover1_B_0 (c : Dev nD) (i : grid1.Coords) (arg2 : Memref sig .tc .vmem S1024x64 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1x1 .f32) (harg7 : arg7.IsWhole) (arg8 : Memref sig .tc .vmem S1024x64 .f32) (harg8 : arg8.IsWhole) (arg9 : Memref sig .tc .vmem S1024x64 .f32) (harg9 : arg9.IsWhole) (hc0 : ¬cond1_0 i) (hc1 : ¬cond1_1 i)
    (x0 : Vec F S1024x64 .f32) (x1 : Vec F S1024x64 .f32) (x2 : Vec F S1024x64 .f32) (x3 : Vec F S1024x1024 .f32) (x4 : Vec F S1024x1 .f32) (x5 : Vec F S1x1 .f32) (xs0 : Vec F S1024x64 .f32) (y : S1024x64.Idx) :
    ∃ pc ∈ (kernelRun1_B c i arg2 harg2 arg3 harg3 arg4 harg4 arg5 harg5 arg6 harg6 arg7 harg7 arg8 harg8 arg9 harg9 hc0 hc1 x0 x1 x2 x3 x4 x5 xs0).2.1, y ∈ pc.1.set :=
  View.cover_of_tiledL (kernelRun1_B c i arg2 harg2 arg3 harg3 arg4 harg4 arg5 harg5 arg6 harg6 arg7 harg7 arg8 harg8 arg9 harg9 hc0 hc1 x0 x1 x2 x3 x4 x5 xs0).2.1 S1024x64.size (by sl_kernel_rfl) y

/-- What case B leaves in the accumulator: its pieces read back. -/
def sout1_B_0 (c : Dev nD) (i : grid1.Coords) (arg2 : Memref sig .tc .vmem S1024x64 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1x1 .f32) (harg7 : arg7.IsWhole) (arg8 : Memref sig .tc .vmem S1024x64 .f32) (harg8 : arg8.IsWhole) (arg9 : Memref sig .tc .vmem S1024x64 .f32) (harg9 : arg9.IsWhole) (hc0 : ¬cond1_0 i) (hc1 : ¬cond1_1 i)
    (x0 : Vec F S1024x64 .f32) (x1 : Vec F S1024x64 .f32) (x2 : Vec F S1024x64 .f32) (x3 : Vec F S1024x1024 .f32) (x4 : Vec F S1024x1 .f32) (x5 : Vec F S1x1 .f32) (xs0 : Vec F S1024x64 .f32) : Vec F S1024x64 .f32 :=
  VS1_0.read (Elt F) (VS1_0.writes (Elt F) VS1_0.junk (kernelRun1_B c i arg2 harg2 arg3 harg3 arg4 harg4 arg5 harg5 arg6 harg6 arg7 harg7 arg8 harg8 arg9 harg9 hc0 hc1 x0 x1 x2 x3 x4 x5 xs0).2.1)

/-- In case C the body's one store into the output window covers its block. -/
theorem cover1_C_6 (c : Dev nD) (i : grid1.Coords) (arg2 : Memref sig .tc .vmem S1024x64 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1x1 .f32) (harg7 : arg7.IsWhole) (arg8 : Memref sig .tc .vmem S1024x64 .f32) (harg8 : arg8.IsWhole) (arg9 : Memref sig .tc .vmem S1024x64 .f32) (harg9 : arg9.IsWhole) (hc0 : ¬cond1_0 i) (hc1 : cond1_1 i)
    (x0 : Vec F S1024x64 .f32) (x1 : Vec F S1024x64 .f32) (x2 : Vec F S1024x64 .f32) (x3 : Vec F S1024x1024 .f32) (x4 : Vec F S1024x1 .f32) (x5 : Vec F S1x1 .f32) (xs0 : Vec F S1024x64 .f32) (y : S1024x64.Idx) :
    ∃ pc ∈ (kernelRun1_C c i arg2 harg2 arg3 harg3 arg4 harg4 arg5 harg5 arg6 harg6 arg7 harg7 arg8 harg8 arg9 harg9 hc0 hc1 x0 x1 x2 x3 x4 x5 xs0).1, y ∈ pc.1.set :=
  View.cover_of_tiledL (kernelRun1_C c i arg2 harg2 arg3 harg3 arg4 harg4 arg5 harg5 arg6 harg6 arg7 harg7 arg8 harg8 arg9 harg9 hc0 hc1 x0 x1 x2 x3 x4 x5 xs0).1 S1024x64.size (by sl_kernel_rfl) y

/-- What case C leaves in the output window's staging buffer: its pieces read back. -/
def out1_C_6 (c : Dev nD) (i : grid1.Coords) (arg2 : Memref sig .tc .vmem S1024x64 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1x1 .f32) (harg7 : arg7.IsWhole) (arg8 : Memref sig .tc .vmem S1024x64 .f32) (harg8 : arg8.IsWhole) (arg9 : Memref sig .tc .vmem S1024x64 .f32) (harg9 : arg9.IsWhole) (hc0 : ¬cond1_0 i) (hc1 : cond1_1 i)
    (x0 : Vec F S1024x64 .f32) (x1 : Vec F S1024x64 .f32) (x2 : Vec F S1024x64 .f32) (x3 : Vec F S1024x1024 .f32) (x4 : Vec F S1024x1 .f32) (x5 : Vec F S1x1 .f32) (xs0 : Vec F S1024x64 .f32) : Vec F S1024x64 .f32 :=
  VO1_6.read (Elt F) (VO1_6.writes (Elt F) VO1_6.junk (kernelRun1_C c i arg2 harg2 arg3 harg3 arg4 harg4 arg5 harg5 arg6 harg6 arg7 harg7 arg8 harg8 arg9 harg9 hc0 hc1 x0 x1 x2 x3 x4 x5 xs0).1)

/-- Case C's stores into the accumulator cover it. -/
theorem scover1_C_0 (c : Dev nD) (i : grid1.Coords) (arg2 : Memref sig .tc .vmem S1024x64 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1x1 .f32) (harg7 : arg7.IsWhole) (arg8 : Memref sig .tc .vmem S1024x64 .f32) (harg8 : arg8.IsWhole) (arg9 : Memref sig .tc .vmem S1024x64 .f32) (harg9 : arg9.IsWhole) (hc0 : ¬cond1_0 i) (hc1 : cond1_1 i)
    (x0 : Vec F S1024x64 .f32) (x1 : Vec F S1024x64 .f32) (x2 : Vec F S1024x64 .f32) (x3 : Vec F S1024x1024 .f32) (x4 : Vec F S1024x1 .f32) (x5 : Vec F S1x1 .f32) (xs0 : Vec F S1024x64 .f32) (y : S1024x64.Idx) :
    ∃ pc ∈ (kernelRun1_C c i arg2 harg2 arg3 harg3 arg4 harg4 arg5 harg5 arg6 harg6 arg7 harg7 arg8 harg8 arg9 harg9 hc0 hc1 x0 x1 x2 x3 x4 x5 xs0).2.1, y ∈ pc.1.set :=
  View.cover_of_tiledL (kernelRun1_C c i arg2 harg2 arg3 harg3 arg4 harg4 arg5 harg5 arg6 harg6 arg7 harg7 arg8 harg8 arg9 harg9 hc0 hc1 x0 x1 x2 x3 x4 x5 xs0).2.1 S1024x64.size (by sl_kernel_rfl) y

/-- What case C leaves in the accumulator: its pieces read back. -/
def sout1_C_0 (c : Dev nD) (i : grid1.Coords) (arg2 : Memref sig .tc .vmem S1024x64 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1x1 .f32) (harg7 : arg7.IsWhole) (arg8 : Memref sig .tc .vmem S1024x64 .f32) (harg8 : arg8.IsWhole) (arg9 : Memref sig .tc .vmem S1024x64 .f32) (harg9 : arg9.IsWhole) (hc0 : ¬cond1_0 i) (hc1 : cond1_1 i)
    (x0 : Vec F S1024x64 .f32) (x1 : Vec F S1024x64 .f32) (x2 : Vec F S1024x64 .f32) (x3 : Vec F S1024x1024 .f32) (x4 : Vec F S1024x1 .f32) (x5 : Vec F S1x1 .f32) (xs0 : Vec F S1024x64 .f32) : Vec F S1024x64 .f32 :=
  VS1_0.read (Elt F) (VS1_0.writes (Elt F) VS1_0.junk (kernelRun1_C c i arg2 harg2 arg3 harg3 arg4 harg4 arg5 harg5 arg6 harg6 arg7 harg7 arg8 harg8 arg9 harg9 hc0 hc1 x0 x1 x2 x3 x4 x5 xs0).2.1)

section Region
variable (V : (c : Dev nD) → (b : Ref sig .tc) → Buf (Elt F) ((c : Thread nD τ).loc b))

/-! ## What the output window's buffer and the accumulator hold after each point -/

/-- After the body at position `n`: (the output window's staging buffer, the accumulator). The case is the one the
    column tile `n % 4` selects, run on the point's memrefs and input blocks, the accumulator — where the case reads
    it — at what position `n - 1` left. -/
def outsAt1 (c : Dev nD) : (n : ℕ) → n < cfg1.N → Vec F S1024x64 .f32 × Vec F S1024x64 .f32
  | 0, hn => (out1_A_6 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩))
  | n + 1, hn =>
    if h0 : (n + 1) % 4 = 0 then
      if h1 : (n + 1) % 4 = 3 then
        False.elim (by omega)
      else
        (out1_A_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩))
    else
      if h1 : (n + 1) % 4 = 3 then
        (out1_C_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2)
      else
        (out1_B_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2)

/-- At a first column tile. -/
theorem outsAt1_A (c : Dev nD) (t : Fin cfg1.N) (h0 : t.val % 4 = 0) (h1 : ¬t.val % 4 = 3) :
    outsAt1 V c t.val t.isLt = (out1_A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t)) := by
  obtain ⟨n, hn⟩ := t
  cases n with
  | zero => exact rfl
  | succ n => exact (dif_pos h0).trans ((dif_neg h1).trans rfl)

/-- At a middle column tile: over what the point before left. -/
theorem outsAt1_B (c : Dev nD) (t : Fin cfg1.N) (h0 : ¬t.val % 4 = 0) (h1 : ¬t.val % 4 = 3) :
    outsAt1 V c t.val t.isLt = (out1_B_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a last column tile: over what the point before left. -/
theorem outsAt1_C (c : Dev nD) (t : Fin cfg1.N) (h0 : ¬t.val % 4 = 0) (h1 : t.val % 4 = 3) :
    outsAt1 V c t.val t.isLt = (out1_C_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- Before position `n`: at the first point what the region is entered with (every scoped buffer that is not a
    staging buffer of this region at some contents, the generator register at some state); afterwards the same with
    the accumulator at what the point before left in it. -/
def PhiS (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ owns (c : Thread nD τ) scM1_0 fullShare ((outsAt1 V c n hn).2)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ owns (c : Thread nD τ) scM1_0 fullShare ((outsAt1 V c n hn).2)) ∗ (∃ r, prngReg c r)) := rfl

theorem PhiS_pos (c : Dev nD) (n : ℕ) (h : n ≤ cfg1.N) (hz : n ≠ 0) :
    PhiS V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ owns (c : Thread nD τ) scM1_0 fullShare ((outsAt1 V c (n - 1) (by omega)).2)) ∗ (∃ r, prngReg c r)) := by
  cases n with
  | zero => exact absurd rfl hz
  | succ n => rfl

/-! ## The proof data -/

/-- The proof data of this pipeline on core `c`: the arrays as the region finds them; after the body at point `t`
    each input window's buffer at its block and the output window's at `outsAt1`'s first component; the invariant
    `PhiS`; full shares; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => (outsAt1 V c t.val t.isLt).1
  Φ t := PhiS V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation -/

/-- What the body is called with at point `t`, the windows one by one, -/
def bodyPre (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

/-- and what it returns. -/
def bodyPost (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 6400000 in
/-- The body at any point. The inputs' memrefs hold their blocks; the column tile says which case the point is in,
    so that case's run applies. The invariant hands the run the accumulator — at what the point before left, or at
    anything at the very first point — and takes it back at this point's contents (the case's stores cover it); the
    other scoped buffers, the generator register and the core's dues pass through. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before1_0, before1_1, before1_2, before1_3, before1_4, before1_5]
  rw [show (dat1 V c).owesAt () t.succ = (dat1 V c).owesAt () t.castSucc from rfl]
  rw [show (dat1 V c).Φ t.succ = PhiS V c (t.val + 1) t.isLt from rfl, PhiS_succ]
  have hN : t.val < 16 := lt_of_lt_of_eq t.isLt (show cfg1.N = 16 from N_1)
  by_cases h0 : t.val % 4 = 0
  · by_cases h1 : t.val % 4 = 3
    · exfalso; omega
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [Dat.leavesExact_idle (dat1 V c) 6 t (idleAt1_6_A t ((hcond1_0 t).mpr h0) (fun h => h1 ((hcond1_1 t).mp h))) (noFlush1_6_A t ((hcond1_0 t).mpr h0) (fun h => h1 ((hcond1_1 t).mp h)))]
      rw [outsAt1_A V c t h0 h1]
      unfold sout1_A_0; (try dsimp only)
      by_cases hz : t.val = 0
      · rw [PhiS_castSucc V c t, PhiS_zero V c _ _ hz, PhiA1_eq]
        iintro ⟨⟨⟨HR0, HR1, HR2, HR3, HR4, HR5, HR6, HR7, HR8, HS0⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun1_A c (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        iintro ⟨H0, H1, H2, H3, H4, H5, H6, ⟨%es0, HS0⟩⟩
        isplitl [HR0 HR1 HR2 HR3 HR4 HR5 HR6 HR7 HR8 HS0 Hg]
        · isplitl [HR0 HR1 HR2 HR3 HR4 HR5 HR6 HR7 HR8 HS0]
          · isplitl [HR0]; · iexact HR0
            isplitl [HR1]; · iexact HR1
            isplitl [HR2]; · iexact HR2
            isplitl [HR3]; · iexact HR3
            isplitl [HR4]; · iexact HR4
            isplitl [HR5]; · iexact HR5
            isplitl [HR6]; · iexact HR6
            isplitl [HR7]; · iexact HR7
            isplitl [HR8]; · iexact HR8
            unfold owns; iexists _; isplitr
            swap; · iexact HS0
            ipureintro; exact View.read_writes_of_cover _ _ _ _ _ (scover1_A_0 c _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
      · rw [PhiS_castSucc V c t, PhiS_pos V c _ _ hz]
        iintro ⟨⟨⟨HR0, HR1, HR2, HR3, HR4, HR5, HR6, HR7, HR8, HS0⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun1_A c (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexists _; iexact HS0
        iintro ⟨H0, H1, H2, H3, H4, H5, H6, ⟨%es0, HS0⟩⟩
        isplitl [HR0 HR1 HR2 HR3 HR4 HR5 HR6 HR7 HR8 HS0 Hg]
        · isplitl [HR0 HR1 HR2 HR3 HR4 HR5 HR6 HR7 HR8 HS0]
          · isplitl [HR0]; · iexact HR0
            isplitl [HR1]; · iexact HR1
            isplitl [HR2]; · iexact HR2
            isplitl [HR3]; · iexact HR3
            isplitl [HR4]; · iexact HR4
            isplitl [HR5]; · iexact HR5
            isplitl [HR6]; · iexact HR6
            isplitl [HR7]; · iexact HR7
            isplitl [HR8]; · iexact HR8
            unfold owns; iexists _; isplitr
            swap; · iexact HS0
            ipureintro; exact View.read_writes_of_cover _ _ _ _ _ (scover1_A_0 c _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
  · by_cases h1 : t.val % 4 = 3
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [show (dat1 V c).leavesExact 6 t = owns (c : Thread nD τ) (ms1_6 t) fullShare ((dat1 V c).after 6 t) from by
        unfold Dat.leavesExact; rw [liveAt1_6_C t (fun h => h0 ((hcond1_0 t).mp h)) ((hcond1_1 t).mpr h1)], after1_6]
      rw [outsAt1_C V c t h0 h1]
      unfold out1_C_6 sout1_C_0; (try dsimp only)
      have hz : t.val ≠ 0 := by omega
      rw [PhiS_castSucc V c t, PhiS_pos V c _ _ hz]
      iintro ⟨⟨⟨HR0, HR1, HR2, HR3, HR4, HR5, HR6, HR7, HR8, HS0⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_C c (grid1.coords t) _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) (iblk1 V c 5 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      iintro ⟨H0, H1, H2, H3, H4, H5, ⟨%e6, H6⟩, ⟨%es0, HS0⟩⟩
      isplitl [HR0 HR1 HR2 HR3 HR4 HR5 HR6 HR7 HR8 HS0 Hg]
      · isplitl [HR0 HR1 HR2 HR3 HR4 HR5 HR6 HR7 HR8 HS0]
        · isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          isplitl [HR8]; · iexact HR8
          unfold owns; iexists _; isplitr
          swap; · iexact HS0
          ipureintro; exact View.read_writes_of_cover _ _ _ _ _ (scover1_C_0 c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover1_C_6 c _ _ _ _ _ _ _ _ _ _ _ _ _ _ _ _ _ _ _ _ _ _ _ _ _ _)
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [Dat.leavesExact_idle (dat1 V c) 6 t (idleAt1_6_B t (fun h => h0 ((hcond1_0 t).mp h)) (fun h => h1 ((hcond1_1 t).mp h))) (noFlush1_6_B t (fun h => h0 ((hcond1_0 t).mp h)) (fun h => h1 ((hcond1_1 t).mp h)))]
      rw [outsAt1_B V c t h0 h1]
      unfold sout1_B_0; (try dsimp only)
      have hz : t.val ≠ 0 := by omega
      rw [PhiS_castSucc V c t, PhiS_pos V c _ _ hz]
      iintro ⟨⟨⟨HR0, HR1, HR2, HR3, HR4, HR5, HR6, HR7, HR8, HS0⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_B c (grid1.coords t) _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      iintro ⟨H0, H1, H2, H3, H4, H5, H6, ⟨%es0, HS0⟩⟩
      isplitl [HR0 HR1 HR2 HR3 HR4 HR5 HR6 HR7 HR8 HS0 Hg]
      · isplitl [HR0 HR1 HR2 HR3 HR4 HR5 HR6 HR7 HR8 HS0]
        · isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          isplitl [HR8]; · iexact HR8
          unfold owns; iexists _; isplitr
          swap; · iexact HS0
          ipureintro; exact View.read_writes_of_cover _ _ _ _ _ (scover1_B_0 c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation1 (c : Dev nD) : BodyObligation (dat1 (F := F) V c) (defs₀ (F := F)) Variants.none () Set.univ := fun t => by
  rw [bigSep_W1, bigSep_W1]
  exact sound_body V c t

/-- What the region is entered with is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point but the first the invariant gives the entry invariant back: what the accumulator holds is forgotten. -/
theorem Phi_out (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨⟨HR0, HR1, HR2, HR3, HR4, HR5, HR6, HR7, HR8, HS0⟩, Hg⟩
  isplitl [HR0 HR1 HR2 HR3 HR4 HR5 HR6 HR7 HR8 HS0]
  · isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    isplitl [HR7]; · iexact HR7
    isplitl [HR8]; · iexact HR8
    iexists _; iexact HS0
  iexact Hg

/-- The same after the last point. -/
theorem hout1 (c : Dev nD) : (dat1 V c).Φ (Fin.last cfg1.N) ⊢ Pipeline.ΦA spec1 c :=
  Phi_out V c _ (by rw [Fin.val_last]; have : cfg1.N = 16 := N_1; omega)

end Region

end Cert.Kernel.Frame1

end
-- ==== Proof.K.Run.lean ====
/- The whole program's run. The program is two kernel regions and nothing else: the first leaves the sum of the
   floor mask in a one-element array, the second reads that array and leaves the attention output. Between the
   regions the buffers hold what the first region's write-backs left; at the end every argument array holds what it
   held at launch (no region writes one) and the two result arrays hold what their regions' write-backs left. -/
import proofs.«173389_j39676907883922_1_alg».proof.Proof.K.R0Frame
import proofs.«173389_j39676907883922_1_alg».proof.Proof.K.R1Frame
import Idealize.ShloMosaic.Lib.Pipeline.RegionsLoop
import Idealize.ShloMosaic.Lib.Pipeline.FrameSuffix

set_option maxRecDepth 16384

noncomputable section

namespace Cert.Kernel.Run

open Cert.Kernel Cert.Kernel.Gen Cert.Kernel.Frame0 Cert.Kernel.Frame1
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents before, between and after the two regions -/

/-- Core c's buffers at launch: what the first region is entered with. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- After the first region: its windows' arrays at what its write-backs left, every other buffer as before. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the second region: its windows' arrays at what its write-backs left, every other buffer as before. -/
def W2 (c : Dev nD) : Valuation τ sig (Elt F) :=
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
abbrev V2 : (c : Dev nD) → (b : Ref sig .tc) → Buf (Elt F) ((c : Thread nD τ).loc b) := fun c b => W2 m ρ c b
theorem hF1 (c : Dev nD) (w : Fin cfg1.W) : (dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-! ## The arguments end as launched: a region reads an argument through an input window, which keeps its array, or
    does not touch it at all -/

theorem W2_main_arg0 (c : Dev nD) : W2 m ρ c (Proc.devRef .tc main_arg0) = m ((c : Thread nD τ).loc main_arg0) :=
  calc W2 m ρ c (Proc.devRef .tc main_arg0)
    _ = W1 m ρ c (Proc.devRef .tc main_arg0) := (W2_arr m ρ c 0).trans (((dat1 (V1 m ρ) c).arrAt_in 0 rfl _).trans (A_eq1 (V1 m ρ) c 0))
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl

theorem W2_main_arg1 (c : Dev nD) : W2 m ρ c (Proc.devRef .tc main_arg1) = m ((c : Thread nD τ).loc main_arg1) :=
  calc W2 m ρ c (Proc.devRef .tc main_arg1)
    _ = W1 m ρ c (Proc.devRef .tc main_arg1) := (W2_arr m ρ c 1).trans (((dat1 (V1 m ρ) c).arrAt_in 1 rfl _).trans (A_eq1 (V1 m ρ) c 1))
    _ = W0 m ρ c (Proc.devRef .tc main_arg1) := (W1_arr m ρ c 1).trans (((dat0 (V0 m ρ) c).arrAt_in 1 rfl _).trans (A_eq0 (V0 m ρ) c 1))
    _ = m ((c : Thread nD τ).loc main_arg1) := rfl

theorem W2_main_arg2 (c : Dev nD) : W2 m ρ c (Proc.devRef .tc main_arg2) = m ((c : Thread nD τ).loc main_arg2) :=
  calc W2 m ρ c (Proc.devRef .tc main_arg2)
    _ = W1 m ρ c (Proc.devRef .tc main_arg2) := (W2_arr m ρ c 2).trans (((dat1 (V1 m ρ) c).arrAt_in 2 rfl _).trans (A_eq1 (V1 m ρ) c 2))
    _ = W0 m ρ c (Proc.devRef .tc main_arg2) := W1_of_ne m ρ c main_arg2 (by decide)
    _ = m ((c : Thread nD τ).loc main_arg2) := rfl

theorem W2_main_arg3 (c : Dev nD) : W2 m ρ c (Proc.devRef .tc main_arg3) = m ((c : Thread nD τ).loc main_arg3) :=
  calc W2 m ρ c (Proc.devRef .tc main_arg3)
    _ = W1 m ρ c (Proc.devRef .tc main_arg3) := (W2_arr m ρ c 3).trans (((dat1 (V1 m ρ) c).arrAt_in 3 rfl _).trans (A_eq1 (V1 m ρ) c 3))
    _ = W0 m ρ c (Proc.devRef .tc main_arg3) := (W1_arr m ρ c 2).trans (((dat0 (V0 m ρ) c).arrAt_in 2 rfl _).trans (A_eq0 (V0 m ρ) c 2))
    _ = m ((c : Thread nD τ).loc main_arg3) := rfl

theorem W2_main_arg4 (c : Dev nD) : W2 m ρ c (Proc.devRef .tc main_arg4) = m ((c : Thread nD τ).loc main_arg4) :=
  calc W2 m ρ c (Proc.devRef .tc main_arg4)
    _ = W1 m ρ c (Proc.devRef .tc main_arg4) := (W2_arr m ρ c 4).trans (((dat1 (V1 m ρ) c).arrAt_in 4 rfl _).trans (A_eq1 (V1 m ρ) c 4))
    _ = W0 m ρ c (Proc.devRef .tc main_arg4) := (W1_arr m ρ c 3).trans (((dat0 (V0 m ρ) c).arrAt_in 3 rfl _).trans (A_eq0 (V0 m ρ) c 3))
    _ = m ((c : Thread nD τ).loc main_arg4) := rfl

theorem W2_main_arg5 (c : Dev nD) : W2 m ρ c (Proc.devRef .tc main_arg5) = m ((c : Thread nD τ).loc main_arg5) :=
  calc W2 m ρ c (Proc.devRef .tc main_arg5)
    _ = W1 m ρ c (Proc.devRef .tc main_arg5) := W2_of_ne m ρ c main_arg5 (by decide)
    _ = W0 m ρ c (Proc.devRef .tc main_arg5) := W1_of_ne m ρ c main_arg5 (by decide)
    _ = m ((c : Thread nD τ).loc main_arg5) := rfl

/-- The second region's result array ends at what its write-backs left. -/
theorem W2_main_v1 (c : Dev nD) : W2 m ρ c (Proc.devRef .tc main_v1) = (dat1 (V1 m ρ) c).arrAt 6 cfg1.N := W2_arr m ρ c 6
/-- The one-element sum the second region is entered with is what the first region's write-back left. -/
theorem V1_main_v0 (c : Dev nD) : V1 m ρ c main_v0 = (dat0 (V0 m ρ) c).arrAt 4 cfg0.N := W1_arr m ρ c 4

/-! ## The proof data family and the thread state -/

abbrev adm : (p : Fin 2) → (pcfgs (F := F) p).Adm := fun p => (cfgs p).toPCfg_adm
/-- Each region's proof data at the contents it is entered with. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
abbrev 𝒱₀ : Variants := Variants.none
abbrev L : GSem nD τ sig → Finset Unit := fun _ => ∅
abbrev lv : GSem nD τ sig → Unit → ℕ := fun _ _ => 0
/-- What rides beside the buffers through both regions: the generator register at some state, nothing owed. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W2 m ρ c) ∗ ∃ r, prngReg c r)

/-! ## The regions as segments -/

set_option backward.isDefEq.respectTransparency.types false in
/-- Region 0 over the thread state: entered from every unscoped buffer at the contents before it, left at the
    contents after it. Its windows' arrays are split out of the unscoped buffers on entry and put back, at what the
    write-backs left, on exit; the generator register goes into the region's invariant and comes back; nothing is
    owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents before it, left at the
    contents after it. Its windows' arrays are split out of the unscoped buffers on entry and put back, at what the
    write-backs left, on exit; the generator register goes into the region's invariant and comes back; nothing is
    owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    have h : (Pipeline.ΦA spec1 c : sProp 𝕄) ⊢ iprop((∃ r, prngReg c r) ∗ BI.emp ∗ Pipeline.scopedRest spec1 c) := by
      unfold Pipeline.ΦA
      iintro ⟨Hr, Hp⟩
      isplitl [Hp]; · iexact Hp
      isplitr; · iempintro
      iexact Hr
    exact (hout1 (V1 m ρ) c).trans h
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its two segments, and the run -/

abbrev segs : List (Pipeline.Seg (pcfgs (F := F)) adm (pdats m ρ) () defs₀ 𝒱₀ L lv) :=
  [ .region (reg0 m ρ), .region (reg1 m ρ) ]
theorem main_run (c : Dev nD) : main (F := F) c = Pipeline.Seg.run (segs m ρ) := (main_chain c).trans (by chain_rfl)

set_option backward.isDefEq.respectTransparency.types false in
/-- From any memory with zero counters every weakly fair execution of the program terminates, nothing faulting, and
    in every final state each unscoped buffer holds the contents after the second region: so the result array holds
    what the second region's write-backs left, and each of the six arguments what it held at launch. -/
theorem run : θ_run defs (onTc (τ := τ) (main (F := F))) ⟨m, fun _ => 0, ρ⟩ (fun r => ∀ c : Dev nD,
      r.2.mem ((c.tc : Thread nD τ).loc main_v1) = (dat1 (V1 m ρ) c).arrAt 6 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h c =>
      ⟨(h c _ (mem_uc main_v1 (by decide))).trans (W2_main_v1 m ρ c),
       (h c _ (mem_uc main_arg0 (by decide))).trans (W2_main_arg0 m ρ c),
       (h c _ (mem_uc main_arg1 (by decide))).trans (W2_main_arg1 m ρ c),
       (h c _ (mem_uc main_arg2 (by decide))).trans (W2_main_arg2 m ρ c),
       (h c _ (mem_uc main_arg3 (by decide))).trans (W2_main_arg3 m ρ c),
       (h c _ (mem_uc main_arg4 (by decide))).trans (W2_main_arg4 m ρ c),
       (h c _ (mem_uc main_arg5 (by decide))).trans (W2_main_arg5 m ρ c)⟩)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => (h c).2) (run m ρ)

end Cert.Kernel.Run

end
-- ==== Proof.KI.R0Runs.lean ====
/- The first region (the sum of the floor mask over all sixteen tiles): what its two control cases share.
   The region runs over a 4 x 4 grid; at point t = 4 i + j it sees row-tile i of the queries and of the row factors,
   row-tile j of the keys, tile (i, j) of the uniform draws, and the one-element accumulator. The accumulator is
   reset at the first point only and added to at every point. -/
import proofs.«173389_j39676907883922_1_alg».proof.Proof.Gen.KernelIdeal.Launch
import proofs.«173389_j39676907883922_1_alg».proof.Proof.Gen.KernelIdeal.Skeleton
import proofs.«173389_j39676907883922_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Frame0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the buffer contents the region is entered with, per core: every statement below is relative to them
variable (V : (c : Dev nD) → (b : Ref sig .tc) → Buf (Elt F) ((c : Thread nD τ).loc b))

/-- Window w's block at grid point t, read off the window's array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block of the array at every grid point, whether the block was
    fetched at that point or kept from an earlier one (its index did not move in between). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block of the array at every grid point, whether the block was
    fetched at that point or kept from an earlier one (its index did not move in between). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block of the array at every grid point, whether the block was
    fetched at that point or kept from an earlier one (its index did not move in between). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block of the array at every grid point, whether the block was
    fetched at that point or kept from an earlier one (its index did not move in between). -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- The reset condition as the body computes it from the grid coordinates: both coordinates are zero. -/
abbrev cond0_0 (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first of the sixteen points and at no other. -/
theorem hcond0_0 : ∀ t : Fin cfg0.N, cond0_0 (grid0.coords t) ↔ t.val % 16 = 0 :=
  (by decide +kernel : ∀ t : Fin grid0.N, cond0_0 (grid0.coords t) ↔ t.val % 16 = 0)

/-- One staging buffer of the accumulator's window, through which its contents are stated. -/
abbrev VO0_4 : View sig .tc .vmem S1x1 .f32 := (Memref.whole cc0_stg4_0 : Memref sig .tc .vmem S1x1 .f32).view
/-- Each window's current staging memref at point t, and that it is a whole buffer. -/
abbrev ms0_0 (t : Fin cfg0.N) : Memref sig .tc .vmem S1024x64 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1 .f32 := win0_4.stage (cfg0.slots t 4)
abbrev hs0_4 (t : Fin cfg0.N) : (ms0_4 t).IsWhole := hstage0_4 ((cfg0.slots t 4).cast nbuf0_4)

end Cert.KernelIdeal.Frame0

end
-- ==== Proof.KI.R0RunA.lean ====
/- The first region's body at the first grid point, where the accumulator is reset: run symbolically on whole
   staging buffers. The four inputs are read and handed back unchanged; the accumulator, found at any contents,
   ends with the pieces the two stores write (the zero, then zero plus this tile's sum). -/
import proofs.«173389_j39676907883922_1_alg».proof.Proof.KI.R0Runs

set_option maxRecDepth 16384

noncomputable section

namespace Cert.KernelIdeal.Frame0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- The pieces the body's stores leave in the accumulator's buffer (last store first) when the reset condition holds,
    with the proof that the body, given the four input buffers at contents x0 … x3 and the accumulator's at anything,
    runs to its end holding the inputs as they were and the accumulator with those pieces written. -/
noncomputable def kernelRun0_A (c : Dev nD) (i : grid0.Coords) (arg2 : Memref sig .tc .vmem S1024x64 .f32) (harg2 : arg2.IsWhole) (arg3 : Memref sig .tc .vmem S1024x64 .f32) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1x1 .f32) (harg6 : arg6.IsWhole) (hc0 : cond0_0 i)
    (x0 : Vec F S1024x64 .f32) (x1 : Vec F S1024x64 .f32) (x2 : Vec F S1024x1024 .f32) (x3 : Vec F S1024x1 .f32) :
    { L4 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)) -∗ K ⟨⟩))
          ⊢ wp frame (wpE (defs₀ (F := F)) Variants.none c none) E (cc0__sum_r_kernel i arg2 harg2 arg3 harg3 arg4 harg4 arg5 harg5 arg6 harg6) K } := by
  refine ⟨?_, fun E K => ?run⟩
  case run =>
    simp only [cc0__sum_r_kernel_eq_skeleton]; unfold cc0__sum_r_kernel_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg2.eq_unread hf0; obtain rfl := harg3.eq_unread hf1; obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

end Cert.KernelIdeal.Frame0

end
-- ==== Proof.KI.R0RunB.lean ====
/- The first region's body at every grid point after the first, where the accumulator is only added to: run
   symbolically on whole staging buffers. The accumulator is found at its running contents (what the point before
   left) and ends with the one piece the store writes (those contents plus this tile's sum). -/
import proofs.«173389_j39676907883922_1_alg».proof.Proof.KI.R0Runs

set_option maxRecDepth 16384

noncomputable section

namespace Cert.KernelIdeal.Frame0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- The piece the body's store leaves in the accumulator's buffer when the reset condition fails, with the proof
    that the body, given the four input buffers at contents x0 … x3 and the accumulator's at xo4, runs to its end
    holding the inputs as they were and the accumulator with that piece written. -/
noncomputable def kernelRun0_B (c : Dev nD) (i : grid0.Coords) (arg2 : Memref sig .tc .vmem S1024x64 .f32) (harg2 : arg2.IsWhole) (arg3 : Memref sig .tc .vmem S1024x64 .f32) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1x1 .f32) (harg6 : arg6.IsWhole) (hc0 : ¬cond0_0 i)
    (x0 : Vec F S1024x64 .f32) (x1 : Vec F S1024x64 .f32) (x2 : Vec F S1024x1024 .f32) (x3 : Vec F S1024x1 .f32) (xo4 : Vec F S1x1 .f32) :
    { L4 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo4
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)) -∗ K ⟨⟩))
          ⊢ wp frame (wpE (defs₀ (F := F)) Variants.none c none) E (cc0__sum_r_kernel i arg2 harg2 arg3 harg3 arg4 harg4 arg5 harg5 arg6 harg6) K } := by
  refine ⟨?_, fun E K => ?run⟩
  case run =>
    simp only [cc0__sum_r_kernel_eq_skeleton]; unfold cc0__sum_r_kernel_skel
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

end Cert.KernelIdeal.Frame0

end
-- ==== Proof.KI.R0Frame.lean ====
/- The first region, point by point: what the accumulator's staging buffer holds after the body at each of the
   sixteen grid points (the reset point's contents, then each later point's contents over what the point before
   left), the region's proof data built on that, and the body's obligation at every point. -/
import proofs.«173389_j39676907883922_1_alg».proof.Proof.KI.R0RunA
import proofs.«173389_j39676907883922_1_alg».proof.Proof.KI.R0RunB

set_option maxRecDepth 16384

noncomputable section

namespace Cert.KernelIdeal.Frame0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- At the reset point the body's two stores into the one-element accumulator cover it. -/
theorem cover0_A_4 (c : Dev nD) (i : grid0.Coords) (arg2 : Memref sig .tc .vmem S1024x64 .f32) (harg2 : arg2.IsWhole) (arg3 : Memref sig .tc .vmem S1024x64 .f32) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1x1 .f32) (harg6 : arg6.IsWhole) (hc0 : cond0_0 i)
    (x0 : Vec F S1024x64 .f32) (x1 : Vec F S1024x64 .f32) (x2 : Vec F S1024x1024 .f32) (x3 : Vec F S1024x1 .f32) (y : S1x1.Idx) :
    ∃ pc ∈ (kernelRun0_A c i arg2 harg2 arg3 harg3 arg4 harg4 arg5 harg5 arg6 harg6 hc0 x0 x1 x2 x3).1, y ∈ pc.1.set :=
  View.cover_of_tiledL (kernelRun0_A c i arg2 harg2 arg3 harg3 arg4 harg4 arg5 harg5 arg6 harg6 hc0 x0 x1 x2 x3).1 S1x1.size (by sl_kernel_rfl) y

/-- What the reset point leaves in the accumulator's buffer: its pieces read back. -/
def out0_A_4 (c : Dev nD) (i : grid0.Coords) (arg2 : Memref sig .tc .vmem S1024x64 .f32) (harg2 : arg2.IsWhole) (arg3 : Memref sig .tc .vmem S1024x64 .f32) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1x1 .f32) (harg6 : arg6.IsWhole) (hc0 : cond0_0 i)
    (x0 : Vec F S1024x64 .f32) (x1 : Vec F S1024x64 .f32) (x2 : Vec F S1024x1024 .f32) (x3 : Vec F S1024x1 .f32) : Vec F S1x1 .f32 :=
  VO0_4.read (Elt F) (VO0_4.writes (Elt F) VO0_4.junk (kernelRun0_A c i arg2 harg2 arg3 harg3 arg4 harg4 arg5 harg5 arg6 harg6 hc0 x0 x1 x2 x3).1)

/-- At a later point the body's one store into the accumulator covers it. -/
theorem cover0_B_4 (c : Dev nD) (i : grid0.Coords) (arg2 : Memref sig .tc .vmem S1024x64 .f32) (harg2 : arg2.IsWhole) (arg3 : Memref sig .tc .vmem S1024x64 .f32) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1x1 .f32) (harg6 : arg6.IsWhole) (hc0 : ¬cond0_0 i)
    (x0 : Vec F S1024x64 .f32) (x1 : Vec F S1024x64 .f32) (x2 : Vec F S1024x1024 .f32) (x3 : Vec F S1024x1 .f32) (xo4 : Vec F S1x1 .f32) (y : S1x1.Idx) :
    ∃ pc ∈ (kernelRun0_B c i arg2 harg2 arg3 harg3 arg4 harg4 arg5 harg5 arg6 harg6 hc0 x0 x1 x2 x3 xo4).1, y ∈ pc.1.set :=
  View.cover_of_tiledL (kernelRun0_B c i arg2 harg2 arg3 harg3 arg4 harg4 arg5 harg5 arg6 harg6 hc0 x0 x1 x2 x3 xo4).1 S1x1.size (by sl_kernel_rfl) y

/-- What a later point leaves in the accumulator's buffer, given what it found there: its piece read back. -/
def out0_B_4 (c : Dev nD) (i : grid0.Coords) (arg2 : Memref sig .tc .vmem S1024x64 .f32) (harg2 : arg2.IsWhole) (arg3 : Memref sig .tc .vmem S1024x64 .f32) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S1x1 .f32) (harg6 : arg6.IsWhole) (hc0 : ¬cond0_0 i)
    (x0 : Vec F S1024x64 .f32) (x1 : Vec F S1024x64 .f32) (x2 : Vec F S1024x1024 .f32) (x3 : Vec F S1024x1 .f32) (xo4 : Vec F S1x1 .f32) : Vec F S1x1 .f32 :=
  VO0_4.read (Elt F) (VO0_4.writes (Elt F) VO0_4.junk (kernelRun0_B c i arg2 harg2 arg3 harg3 arg4 harg4 arg5 harg5 arg6 harg6 hc0 x0 x1 x2 x3 xo4).1)

/-- The accumulation: the accumulator's buffer after the body at position n. Position 0 is the reset point; every
    later position runs the adding case over what position n - 1 left (the buffer is not written back in between). -/
def outsAt0 (c : Dev nD) : (n : ℕ) → n < cfg0.N → Vec F S1x1 .f32
  | 0, hn => out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) ((hcond0_0 ⟨0, hn⟩).mpr (Nat.zero_mod _)) (iblk0 V c 0 ⟨0, hn⟩) (iblk0 V c 1 ⟨0, hn⟩) (iblk0 V c 2 ⟨0, hn⟩) (iblk0 V c 3 ⟨0, hn⟩)
  | n + 1, hn =>
    if h0 : (n + 1) % 16 = 0 then
      out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) ((hcond0_0 ⟨n + 1, hn⟩).mpr h0) (iblk0 V c 0 ⟨n + 1, hn⟩) (iblk0 V c 1 ⟨n + 1, hn⟩) (iblk0 V c 2 ⟨n + 1, hn⟩) (iblk0 V c 3 ⟨n + 1, hn⟩)
    else
      out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => h0 ((hcond0_0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn))

/-- The accumulation at the reset point. -/
theorem outsAt0_A (c : Dev nD) (t : Fin cfg0.N) (h0 : t.val % 16 = 0) :
    outsAt0 V c t.val t.isLt = out0_A_4 c (grid0.coords t) (ms0_0 t) (hs0_0 t) (ms0_1 t) (hs0_1 t) (ms0_2 t) (hs0_2 t) (ms0_3 t) (hs0_3 t) (ms0_4 t) (hs0_4 t) ((hcond0_0 t).mpr h0) (iblk0 V c 0 t) (iblk0 V c 1 t) (iblk0 V c 2 t) (iblk0 V c 3 t) := by
  obtain ⟨n, hn⟩ := t
  cases n with
  | zero => exact rfl
  | succ n => exact (dif_pos h0).trans rfl

/-- The accumulation at a later point: the adding case over what the point before left. -/
theorem outsAt0_B (c : Dev nD) (t : Fin cfg0.N) (h0 : ¬t.val % 16 = 0) :
    outsAt0 V c t.val t.isLt = out0_B_4 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk0 V c 0 t) (iblk0 V c 1 t) (iblk0 V c 2 t) (iblk0 V c 3 t) (outsAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The region's proof data on core c: the arrays as the region finds them; after the body at point t each input's
    buffer still at its block and the accumulator's at the accumulation's value; the scoped rest and the generator
    register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => outsAt0 V c t.val t.isLt
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = outsAt0 V c t.val t.isLt := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-- At a point after the first the accumulator's current staging buffer holds what the body left at the point
    before: the window has one buffer, is written back at the last point only, and is never idle or clipped. -/
theorem before0_4_B (c : Dev nD) (t : Fin cfg0.N) (h0 : ¬t.val % 16 = 0) (d) :
    (dat0 V c).before 4 t d = outsAt0 V c (t.val - 1) (Nat.lt_of_le_of_lt (Nat.sub_le _ _) t.isLt) := by
  have hN : t.val < 16 := lt_of_lt_of_eq t.isLt (show cfg0.N = 16 from N_0)
  rw [Dat.before_out_kept _ 4 rfl t (by omega) (Bool.eq_false_iff.mpr fun h => by have := (flush0_4 _).mp h; dsimp only at this; omega)
    (fun _ => rfl) (fun _ _ => rfl)]
  dsimp only [dat0]

/-- What the body is called with at point t, window by window, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t))

set_option maxHeartbeats 1600000 in
/-- The body at any point: the inputs' buffers hold their blocks; the closed form of the reset condition says which
    case the point is in; at a later point the accumulator holds what the point before left; so that case's run
    applies, and its pieces read back are the accumulation's value at the point. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  have hN : t.val < 16 := lt_of_lt_of_eq t.isLt (show cfg0.N = 16 from N_0)
  by_cases h0 : t.val % 16 = 0
  · rw [outsAt0_A V c t h0]
    unfold out0_A_4
    iintro ⟨HΦ, Ho, ⟨%d0, H0⟩, ⟨%d1, H1⟩, ⟨%d2, H2⟩, ⟨%d3, H3⟩, ⟨%d4, H4⟩⟩
    iapply ((kernelRun0_A c (grid0.coords t) _ _ _ _ _ _ _ _ _ _ ((hcond0_0 t).mpr h0) (iblk0 V c 0 t) (iblk0 V c 1 t) (iblk0 V c 2 t) (iblk0 V c 3 t)).2 Set.univ _)
    isplitl [H0]; · iexact H0
    isplitl [H1]; · iexact H1
    isplitl [H2]; · iexact H2
    isplitl [H3]; · iexact H3
    isplitl [H4]; · iexists _; iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover0_A_4 c _ _ _ _ _ _ _ _ _ _ _ _ _ _ _ _)
  · rw [outsAt0_B V c t h0]
    simp only [before0_4_B V c t h0]
    unfold out0_B_4
    iintro ⟨HΦ, Ho, ⟨%d0, H0⟩, ⟨%d1, H1⟩, ⟨%d2, H2⟩, ⟨%d3, H3⟩, ⟨%d4, H4⟩⟩
    iapply ((kernelRun0_B c (grid0.coords t) _ _ _ _ _ _ _ _ _ _ (fun h => h0 ((hcond0_0 t).mp h)) (iblk0 V c 0 t) (iblk0 V c 1 t) (iblk0 V c 2 t) (iblk0 V c 3 t) _).2 Set.univ _)
    isplitl [H0]; · iexact H0
    isplitl [H1]; · iexact H1
    isplitl [H2]; · iexact H2
    isplitl [H3]; · iexact H3
    isplitl [H4]; · iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover0_B_4 c _ _ _ _ _ _ _ _ _ _ _ _ _ _ _ _ _)

/-- The body's obligation at every point. -/
theorem body_obligation0 (c : Dev nD) : BodyObligation (dat0 (F := F) V c) (defs₀ (F := F)) Variants.none () Set.univ := fun t => by
  rw [bigSep_W0, bigSep_W0]
  exact sound_body0 V c t

end Cert.KernelIdeal.Frame0

end
-- ==== Proof.KI.R1Runs.lean ====
import proofs.«173389_j39676907883922_1_alg».proof.Proof.Gen.KernelIdeal.Launch
import proofs.«173389_j39676907883922_1_alg».proof.Proof.Gen.KernelIdeal.Skeleton
import proofs.«173389_j39676907883922_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

-- membership of an index in a rectangle of these extents is checked structurally, one step per coordinate
set_option maxRecDepth 16384

noncomputable section

namespace Cert.KernelIdeal.Frame1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! # The second kernel region (pipeline 1), entered with the buffer contents `V`

What the three control cases of its body share: the blocks its windows read, the two branch conditions in closed
form over the 4×4 grid (point `t` is row tile `t / 4`, column tile `t % 4`), where the output window is idle,
and the names of the staging and scratch memrefs. -/

section Blocks
variable (V : (c : Dev nD) → (b : Ref sig .tc) → Buf (Elt F) ((c : Thread nD τ).loc b))

/-- Window `w`'s block at point `t`, read off the window's array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not (where it is
    not fetched the block index has not moved), for any proof data over the arrays `V` whose body leaves the
    block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not (where it is
    not fetched the block index has not moved), for any proof data over the arrays `V` whose body leaves the
    block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not (where it is
    not fetched the block index has not moved), for any proof data over the arrays `V` whose body leaves the
    block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not (where it is
    not fetched the block index has not moved), for any proof data over the arrays `V` whose body leaves the
    block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not (where it is
    not fetched the block index has not moved), for any proof data over the arrays `V` whose body leaves the
    block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not (where it is
    not fetched the block index has not moved), for any proof data over the arrays `V` whose body leaves the
    block in place. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

end Blocks

/-! ## The two branch conditions -/

/-- The accumulator is reset: the column tile is the first (`j = 0`), as the body computes it from the grid coordinates. -/
abbrev cond1_0 (i : grid1.Coords) : Prop := (Scalar.cmpi .ne (Scalar.extui (Scalar.cmpi .eq (BitVec.ofNat 32 (i 1).val) 0#32)) 0#32) = 1#1
/-- It holds exactly at the points ≡ 0 (mod 4). -/
theorem hcond1_0 : ∀ t : Fin cfg1.N, cond1_0 (grid1.coords t) ↔ t.val % 4 = 0 :=
  (by decide +kernel : ∀ t : Fin grid1.N, cond1_0 (grid1.coords t) ↔ t.val % 4 = 0)

/-- The accumulator is copied out: the column tile is the last (`j = 3`). -/
abbrev cond1_1 (i : grid1.Coords) : Prop := k1_cond2 i = 1#1
/-- It holds exactly at the points ≡ 3 (mod 4). -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
/-- At the first column tile the body stores nothing into the output window, and its block is not written back. -/
theorem idleAt1_6_A : ∀ t : Fin cfg1.N, cond1_0 (grid1.coords t) → ¬cond1_1 (grid1.coords t) → cfg1.idle 6 (grid1.coords t) = true := by decide +kernel
theorem noFlush1_6_A : ∀ t : Fin cfg1.N, cond1_0 (grid1.coords t) → ¬cond1_1 (grid1.coords t) → (cfg1.win 6).flush t = false := by decide +kernel
/-- The same at the two middle column tiles. -/
theorem idleAt1_6_B : ∀ t : Fin cfg1.N, ¬cond1_0 (grid1.coords t) → ¬cond1_1 (grid1.coords t) → cfg1.idle 6 (grid1.coords t) = true := by decide +kernel
theorem noFlush1_6_B : ∀ t : Fin cfg1.N, ¬cond1_0 (grid1.coords t) → ¬cond1_1 (grid1.coords t) → (cfg1.win 6).flush t = false := by decide +kernel
/-- At the last column tile the body stores the output window's whole block. -/
theorem liveAt1_6_C : ∀ t : Fin cfg1.N, ¬cond1_0 (grid1.coords t) → cond1_1 (grid1.coords t) → cfg1.idle 6 (grid1.coords t) = false := by decide +kernel

/-! ## The memrefs the body is called with -/

/-- One staging buffer of the output window, through which its contents are stated (which one does not matter). -/
abbrev VO1_6 : View sig .tc .vmem S1024x64 .f32 := (Memref.whole cc1_stg6_0 : Memref sig .tc .vmem S1024x64 .f32).view
abbrev ms1_0 (t : Fin cfg1.N) : Memref sig .tc .vmem S1024x64 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x1 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x1 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1024x64 .f32 := win1_6.stage (cfg1.slots t 6)
abbrev hs1_6 (t : Fin cfg1.N) : (ms1_6 t).IsWhole := hstage1_6 ((cfg1.slots t 6).cast nbuf1_6)
/-- The accumulator: a whole scoped buffer of the kernel's own, passed beside the windows and carried between points. -/
abbrev scM1_0 : Memref sig .tc .vmem S1024x64 .f32 := Memref.whole cc1_scratch0
/-- The same as a view: what the accumulator holds is stated through it. -/
abbrev VS1_0 : View sig .tc .vmem S1024x64 .f32 := scM1_0.view

/-- The region's invariant at entry, spelt out: every scoped buffer that is no staging buffer of this region at some
    contents — the first region's nine staging buffers, and the accumulator as a memref owned at some contents — beside
    the generator register at some state. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ d, owns (c : Thread nD τ) scM1_0 fullShare d)) ∗ (∃ r, prngReg c r)) := by
  unfold Pipeline.ΦA; rw [scopedRest1_eq]; simp only [scM1_0, owns_whole]; try rfl

end Cert.KernelIdeal.Frame1

end
-- ==== Proof.KI.R1RunA.lean ====
import proofs.«173389_j39676907883922_1_alg».proof.Proof.KI.R1Runs

-- membership of an index in a rectangle of these extents is checked structurally, one step per coordinate
set_option maxRecDepth 16384

noncomputable section

namespace Cert.KernelIdeal.Frame1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the run's proof term is large: closing the definition walks it past the default budget
set_option maxHeartbeats 1000000 in
/-- The body at the first column tile (the accumulator is reset; nothing is copied out), run on whole memrefs: the six input windows' buffers at
    their contents `x0 … x5`, the output window's buffer, which the body does not touch, handed back as it was (`xi6`), the accumulator at anything.
    It ends with the inputs as they were and the accumulator holding the body's stores, as pieces (last store first,
    `LS0`) written over what it held. The piece lists are found by the run. -/
noncomputable def kernelRun1_A (c : Dev nD) (i : grid1.Coords) (arg2 : Memref sig .tc .vmem S1024x64 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1x1 .f32) (harg7 : arg7.IsWhole) (arg8 : Memref sig .tc .vmem S1024x64 .f32) (harg8 : arg8.IsWhole) (arg9 : Memref sig .tc .vmem S1024x64 .f32) (harg9 : arg9.IsWhole) (hc0 : cond1_0 i) (hc1 : ¬cond1_1 i)
    (x0 : Vec F S1024x64 .f32) (x1 : Vec F S1024x64 .f32) (x2 : Vec F S1024x64 .f32) (x3 : Vec F S1024x1024 .f32) (x4 : Vec F S1024x1 .f32) (x5 : Vec F S1x1 .f32) :
    Σ' (L6 : List (View.Piece (Elt F) S1024x64 .f32)), { LS0 : List (View.Piece (Elt F) S1024x64 .f32) //
      ∀ (xi6 : Vec F S1024x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc1__attn_out_kernel i arg2 harg2 arg3 harg3 arg4 harg4 arg5 harg5 arg6 harg6 arg7 harg7 arg8 harg8 arg9 harg9) K } := by
  refine ⟨[], ?_, fun xi6 E K => ?run⟩
  case run =>
    simp only [cc1__attn_out_kernel_eq_skeleton]; unfold cc1__attn_out_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS0

end Cert.KernelIdeal.Frame1

end
-- ==== Proof.KI.R1RunB.lean ====
import proofs.«173389_j39676907883922_1_alg».proof.Proof.KI.R1RunA

-- membership of an index in a rectangle of these extents is checked structurally, one step per coordinate
set_option maxRecDepth 16384

noncomputable section

namespace Cert.KernelIdeal.Frame1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the run's proof term is large: closing the definition walks it past the default budget
set_option maxHeartbeats 1000000 in
/-- The body at a middle column tile (neither branch is taken), run on whole memrefs: the six input windows' buffers at
    their contents `x0 … x5`, the output window's buffer, which the body does not touch, handed back as it was (`xi6`), the accumulator at the contents `xs0` the point before left.
    It ends with the inputs as they were and the accumulator holding the body's stores, as pieces (last store first,
    `LS0`) written over what it held. The piece lists are found by the run. -/
noncomputable def kernelRun1_B (c : Dev nD) (i : grid1.Coords) (arg2 : Memref sig .tc .vmem S1024x64 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1x1 .f32) (harg7 : arg7.IsWhole) (arg8 : Memref sig .tc .vmem S1024x64 .f32) (harg8 : arg8.IsWhole) (arg9 : Memref sig .tc .vmem S1024x64 .f32) (harg9 : arg9.IsWhole) (hc0 : ¬cond1_0 i) (hc1 : ¬cond1_1 i)
    (x0 : Vec F S1024x64 .f32) (x1 : Vec F S1024x64 .f32) (x2 : Vec F S1024x64 .f32) (x3 : Vec F S1024x1024 .f32) (x4 : Vec F S1024x1 .f32) (x5 : Vec F S1x1 .f32) (xs0 : Vec F S1024x64 .f32) :
    Σ' (L6 : List (View.Piece (Elt F) S1024x64 .f32)), { LS0 : List (View.Piece (Elt F) S1024x64 .f32) //
      ∀ (xi6 : Vec F S1024x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc1__attn_out_kernel i arg2 harg2 arg3 harg3 arg4 harg4 arg5 harg5 arg6 harg6 arg7 harg7 arg8 harg8 arg9 harg9) K } := by
  refine ⟨[], ?_, fun xi6 E K => ?run⟩
  case run =>
    simp only [cc1__attn_out_kernel_eq_skeleton]; unfold cc1__attn_out_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS0

end Cert.KernelIdeal.Frame1

end
-- ==== Proof.KI.R1RunC.lean ====
import proofs.«173389_j39676907883922_1_alg».proof.Proof.KI.R1RunB

-- membership of an index in a rectangle of these extents is checked structurally, one step per coordinate
set_option maxRecDepth 16384

noncomputable section

namespace Cert.KernelIdeal.Frame1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the run's proof term is large: closing the definition walks it past the default budget
set_option maxHeartbeats 1000000 in
/-- The body at the last column tile (the accumulator is not reset; it is copied to the output block), run on whole memrefs: the six input windows' buffers at
    their contents `x0 … x5`, the output window's buffer at anything, handed back with the body's store written into it (`L6`), the accumulator at the contents `xs0` the point before left.
    It ends with the inputs as they were and the accumulator holding the body's stores, as pieces (last store first,
    `LS0`) written over what it held. The piece lists are found by the run. -/
noncomputable def kernelRun1_C (c : Dev nD) (i : grid1.Coords) (arg2 : Memref sig .tc .vmem S1024x64 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1x1 .f32) (harg7 : arg7.IsWhole) (arg8 : Memref sig .tc .vmem S1024x64 .f32) (harg8 : arg8.IsWhole) (arg9 : Memref sig .tc .vmem S1024x64 .f32) (harg9 : arg9.IsWhole) (hc0 : ¬cond1_0 i) (hc1 : cond1_1 i)
    (x0 : Vec F S1024x64 .f32) (x1 : Vec F S1024x64 .f32) (x2 : Vec F S1024x64 .f32) (x3 : Vec F S1024x1024 .f32) (x4 : Vec F S1024x1 .f32) (x5 : Vec F S1x1 .f32) (xs0 : Vec F S1024x64 .f32) :
    Σ' (L6 : List (View.Piece (Elt F) S1024x64 .f32)), { LS0 : List (View.Piece (Elt F) S1024x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0)) -∗ K ⟨⟩))
          ⊢ wp frame (wpE (defs₀ (F := F)) Variants.none c none) E (cc1__attn_out_kernel i arg2 harg2 arg3 harg3 arg4 harg4 arg5 harg5 arg6 harg6 arg7 harg7 arg8 harg8 arg9 harg9) K } := by
  refine ⟨?_, ?_, fun E K => ?run⟩
  case run =>
    simp only [cc1__attn_out_kernel_eq_skeleton]; unfold cc1__attn_out_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact HS0

end Cert.KernelIdeal.Frame1

end
-- ==== Proof.KI.R1Frame.lean ====
import proofs.«173389_j39676907883922_1_alg».proof.Proof.KI.R1RunC

-- membership of an index in a rectangle of these extents is checked structurally, one step per coordinate
set_option maxRecDepth 16384

noncomputable section

namespace Cert.KernelIdeal.Frame1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! # The second kernel region: what its buffers hold point by point, its proof data, and the body obligation -/

/-! ## What each case leaves, read back from the pieces its run found -/

/-- In case A the body stores nothing into the output window: no pieces. A placeholder that nothing consults, since
    at these points the window is neither written back nor read at the next point. -/
def out1_A_6 (c : Dev nD) (i : grid1.Coords) (arg2 : Memref sig .tc .vmem S1024x64 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1x1 .f32) (harg7 : arg7.IsWhole) (arg8 : Memref sig .tc .vmem S1024x64 .f32) (harg8 : arg8.IsWhole) (arg9 : Memref sig .tc .vmem S1024x64 .f32) (harg9 : arg9.IsWhole) (hc0 : cond1_0 i) (hc1 : ¬cond1_1 i)
    (x0 : Vec F S1024x64 .f32) (x1 : Vec F S1024x64 .f32) (x2 : Vec F S1024x64 .f32) (x3 : Vec F S1024x1024 .f32) (x4 : Vec F S1024x1 .f32) (x5 : Vec F S1x1 .f32) : Vec F S1024x64 .f32 :=
  VO1_6.read (Elt F) (VO1_6.writes (Elt F) VO1_6.junk (kernelRun1_A c i arg2 harg2 arg3 harg3 arg4 harg4 arg5 harg5 arg6 harg6 arg7 harg7 arg8 harg8 arg9 harg9 hc0 hc1 x0 x1 x2 x3 x4 x5).1)

/-- Case A's stores into the accumulator cover it. -/
theorem scover1_A_0 (c : Dev nD) (i : grid1.Coords) (arg2 : Memref sig .tc .vmem S1024x64 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1x1 .f32) (harg7 : arg7.IsWhole) (arg8 : Memref sig .tc .vmem S1024x64 .f32) (harg8 : arg8.IsWhole) (arg9 : Memref sig .tc .vmem S1024x64 .f32) (harg9 : arg9.IsWhole) (hc0 : cond1_0 i) (hc1 : ¬cond1_1 i)
    (x0 : Vec F S1024x64 .f32) (x1 : Vec F S1024x64 .f32) (x2 : Vec F S1024x64 .f32) (x3 : Vec F S1024x1024 .f32) (x4 : Vec F S1024x1 .f32) (x5 : Vec F S1x1 .f32) (y : S1024x64.Idx) :
    ∃ pc ∈ (kernelRun1_A c i arg2 harg2 arg3 harg3 arg4 harg4 arg5 harg5 arg6 harg6 arg7 harg7 arg8 harg8 arg9 harg9 hc0 hc1 x0 x1 x2 x3 x4 x5).2.1, y ∈ pc.1.set :=
  View.cover_of_tiledL (kernelRun1_A c i arg2 harg2 arg3 harg3 arg4 harg4 arg5 harg5 arg6 harg6 arg7 harg7 arg8 harg8 arg9 harg9 hc0 hc1 x0 x1 x2 x3 x4 x5).2.1 S1024x64.size (by sl_kernel_rfl) y

/-- What case A leaves in the accumulator: its pieces read back. -/
def sout1_A_0 (c : Dev nD) (i : grid1.Coords) (arg2 : Memref sig .tc .vmem S1024x64 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1x1 .f32) (harg7 : arg7.IsWhole) (arg8 : Memref sig .tc .vmem S1024x64 .f32) (harg8 : arg8.IsWhole) (arg9 : Memref sig .tc .vmem S1024x64 .f32) (harg9 : arg9.IsWhole) (hc0 : cond1_0 i) (hc1 : ¬cond1_1 i)
    (x0 : Vec F S1024x64 .f32) (x1 : Vec F S1024x64 .f32) (x2 : Vec F S1024x64 .f32) (x3 : Vec F S1024x1024 .f32) (x4 : Vec F S1024x1 .f32) (x5 : Vec F S1x1 .f32) : Vec F S1024x64 .f32 :=
  VS1_0.read (Elt F) (VS1_0.writes (Elt F) VS1_0.junk (kernelRun1_A c i arg2 harg2 arg3 harg3 arg4 harg4 arg5 harg5 arg6 harg6 arg7 harg7 arg8 harg8 arg9 harg9 hc0 hc1 x0 x1 x2 x3 x4 x5).2.1)

/-- In case B the body stores nothing into the output window: no pieces. A placeholder that nothing consults, since
    at these points the window is neither written back nor read at the next point. -/
def out1_B_6 (c : Dev nD) (i : grid1.Coords) (arg2 : Memref sig .tc .vmem S1024x64 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1x1 .f32) (harg7 : arg7.IsWhole) (arg8 : Memref sig .tc .vmem S1024x64 .f32) (harg8 : arg8.IsWhole) (arg9 : Memref sig .tc .vmem S1024x64 .f32) (harg9 : arg9.IsWhole) (hc0 : ¬cond1_0 i) (hc1 : ¬cond1_1 i)
    (x0 : Vec F S1024x64 .f32) (x1 : Vec F S1024x64 .f32) (x2 : Vec F S1024x64 .f32) (x3 : Vec F S1024x1024 .f32) (x4 : Vec F S1024x1 .f32) (x5 : Vec F S1x1 .f32) (xs0 : Vec F S1024x64 .f32) : Vec F S1024x64 .f32 :=
  VO1_6.read (Elt F) (VO1_6.writes (Elt F) VO1_6.junk (kernelRun1_B c i arg2 harg2 arg3 harg3 arg4 harg4 arg5 harg5 arg6 harg6 arg7 harg7 arg8 harg8 arg9 harg9 hc0 hc1 x0 x1 x2 x3 x4 x5 xs0).1)

/-- Case B's stores into the accumulator cover it. -/
theorem scover1_B_0 (c : Dev nD) (i : grid1.Coords) (arg2 : Memref sig .tc .vmem S1024x64 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1x1 .f32) (harg7 : arg7.IsWhole) (arg8 : Memref sig .tc .vmem S1024x64 .f32) (harg8 : arg8.IsWhole) (arg9 : Memref sig .tc .vmem S1024x64 .f32) (harg9 : arg9.IsWhole) (hc0 : ¬cond1_0 i) (hc1 : ¬cond1_1 i)
    (x0 : Vec F S1024x64 .f32) (x1 : Vec F S1024x64 .f32) (x2 : Vec F S1024x64 .f32) (x3 : Vec F S1024x1024 .f32) (x4 : Vec F S1024x1 .f32) (x5 : Vec F S1x1 .f32) (xs0 : Vec F S1024x64 .f32) (y : S1024x64.Idx) :
    ∃ pc ∈ (kernelRun1_B c i arg2 harg2 arg3 harg3 arg4 harg4 arg5 harg5 arg6 harg6 arg7 harg7 arg8 harg8 arg9 harg9 hc0 hc1 x0 x1 x2 x3 x4 x5 xs0).2.1, y ∈ pc.1.set :=
  View.cover_of_tiledL (kernelRun1_B c i arg2 harg2 arg3 harg3 arg4 harg4 arg5 harg5 arg6 harg6 arg7 harg7 arg8 harg8 arg9 harg9 hc0 hc1 x0 x1 x2 x3 x4 x5 xs0).2.1 S1024x64.size (by sl_kernel_rfl) y

/-- What case B leaves in the accumulator: its pieces read back. -/
def sout1_B_0 (c : Dev nD) (i : grid1.Coords) (arg2 : Memref sig .tc .vmem S1024x64 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1x1 .f32) (harg7 : arg7.IsWhole) (arg8 : Memref sig .tc .vmem S1024x64 .f32) (harg8 : arg8.IsWhole) (arg9 : Memref sig .tc .vmem S1024x64 .f32) (harg9 : arg9.IsWhole) (hc0 : ¬cond1_0 i) (hc1 : ¬cond1_1 i)
    (x0 : Vec F S1024x64 .f32) (x1 : Vec F S1024x64 .f32) (x2 : Vec F S1024x64 .f32) (x3 : Vec F S1024x1024 .f32) (x4 : Vec F S1024x1 .f32) (x5 : Vec F S1x1 .f32) (xs0 : Vec F S1024x64 .f32) : Vec F S1024x64 .f32 :=
  VS1_0.read (Elt F) (VS1_0.writes (Elt F) VS1_0.junk (kernelRun1_B c i arg2 harg2 arg3 harg3 arg4 harg4 arg5 harg5 arg6 harg6 arg7 harg7 arg8 harg8 arg9 harg9 hc0 hc1 x0 x1 x2 x3 x4 x5 xs0).2.1)

/-- In case C the body's one store into the output window covers its block. -/
theorem cover1_C_6 (c : Dev nD) (i : grid1.Coords) (arg2 : Memref sig .tc .vmem S1024x64 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1x1 .f32) (harg7 : arg7.IsWhole) (arg8 : Memref sig .tc .vmem S1024x64 .f32) (harg8 : arg8.IsWhole) (arg9 : Memref sig .tc .vmem S1024x64 .f32) (harg9 : arg9.IsWhole) (hc0 : ¬cond1_0 i) (hc1 : cond1_1 i)
    (x0 : Vec F S1024x64 .f32) (x1 : Vec F S1024x64 .f32) (x2 : Vec F S1024x64 .f32) (x3 : Vec F S1024x1024 .f32) (x4 : Vec F S1024x1 .f32) (x5 : Vec F S1x1 .f32) (xs0 : Vec F S1024x64 .f32) (y : S1024x64.Idx) :
    ∃ pc ∈ (kernelRun1_C c i arg2 harg2 arg3 harg3 arg4 harg4 arg5 harg5 arg6 harg6 arg7 harg7 arg8 harg8 arg9 harg9 hc0 hc1 x0 x1 x2 x3 x4 x5 xs0).1, y ∈ pc.1.set :=
  View.cover_of_tiledL (kernelRun1_C c i arg2 harg2 arg3 harg3 arg4 harg4 arg5 harg5 arg6 harg6 arg7 harg7 arg8 harg8 arg9 harg9 hc0 hc1 x0 x1 x2 x3 x4 x5 xs0).1 S1024x64.size (by sl_kernel_rfl) y

/-- What case C leaves in the output window's staging buffer: its pieces read back. -/
def out1_C_6 (c : Dev nD) (i : grid1.Coords) (arg2 : Memref sig .tc .vmem S1024x64 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1x1 .f32) (harg7 : arg7.IsWhole) (arg8 : Memref sig .tc .vmem S1024x64 .f32) (harg8 : arg8.IsWhole) (arg9 : Memref sig .tc .vmem S1024x64 .f32) (harg9 : arg9.IsWhole) (hc0 : ¬cond1_0 i) (hc1 : cond1_1 i)
    (x0 : Vec F S1024x64 .f32) (x1 : Vec F S1024x64 .f32) (x2 : Vec F S1024x64 .f32) (x3 : Vec F S1024x1024 .f32) (x4 : Vec F S1024x1 .f32) (x5 : Vec F S1x1 .f32) (xs0 : Vec F S1024x64 .f32) : Vec F S1024x64 .f32 :=
  VO1_6.read (Elt F) (VO1_6.writes (Elt F) VO1_6.junk (kernelRun1_C c i arg2 harg2 arg3 harg3 arg4 harg4 arg5 harg5 arg6 harg6 arg7 harg7 arg8 harg8 arg9 harg9 hc0 hc1 x0 x1 x2 x3 x4 x5 xs0).1)

/-- Case C's stores into the accumulator cover it. -/
theorem scover1_C_0 (c : Dev nD) (i : grid1.Coords) (arg2 : Memref sig .tc .vmem S1024x64 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1x1 .f32) (harg7 : arg7.IsWhole) (arg8 : Memref sig .tc .vmem S1024x64 .f32) (harg8 : arg8.IsWhole) (arg9 : Memref sig .tc .vmem S1024x64 .f32) (harg9 : arg9.IsWhole) (hc0 : ¬cond1_0 i) (hc1 : cond1_1 i)
    (x0 : Vec F S1024x64 .f32) (x1 : Vec F S1024x64 .f32) (x2 : Vec F S1024x64 .f32) (x3 : Vec F S1024x1024 .f32) (x4 : Vec F S1024x1 .f32) (x5 : Vec F S1x1 .f32) (xs0 : Vec F S1024x64 .f32) (y : S1024x64.Idx) :
    ∃ pc ∈ (kernelRun1_C c i arg2 harg2 arg3 harg3 arg4 harg4 arg5 harg5 arg6 harg6 arg7 harg7 arg8 harg8 arg9 harg9 hc0 hc1 x0 x1 x2 x3 x4 x5 xs0).2.1, y ∈ pc.1.set :=
  View.cover_of_tiledL (kernelRun1_C c i arg2 harg2 arg3 harg3 arg4 harg4 arg5 harg5 arg6 harg6 arg7 harg7 arg8 harg8 arg9 harg9 hc0 hc1 x0 x1 x2 x3 x4 x5 xs0).2.1 S1024x64.size (by sl_kernel_rfl) y

/-- What case C leaves in the accumulator: its pieces read back. -/
def sout1_C_0 (c : Dev nD) (i : grid1.Coords) (arg2 : Memref sig .tc .vmem S1024x64 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1x1 .f32) (harg7 : arg7.IsWhole) (arg8 : Memref sig .tc .vmem S1024x64 .f32) (harg8 : arg8.IsWhole) (arg9 : Memref sig .tc .vmem S1024x64 .f32) (harg9 : arg9.IsWhole) (hc0 : ¬cond1_0 i) (hc1 : cond1_1 i)
    (x0 : Vec F S1024x64 .f32) (x1 : Vec F S1024x64 .f32) (x2 : Vec F S1024x64 .f32) (x3 : Vec F S1024x1024 .f32) (x4 : Vec F S1024x1 .f32) (x5 : Vec F S1x1 .f32) (xs0 : Vec F S1024x64 .f32) : Vec F S1024x64 .f32 :=
  VS1_0.read (Elt F) (VS1_0.writes (Elt F) VS1_0.junk (kernelRun1_C c i arg2 harg2 arg3 harg3 arg4 harg4 arg5 harg5 arg6 harg6 arg7 harg7 arg8 harg8 arg9 harg9 hc0 hc1 x0 x1 x2 x3 x4 x5 xs0).2.1)

section Region
variable (V : (c : Dev nD) → (b : Ref sig .tc) → Buf (Elt F) ((c : Thread nD τ).loc b))

/-! ## What the output window's buffer and the accumulator hold after each point -/

/-- After the body at position `n`: (the output window's staging buffer, the accumulator). The case is the one the
    column tile `n % 4` selects, run on the point's memrefs and input blocks, the accumulator — where the case reads
    it — at what position `n - 1` left. -/
def outsAt1 (c : Dev nD) : (n : ℕ) → n < cfg1.N → Vec F S1024x64 .f32 × Vec F S1024x64 .f32
  | 0, hn => (out1_A_6 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩))
  | n + 1, hn =>
    if h0 : (n + 1) % 4 = 0 then
      if h1 : (n + 1) % 4 = 3 then
        False.elim (by omega)
      else
        (out1_A_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩))
    else
      if h1 : (n + 1) % 4 = 3 then
        (out1_C_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2)
      else
        (out1_B_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2)

/-- At a first column tile. -/
theorem outsAt1_A (c : Dev nD) (t : Fin cfg1.N) (h0 : t.val % 4 = 0) (h1 : ¬t.val % 4 = 3) :
    outsAt1 V c t.val t.isLt = (out1_A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t)) := by
  obtain ⟨n, hn⟩ := t
  cases n with
  | zero => exact rfl
  | succ n => exact (dif_pos h0).trans ((dif_neg h1).trans rfl)

/-- At a middle column tile: over what the point before left. -/
theorem outsAt1_B (c : Dev nD) (t : Fin cfg1.N) (h0 : ¬t.val % 4 = 0) (h1 : ¬t.val % 4 = 3) :
    outsAt1 V c t.val t.isLt = (out1_B_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a last column tile: over what the point before left. -/
theorem outsAt1_C (c : Dev nD) (t : Fin cfg1.N) (h0 : ¬t.val % 4 = 0) (h1 : t.val % 4 = 3) :
    outsAt1 V c t.val t.isLt = (out1_C_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- Before position `n`: at the first point what the region is entered with (every scoped buffer that is not a
    staging buffer of this region at some contents, the generator register at some state); afterwards the same with
    the accumulator at what the point before left in it. -/
def PhiS (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ owns (c : Thread nD τ) scM1_0 fullShare ((outsAt1 V c n hn).2)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ owns (c : Thread nD τ) scM1_0 fullShare ((outsAt1 V c n hn).2)) ∗ (∃ r, prngReg c r)) := rfl

theorem PhiS_pos (c : Dev nD) (n : ℕ) (h : n ≤ cfg1.N) (hz : n ≠ 0) :
    PhiS V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ owns (c : Thread nD τ) scM1_0 fullShare ((outsAt1 V c (n - 1) (by omega)).2)) ∗ (∃ r, prngReg c r)) := by
  cases n with
  | zero => exact absurd rfl hz
  | succ n => rfl

/-! ## The proof data -/

/-- The proof data of this pipeline on core `c`: the arrays as the region finds them; after the body at point `t`
    each input window's buffer at its block and the output window's at `outsAt1`'s first component; the invariant
    `PhiS`; full shares; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => (outsAt1 V c t.val t.isLt).1
  Φ t := PhiS V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation -/

/-- What the body is called with at point `t`, the windows one by one, -/
def bodyPre (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

/-- and what it returns. -/
def bodyPost (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 6400000 in
/-- The body at any point. The inputs' memrefs hold their blocks; the column tile says which case the point is in,
    so that case's run applies. The invariant hands the run the accumulator — at what the point before left, or at
    anything at the very first point — and takes it back at this point's contents (the case's stores cover it); the
    other scoped buffers, the generator register and the core's dues pass through. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before1_0, before1_1, before1_2, before1_3, before1_4, before1_5]
  rw [show (dat1 V c).owesAt () t.succ = (dat1 V c).owesAt () t.castSucc from rfl]
  rw [show (dat1 V c).Φ t.succ = PhiS V c (t.val + 1) t.isLt from rfl, PhiS_succ]
  have hN : t.val < 16 := lt_of_lt_of_eq t.isLt (show cfg1.N = 16 from N_1)
  by_cases h0 : t.val % 4 = 0
  · by_cases h1 : t.val % 4 = 3
    · exfalso; omega
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [Dat.leavesExact_idle (dat1 V c) 6 t (idleAt1_6_A t ((hcond1_0 t).mpr h0) (fun h => h1 ((hcond1_1 t).mp h))) (noFlush1_6_A t ((hcond1_0 t).mpr h0) (fun h => h1 ((hcond1_1 t).mp h)))]
      rw [outsAt1_A V c t h0 h1]
      unfold sout1_A_0; (try dsimp only)
      by_cases hz : t.val = 0
      · rw [PhiS_castSucc V c t, PhiS_zero V c _ _ hz, PhiA1_eq]
        iintro ⟨⟨⟨HR0, HR1, HR2, HR3, HR4, HR5, HR6, HR7, HR8, HS0⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun1_A c (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        iintro ⟨H0, H1, H2, H3, H4, H5, H6, ⟨%es0, HS0⟩⟩
        isplitl [HR0 HR1 HR2 HR3 HR4 HR5 HR6 HR7 HR8 HS0 Hg]
        · isplitl [HR0 HR1 HR2 HR3 HR4 HR5 HR6 HR7 HR8 HS0]
          · isplitl [HR0]; · iexact HR0
            isplitl [HR1]; · iexact HR1
            isplitl [HR2]; · iexact HR2
            isplitl [HR3]; · iexact HR3
            isplitl [HR4]; · iexact HR4
            isplitl [HR5]; · iexact HR5
            isplitl [HR6]; · iexact HR6
            isplitl [HR7]; · iexact HR7
            isplitl [HR8]; · iexact HR8
            unfold owns; iexists _; isplitr
            swap; · iexact HS0
            ipureintro; exact View.read_writes_of_cover _ _ _ _ _ (scover1_A_0 c _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
      · rw [PhiS_castSucc V c t, PhiS_pos V c _ _ hz]
        iintro ⟨⟨⟨HR0, HR1, HR2, HR3, HR4, HR5, HR6, HR7, HR8, HS0⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun1_A c (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexists _; iexact HS0
        iintro ⟨H0, H1, H2, H3, H4, H5, H6, ⟨%es0, HS0⟩⟩
        isplitl [HR0 HR1 HR2 HR3 HR4 HR5 HR6 HR7 HR8 HS0 Hg]
        · isplitl [HR0 HR1 HR2 HR3 HR4 HR5 HR6 HR7 HR8 HS0]
          · isplitl [HR0]; · iexact HR0
            isplitl [HR1]; · iexact HR1
            isplitl [HR2]; · iexact HR2
            isplitl [HR3]; · iexact HR3
            isplitl [HR4]; · iexact HR4
            isplitl [HR5]; · iexact HR5
            isplitl [HR6]; · iexact HR6
            isplitl [HR7]; · iexact HR7
            isplitl [HR8]; · iexact HR8
            unfold owns; iexists _; isplitr
            swap; · iexact HS0
            ipureintro; exact View.read_writes_of_cover _ _ _ _ _ (scover1_A_0 c _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
  · by_cases h1 : t.val % 4 = 3
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [show (dat1 V c).leavesExact 6 t = owns (c : Thread nD τ) (ms1_6 t) fullShare ((dat1 V c).after 6 t) from by
        unfold Dat.leavesExact; rw [liveAt1_6_C t (fun h => h0 ((hcond1_0 t).mp h)) ((hcond1_1 t).mpr h1)], after1_6]
      rw [outsAt1_C V c t h0 h1]
      unfold out1_C_6 sout1_C_0; (try dsimp only)
      have hz : t.val ≠ 0 := by omega
      rw [PhiS_castSucc V c t, PhiS_pos V c _ _ hz]
      iintro ⟨⟨⟨HR0, HR1, HR2, HR3, HR4, HR5, HR6, HR7, HR8, HS0⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_C c (grid1.coords t) _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) (iblk1 V c 5 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      iintro ⟨H0, H1, H2, H3, H4, H5, ⟨%e6, H6⟩, ⟨%es0, HS0⟩⟩
      isplitl [HR0 HR1 HR2 HR3 HR4 HR5 HR6 HR7 HR8 HS0 Hg]
      · isplitl [HR0 HR1 HR2 HR3 HR4 HR5 HR6 HR7 HR8 HS0]
        · isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          isplitl [HR8]; · iexact HR8
          unfold owns; iexists _; isplitr
          swap; · iexact HS0
          ipureintro; exact View.read_writes_of_cover _ _ _ _ _ (scover1_C_0 c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover1_C_6 c _ _ _ _ _ _ _ _ _ _ _ _ _ _ _ _ _ _ _ _ _ _ _ _ _ _)
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [Dat.leavesExact_idle (dat1 V c) 6 t (idleAt1_6_B t (fun h => h0 ((hcond1_0 t).mp h)) (fun h => h1 ((hcond1_1 t).mp h))) (noFlush1_6_B t (fun h => h0 ((hcond1_0 t).mp h)) (fun h => h1 ((hcond1_1 t).mp h)))]
      rw [outsAt1_B V c t h0 h1]
      unfold sout1_B_0; (try dsimp only)
      have hz : t.val ≠ 0 := by omega
      rw [PhiS_castSucc V c t, PhiS_pos V c _ _ hz]
      iintro ⟨⟨⟨HR0, HR1, HR2, HR3, HR4, HR5, HR6, HR7, HR8, HS0⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_B c (grid1.coords t) _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      iintro ⟨H0, H1, H2, H3, H4, H5, H6, ⟨%es0, HS0⟩⟩
      isplitl [HR0 HR1 HR2 HR3 HR4 HR5 HR6 HR7 HR8 HS0 Hg]
      · isplitl [HR0 HR1 HR2 HR3 HR4 HR5 HR6 HR7 HR8 HS0]
        · isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          isplitl [HR8]; · iexact HR8
          unfold owns; iexists _; isplitr
          swap; · iexact HS0
          ipureintro; exact View.read_writes_of_cover _ _ _ _ _ (scover1_B_0 c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation1 (c : Dev nD) : BodyObligation (dat1 (F := F) V c) (defs₀ (F := F)) Variants.none () Set.univ := fun t => by
  rw [bigSep_W1, bigSep_W1]
  exact sound_body V c t

/-- What the region is entered with is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point but the first the invariant gives the entry invariant back: what the accumulator holds is forgotten. -/
theorem Phi_out (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨⟨HR0, HR1, HR2, HR3, HR4, HR5, HR6, HR7, HR8, HS0⟩, Hg⟩
  isplitl [HR0 HR1 HR2 HR3 HR4 HR5 HR6 HR7 HR8 HS0]
  · isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    isplitl [HR7]; · iexact HR7
    isplitl [HR8]; · iexact HR8
    iexists _; iexact HS0
  iexact Hg

/-- The same after the last point. -/
theorem hout1 (c : Dev nD) : (dat1 V c).Φ (Fin.last cfg1.N) ⊢ Pipeline.ΦA spec1 c :=
  Phi_out V c _ (by rw [Fin.val_last]; have : cfg1.N = 16 := N_1; omega)

end Region

end Cert.KernelIdeal.Frame1

end
-- ==== Proof.KI.Run.lean ====
/- The whole program's run. The program is two kernel regions and nothing else: the first leaves the sum of the
   floor mask in a one-element array, the second reads that array and leaves the attention output. Between the
   regions the buffers hold what the first region's write-backs left; at the end every argument array holds what it
   held at launch (no region writes one) and the two result arrays hold what their regions' write-backs left. -/
import proofs.«173389_j39676907883922_1_alg».proof.Proof.KI.R0Frame
import proofs.«173389_j39676907883922_1_alg».proof.Proof.KI.R1Frame
import Idealize.ShloMosaic.Lib.Pipeline.RegionsLoop
import Idealize.ShloMosaic.Lib.Pipeline.FrameSuffix

set_option maxRecDepth 16384

noncomputable section

namespace Cert.KernelIdeal.Run

open Cert.KernelIdeal Cert.KernelIdeal.Gen Cert.KernelIdeal.Frame0 Cert.KernelIdeal.Frame1
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffers' contents before, between and after the two regions -/

/-- Core c's buffers at launch: what the first region is entered with. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- After the first region: its windows' arrays at what its write-backs left, every other buffer as before. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the second region: its windows' arrays at what its write-backs left, every other buffer as before. -/
def W2 (c : Dev nD) : Valuation τ sig (Elt F) :=
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
abbrev V2 : (c : Dev nD) → (b : Ref sig .tc) → Buf (Elt F) ((c : Thread nD τ).loc b) := fun c b => W2 m ρ c b
theorem hF1 (c : Dev nD) (w : Fin cfg1.W) : (dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-! ## The arguments end as launched: a region reads an argument through an input window, which keeps its array, or
    does not touch it at all -/

theorem W2_main_arg0 (c : Dev nD) : W2 m ρ c (Proc.devRef .tc main_arg0) = m ((c : Thread nD τ).loc main_arg0) :=
  calc W2 m ρ c (Proc.devRef .tc main_arg0)
    _ = W1 m ρ c (Proc.devRef .tc main_arg0) := (W2_arr m ρ c 0).trans (((dat1 (V1 m ρ) c).arrAt_in 0 rfl _).trans (A_eq1 (V1 m ρ) c 0))
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl

theorem W2_main_arg1 (c : Dev nD) : W2 m ρ c (Proc.devRef .tc main_arg1) = m ((c : Thread nD τ).loc main_arg1) :=
  calc W2 m ρ c (Proc.devRef .tc main_arg1)
    _ = W1 m ρ c (Proc.devRef .tc main_arg1) := (W2_arr m ρ c 1).trans (((dat1 (V1 m ρ) c).arrAt_in 1 rfl _).trans (A_eq1 (V1 m ρ) c 1))
    _ = W0 m ρ c (Proc.devRef .tc main_arg1) := (W1_arr m ρ c 1).trans (((dat0 (V0 m ρ) c).arrAt_in 1 rfl _).trans (A_eq0 (V0 m ρ) c 1))
    _ = m ((c : Thread nD τ).loc main_arg1) := rfl

theorem W2_main_arg2 (c : Dev nD) : W2 m ρ c (Proc.devRef .tc main_arg2) = m ((c : Thread nD τ).loc main_arg2) :=
  calc W2 m ρ c (Proc.devRef .tc main_arg2)
    _ = W1 m ρ c (Proc.devRef .tc main_arg2) := (W2_arr m ρ c 2).trans (((dat1 (V1 m ρ) c).arrAt_in 2 rfl _).trans (A_eq1 (V1 m ρ) c 2))
    _ = W0 m ρ c (Proc.devRef .tc main_arg2) := W1_of_ne m ρ c main_arg2 (by decide)
    _ = m ((c : Thread nD τ).loc main_arg2) := rfl

theorem W2_main_arg3 (c : Dev nD) : W2 m ρ c (Proc.devRef .tc main_arg3) = m ((c : Thread nD τ).loc main_arg3) :=
  calc W2 m ρ c (Proc.devRef .tc main_arg3)
    _ = W1 m ρ c (Proc.devRef .tc main_arg3) := (W2_arr m ρ c 3).trans (((dat1 (V1 m ρ) c).arrAt_in 3 rfl _).trans (A_eq1 (V1 m ρ) c 3))
    _ = W0 m ρ c (Proc.devRef .tc main_arg3) := (W1_arr m ρ c 2).trans (((dat0 (V0 m ρ) c).arrAt_in 2 rfl _).trans (A_eq0 (V0 m ρ) c 2))
    _ = m ((c : Thread nD τ).loc main_arg3) := rfl

theorem W2_main_arg4 (c : Dev nD) : W2 m ρ c (Proc.devRef .tc main_arg4) = m ((c : Thread nD τ).loc main_arg4) :=
  calc W2 m ρ c (Proc.devRef .tc main_arg4)
    _ = W1 m ρ c (Proc.devRef .tc main_arg4) := (W2_arr m ρ c 4).trans (((dat1 (V1 m ρ) c).arrAt_in 4 rfl _).trans (A_eq1 (V1 m ρ) c 4))
    _ = W0 m ρ c (Proc.devRef .tc main_arg4) := (W1_arr m ρ c 3).trans (((dat0 (V0 m ρ) c).arrAt_in 3 rfl _).trans (A_eq0 (V0 m ρ) c 3))
    _ = m ((c : Thread nD τ).loc main_arg4) := rfl

theorem W2_main_arg5 (c : Dev nD) : W2 m ρ c (Proc.devRef .tc main_arg5) = m ((c : Thread nD τ).loc main_arg5) :=
  calc W2 m ρ c (Proc.devRef .tc main_arg5)
    _ = W1 m ρ c (Proc.devRef .tc main_arg5) := W2_of_ne m ρ c main_arg5 (by decide)
    _ = W0 m ρ c (Proc.devRef .tc main_arg5) := W1_of_ne m ρ c main_arg5 (by decide)
    _ = m ((c : Thread nD τ).loc main_arg5) := rfl

/-- The second region's result array ends at what its write-backs left. -/
theorem W2_main_v1 (c : Dev nD) : W2 m ρ c (Proc.devRef .tc main_v1) = (dat1 (V1 m ρ) c).arrAt 6 cfg1.N := W2_arr m ρ c 6
/-- The one-element sum the second region is entered with is what the first region's write-back left. -/
theorem V1_main_v0 (c : Dev nD) : V1 m ρ c main_v0 = (dat0 (V0 m ρ) c).arrAt 4 cfg0.N := W1_arr m ρ c 4

/-! ## The proof data family and the thread state -/

abbrev adm : (p : Fin 2) → (pcfgs (F := F) p).Adm := fun p => (cfgs p).toPCfg_adm
/-- Each region's proof data at the contents it is entered with. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
abbrev 𝒱₀ : Variants := Variants.none
abbrev L : GSem nD τ sig → Finset Unit := fun _ => ∅
abbrev lv : GSem nD τ sig → Unit → ℕ := fun _ _ => 0
/-- What rides beside the buffers through both regions: the generator register at some state, nothing owed. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W2 m ρ c) ∗ ∃ r, prngReg c r)

/-! ## The regions as segments -/

set_option backward.isDefEq.respectTransparency.types false in
/-- Region 0 over the thread state: entered from every unscoped buffer at the contents before it, left at the
    contents after it. Its windows' arrays are split out of the unscoped buffers on entry and put back, at what the
    write-backs left, on exit; the generator register goes into the region's invariant and comes back; nothing is
    owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents before it, left at the
    contents after it. Its windows' arrays are split out of the unscoped buffers on entry and put back, at what the
    write-backs left, on exit; the generator register goes into the region's invariant and comes back; nothing is
    owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    have h : (Pipeline.ΦA spec1 c : sProp 𝕄) ⊢ iprop((∃ r, prngReg c r) ∗ BI.emp ∗ Pipeline.scopedRest spec1 c) := by
      unfold Pipeline.ΦA
      iintro ⟨Hr, Hp⟩
      isplitl [Hp]; · iexact Hp
      isplitr; · iempintro
      iexact Hr
    exact (hout1 (V1 m ρ) c).trans h
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its two segments, and the run -/

abbrev segs : List (Pipeline.Seg (pcfgs (F := F)) adm (pdats m ρ) () defs₀ 𝒱₀ L lv) :=
  [ .region (reg0 m ρ), .region (reg1 m ρ) ]
theorem main_run (c : Dev nD) : main (F := F) c = Pipeline.Seg.run (segs m ρ) := (main_chain c).trans (by chain_rfl)

set_option backward.isDefEq.respectTransparency.types false in
/-- From any memory with zero counters every weakly fair execution of the program terminates, nothing faulting, and
    in every final state each unscoped buffer holds the contents after the second region: so the result array holds
    what the second region's write-backs left, and each of the six arguments what it held at launch. -/
theorem run : θ_run defs (onTc (τ := τ) (main (F := F))) ⟨m, fun _ => 0, ρ⟩ (fun r => ∀ c : Dev nD,
      r.2.mem ((c.tc : Thread nD τ).loc main_v1) = (dat1 (V1 m ρ) c).arrAt 6 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h c =>
      ⟨(h c _ (mem_uc main_v1 (by decide))).trans (W2_main_v1 m ρ c),
       (h c _ (mem_uc main_arg0 (by decide))).trans (W2_main_arg0 m ρ c),
       (h c _ (mem_uc main_arg1 (by decide))).trans (W2_main_arg1 m ρ c),
       (h c _ (mem_uc main_arg2 (by decide))).trans (W2_main_arg2 m ρ c),
       (h c _ (mem_uc main_arg3 (by decide))).trans (W2_main_arg3 m ρ c),
       (h c _ (mem_uc main_arg4 (by decide))).trans (W2_main_arg4 m ρ c),
       (h c _ (mem_uc main_arg5 (by decide))).trans (W2_main_arg5 m ρ c)⟩)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => (h c).2) (run m ρ)

end Cert.KernelIdeal.Run

end
-- ==== Proof.KI.R0Value.lean ====
/- The first region's result as a value. At each grid point the body leaves in the one-element accumulator the
   point's payload: at the reset point the payload of the four input blocks over the zero it has just stored, at each
   later point the payload of the four input blocks over what the point before left. So the accumulator after point
   n is an explicit chain of sixteen payload applications, and the region's one write-back (after the last point,
   of a block that is the whole one-element array) leaves the chain's last value in the result array. -/
import proofs.«173389_j39676907883922_1_alg».proof.Proof.KI.R0Frame
import Idealize.ShloMosaic.Lib.Pipeline.Value

set_option maxRecDepth 16384

noncomputable section

namespace Cert.KernelIdeal.Frame0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

theorem hz2 : (![0, 0] : Fin 2 → Nat) = fun _ => 0 := funext fun a => by fin_cases a <;> rfl

/-- A later point's value: the payload of the four input blocks over the accumulator's running contents. -/
theorem out_B (c : Dev nD) (i : grid0.Coords) (a2 : Memref sig .tc .vmem S1024x64 .f32) (h2 : a2.IsWhole) (a3 : Memref sig .tc .vmem S1024x64 .f32) (h3 : a3.IsWhole) (a4 : Memref sig .tc .vmem S1024x1024 .f32) (h4 : a4.IsWhole) (a5 : Memref sig .tc .vmem S1024x1 .f32) (h5 : a5.IsWhole) (a6 : Memref sig .tc .vmem S1x1 .f32) (h6 : a6.IsWhole) (hc : ¬cond0_0 i)
    (x0 : Vec F S1024x64 .f32) (x1 : Vec F S1024x64 .f32) (x2 : Vec F S1024x1024 .f32) (x3 : Vec F S1024x1 .f32) (xo : Vec F S1x1 .f32) :
    out0_B_4 c i a2 h2 a3 h3 a4 h4 a5 h5 a6 h6 hc x0 x1 x2 x3 xo = k0_pay2 x0 x1 x2 x3 xo := by
  unfold out0_B_4
  rw [View.read_writes_eq_canon _ _ _ (cover0_B_4 c i a2 h2 a3 h3 a4 h4 a5 h5 a6 h6 hc x0 x1 x2 x3 xo)]
  unfold kernelRun0_B
  dsimp only
  rw [View.canon_unit_zero hz2]
  simp only [View.readAt_eq_ld, h2.read_unread, h3.read_unread, h4.read_unread, h5.read_unread, h6.read_unread,
    View.ld_unit_zero (S := S1024x64) hz2, View.ld_unit_zero (S := S1024x1024) hz2, View.ld_unit_zero (S := S1024x1) hz2,
    View.ld_unit_zero (S := S1x1) hz2]

/-- The reset point's value: the payload of the four input blocks over the zero the body has just stored. -/
theorem out_A (c : Dev nD) (i : grid0.Coords) (a2 : Memref sig .tc .vmem S1024x64 .f32) (h2 : a2.IsWhole) (a3 : Memref sig .tc .vmem S1024x64 .f32) (h3 : a3.IsWhole) (a4 : Memref sig .tc .vmem S1024x1024 .f32) (h4 : a4.IsWhole) (a5 : Memref sig .tc .vmem S1024x1 .f32) (h5 : a5.IsWhole) (a6 : Memref sig .tc .vmem S1x1 .f32) (h6 : a6.IsWhole) (hc : cond0_0 i)
    (x0 : Vec F S1024x64 .f32) (x1 : Vec F S1024x64 .f32) (x2 : Vec F S1024x1024 .f32) (x3 : Vec F S1024x1 .f32) :
    out0_A_4 c i a2 h2 a3 h3 a4 h4 a5 h5 a6 h6 hc x0 x1 x2 x3 = k0_pay2 x0 x1 x2 x3 (k0_pay1 (F := F)) := by
  unfold out0_A_4
  rw [View.read_writes_eq_canon _ _ _ (cover0_A_4 c i a2 h2 a3 h3 a4 h4 a5 h5 a6 h6 hc x0 x1 x2 x3)]
  unfold kernelRun0_A
  dsimp only
  sl_unfold_words
  rw [View.canon_cons_unit_zero (S := S1x1) hz2, View.readCov_unit_zero (S := S1x1) _ hz2]
  simp only [View.readAt_eq_ld, h2.read_unread, h3.read_unread, h4.read_unread, h5.read_unread,
    View.ld_unit_zero (S := S1024x64) hz2, View.ld_unit_zero (S := S1024x1024) hz2, View.ld_unit_zero (S := S1024x1) hz2,
    View.ld_unit_zero (S := S1x1) hz2]

/-- The running accumulator after point n, as an explicit chain of payload applications. -/
def chain0 (c : Dev nD) : (n : ℕ) → n < cfg0.N → Vec F S1x1 .f32
  | 0, h => k0_pay2 (iblk0 V c 0 ⟨0, h⟩) (iblk0 V c 1 ⟨0, h⟩) (iblk0 V c 2 ⟨0, h⟩) (iblk0 V c 3 ⟨0, h⟩) (k0_pay1 (F := F))
  | n + 1, h => k0_pay2 (iblk0 V c 0 ⟨n + 1, h⟩) (iblk0 V c 1 ⟨n + 1, h⟩) (iblk0 V c 2 ⟨n + 1, h⟩) (iblk0 V c 3 ⟨n + 1, h⟩) (chain0 c n (Nat.lt_of_succ_lt h))

/-- What the accumulator's staging buffer holds after point n is the chain: by induction on the point. -/
theorem outsAt0_eq (c : Dev nD) : ∀ (n : ℕ) (h : n < cfg0.N), outsAt0 V c n h = chain0 V c n h
  | 0, h => (outsAt0_A V c ⟨0, h⟩ rfl).trans (out_A ..)
  | n + 1, h => by
    have hN : cfg0.N = 16 := N_0
    have hB : ¬(⟨n + 1, h⟩ : Fin cfg0.N).val % 16 = 0 := by dsimp only; omega
    rw [outsAt0_B V c ⟨n + 1, h⟩ hB, out_B]
    show k0_pay2 _ _ _ _ (outsAt0 V c n _) = k0_pay2 _ _ _ _ (chain0 V c n _)
    rw [outsAt0_eq c n]

/-- The region's result: the chain after the last of the sixteen points, as contents of the one-element array. -/
abbrev result0 (c : Dev nD) : Buf (Elt F) ((c : Thread nD τ).loc main_v0) := chain0 V c 15 (by rw [show cfg0.N = 16 from N_0]; decide)

/-- The one write-back, after point 15, writes it: block (0, 0) of the one-element array is the array. -/
theorem flushed0_eq (c : Dev nD) (t : Fin cfg0.N) (hf : (cfg0.win 4).flush t = true) :
    (dat0 V c).flushed 4 t = ((cfg0.win 4).blk t).view.read (Elt F) (result0 V c) := by
  have hN : cfg0.N = 16 := N_0
  have h15 : t.val = 15 := by have := (flush0_4 t).mp hf; have := t.isLt; omega
  obtain rfl : t = t0_15 := Fin.ext h15
  show (cfg0.win 4).cut (grid0.coords t0_15) ((dat0 V c).after 4 t0_15) = _
  rw [after0_4, outsAt0_eq]
  have hz' : (fun a => win0_4.index t0_15 a * main_v0.ty.shape.size a) = fun _ => 0 := funext fun a => by fin_cases a <;> decide
  exact (Memref.read_access_unit_zero (Elt F) main_v0 hz' (fun a => by rw [congrFun hz' a]; simp) (result0 V c)).symm

/-- So the result array ends holding the chain's last value: the last point's block covers it. -/
theorem final0 (c : Dev nD) : (dat0 V c).arrAt 4 cfg0.N = result0 V c :=
  (dat0 V c).arrAt_eq_of_cover 4 (result0 V c) (flushed0_eq V c) fun i =>
    ⟨t0_15, (flush0_4 t0_15).mpr rfl, by
      show i ∈ ((View.whole main_v0).slice (win0_4.rect t0_15)).set
      rw [View.set_slice_whole, Rect.mem_set_unit]
      intro a
      have h0 : (i 0 : Nat) < 1 := (i 0).isLt
      have h1 : (i 1 : Nat) < 1 := (i 1).isLt
      match a with
      | ⟨0, _⟩ => show win0_4.index t0_15 0 * win0_4.size 0 ≤ (i 0 : Nat) ∧ (i 0 : Nat) < win0_4.index t0_15 0 * win0_4.size 0 + win0_4.xsize (grid0.coords t0_15) 0
                  rw [show win0_4.index t0_15 0 * win0_4.size 0 = 0 from by decide +kernel, show win0_4.xsize (grid0.coords t0_15) 0 = 1 from by decide +kernel]; omega
      | ⟨1, _⟩ => show win0_4.index t0_15 1 * win0_4.size 1 ≤ (i 1 : Nat) ∧ (i 1 : Nat) < win0_4.index t0_15 1 * win0_4.size 1 + win0_4.xsize (grid0.coords t0_15) 1
                  rw [show win0_4.index t0_15 1 * win0_4.size 1 = 0 from by decide +kernel, show win0_4.xsize (grid0.coords t0_15) 1 = 1 from by decide +kernel]; omega⟩

end Cert.KernelIdeal.Frame0

end
-- ==== Proof.TileSums.lean ====
/-
  Sums over 4096 indices cut into 4 tiles of 1024, and an accumulator stepped by additions read as a sum.

  An index x below 4096 is T · 1024 + y for exactly one tile T below 4 and one offset y below 1024, so a sum
  over x is the sum over the tiles of the sums over the offsets; a double sum over two such indices is the sum
  over the 16 tile pairs of the tiles' double sums. An accumulator that starts at a value and at step n adds
  g n holds, after N steps, the start plus the sum of g over the first N steps; the steps of a 4 × 4 grid
  visited row by row are the pairs (I, J) at step I · 4 + J. Only commutativity and associativity of the
  addition are used, so all of it holds in any commutative monoid, the extended reals included.
-/
import Idealize.ShloMosaic.PureOps.Ideal

open scoped BigOperators

namespace Cert.Attn

/-- Offset y of tile T, as an index below 4096. -/
abbrev tile (T : Fin 4) (y : Fin 1024) : Fin 4096 := ⟨T.val * 1024 + y.val, by omega⟩

theorem tile_val (T : Fin 4) (y : Fin 1024) : (tile T y).val = T.val * 1024 + y.val := rfl

section
variable {M : Type*} [AddCommMonoid M]

/-- A sum over m · n indices, by blocks of n. -/
theorem sum_blocks (m n : ℕ) (f : Fin (m * n) → M) :
    ∑ x : Fin (m * n), f x
      = ∑ T : Fin m, ∑ y : Fin n, f ⟨T.val * n + y.val, by
          calc T.val * n + y.val < T.val * n + n := Nat.add_lt_add_left y.isLt _
            _ = (T.val + 1) * n := by rw [Nat.add_mul, Nat.one_mul]
            _ ≤ m * n := Nat.mul_le_mul_right _ T.isLt⟩ := by
  rw [← Equiv.sum_comp finProdFinEquiv f, Fintype.sum_prod_type]
  refine Finset.sum_congr rfl fun T _ => Finset.sum_congr rfl fun y _ => congrArg f (Fin.ext ?_)
  show y.val + n * T.val = T.val * n + y.val
  rw [Nat.mul_comm, Nat.add_comm]

/-- A sum over 4096 indices is the sum over the 4 tiles of the sums over the tile's 1024 offsets. -/
theorem sum_tiles (f : Fin 4096 → M) : ∑ x : Fin 4096, f x = ∑ T : Fin 4, ∑ y : Fin 1024, f (tile T y) :=
  sum_blocks 4 1024 f

/-- A double sum over 4096 × 4096 indices is the sum over the 16 tile pairs of the tiles' double sums. -/
theorem sum_tiles_two (f : Fin 4096 → Fin 4096 → M) :
    ∑ i : Fin 4096, ∑ j : Fin 4096, f i j
      = ∑ I : Fin 4, ∑ J : Fin 4, ∑ p : Fin 1024, ∑ s : Fin 1024, f (tile I p) (tile J s) := by
  rw [sum_tiles]
  refine Finset.sum_congr rfl fun I _ => ?_
  rw [Finset.sum_congr rfl fun p _ => sum_tiles (f (tile I p))]
  exact Finset.sum_comm

/-- An accumulator that starts at a₀ and at step n adds g n holds, after N steps, a₀ plus the sum of g over the
    first N steps. -/
theorem acc_steps (a g : ℕ → M) (N : ℕ) (hs : ∀ n, n < N → a (n + 1) = a n + g n) :
    a N = a 0 + ∑ n ∈ Finset.range N, g n := by
  induction N with
  | zero => rw [Finset.range_zero, Finset.sum_empty, add_zero]
  | succ N ih =>
    rw [hs N (Nat.lt_succ_self N), ih fun n hn => hs n (Nat.lt_succ_of_lt hn), Finset.sum_range_succ, add_assoc]

/-- The same from the start 0: the accumulator is the sum. -/
theorem acc_steps_zero (a g : ℕ → M) (N : ℕ) (h0 : a 0 = 0) (hs : ∀ n, n < N → a (n + 1) = a n + g n) :
    a N = ∑ n ∈ Finset.range N, g n := by
  rw [acc_steps a g N hs, h0, zero_add]

/-- The first m · n steps, by rows of n: step I · n + J is column J of row I. -/
theorem sum_range_blocks (m n : ℕ) (g : ℕ → M) :
    ∑ t ∈ Finset.range (m * n), g t = ∑ I : Fin m, ∑ J : Fin n, g (I.val * n + J.val) := by
  rw [Finset.sum_range, sum_blocks m n fun x => g x.val]

/-- Sixteen steps are the 4 × 4 tile pairs visited row by row. -/
theorem sum_range_sixteen (g : ℕ → M) :
    ∑ t ∈ Finset.range 16, g t = ∑ I : Fin 4, ∑ J : Fin 4, g (I.val * 4 + J.val) :=
  sum_range_blocks 4 4 g

/-- Four steps are the 4 column tiles. -/
theorem sum_range_four (g : ℕ → M) : ∑ t ∈ Finset.range 4, g t = ∑ J : Fin 4, g J.val :=
  Finset.sum_range g

/-- A 16-step accumulator from 0 whose step I · 4 + J adds the double sum of tile pair (I, J) ends at the whole
    double sum. -/
theorem acc_sixteen_tiles (f : Fin 4096 → Fin 4096 → M) (a : ℕ → M) (h0 : a 0 = 0)
    (hs : ∀ (I J : Fin 4), a (I.val * 4 + J.val + 1)
      = a (I.val * 4 + J.val) + ∑ p : Fin 1024, ∑ s : Fin 1024, f (tile I p) (tile J s)) :
    a 16 = ∑ i : Fin 4096, ∑ j : Fin 4096, f i j := by
  let g : ℕ → M := fun t =>
    if h : t < 16 then ∑ p : Fin 1024, ∑ s : Fin 1024,
      f (tile ⟨t / 4, by omega⟩ p) (tile ⟨t % 4, by omega⟩ s) else 0
  have hg : ∀ (I J : Fin 4), g (I.val * 4 + J.val) = ∑ p : Fin 1024, ∑ s : Fin 1024, f (tile I p) (tile J s) := by
    intro I J
    have hlt : I.val * 4 + J.val < 16 := by omega
    have hI : (⟨(I.val * 4 + J.val) / 4, by omega⟩ : Fin 4) = I := Fin.ext (by show (I.val * 4 + J.val) / 4 = I.val; omega)
    have hJ : (⟨(I.val * 4 + J.val) % 4, by omega⟩ : Fin 4) = J := Fin.ext (by show (I.val * 4 + J.val) % 4 = J.val; omega)
    show (if h : I.val * 4 + J.val < 16 then _ else _) = _
    rw [dif_pos hlt, hI, hJ]
  have hstep : ∀ n, n < 16 → a (n + 1) = a n + g n := by
    intro n hn
    have e : n = (⟨n / 4, by omega⟩ : Fin 4).val * 4 + (⟨n % 4, by omega⟩ : Fin 4).val := by
      show n = n / 4 * 4 + n % 4; omega
    rw [e, hs, hg]
  rw [acc_steps_zero a g 16 h0 hstep, sum_range_sixteen, sum_tiles_two]
  exact Finset.sum_congr rfl fun I _ => Finset.sum_congr rfl fun J _ => hg I J

/-- A 4-step accumulator from 0 whose step J adds the sum over column tile J ends at the whole sum. -/
theorem acc_four_tiles (f : Fin 4096 → M) (a : ℕ → M) (h0 : a 0 = 0)
    (hs : ∀ J : Fin 4, a (J.val + 1) = a J.val + ∑ s : Fin 1024, f (tile J s)) :
    a 4 = ∑ j : Fin 4096, f j := by
  let g : ℕ → M := fun t => if h : t < 4 then ∑ s : Fin 1024, f (tile ⟨t, h⟩ s) else 0
  have hg : ∀ J : Fin 4, g J.val = ∑ s : Fin 1024, f (tile J s) := fun J => dif_pos J.isLt
  have hstep : ∀ n, n < 4 → a (n + 1) = a n + g n := fun n hn => by
    have := hs ⟨n, hn⟩
    rw [hg ⟨n, hn⟩] at *
    exact this
  rw [acc_steps_zero a g 4 h0 hstep, sum_range_four, sum_tiles]
  exact Finset.sum_congr rfl fun J _ => hg J

end

end Cert.Attn
-- ==== Proof.KI.Blocks0.lean ====
/- The first region's windows, read entry by entry: at grid point t = 4 I + J, entry (p, d) of a window's block
   is the entry of the window's array at the block's offset plus (p, d) — row tile I for the queries, the uniform
   draws' rows and the row factors, row tile J for the keys and the uniform draws' columns. -/
import proofs.«173389_j39676907883922_1_alg».proof.Proof.KI.R0Runs
import proofs.«173389_j39676907883922_1_alg».proof.Proof.TileSums
import Idealize.ShloMosaic.Lib.ValueIdx
import Idealize.ShloMosaic.Lib.Pipeline.Value

set_option maxRecDepth 16384

noncomputable section

namespace Cert.KernelIdeal.Frame0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

open Idealize.ShloMosaic.ValueIdx Cert.Attn

variable (V : (c : Dev nD) → (b : Ref sig .tc) → Buf (Elt F) ((c : Thread nD τ).loc b))

theorem iblk0_0_at (c : Dev nD) (t : Fin cfg0.N) (I J : Fin 4) (ht : t.val = I.val * 4 + J.val) (p : Fin 1024) (d : Fin 64) :
    (iblk0 V c 0 t : S1024x64.Idx → Elt F .f32) (ix2 p d) = V c main_arg0 (ix2 (tile I p) d) := by
  have hi : win0_0.index t 0 = t.val / 4 ∧ win0_0.index t 1 = 0 :=
    (by decide +kernel : ∀ t : Fin grid0.N, win0_0.index t 0 = t.val / 4 ∧ win0_0.index t 1 = 0) t
  have hI : t.val / 4 = I.val := by omega
  have hJ : t.val % 4 = J.val := by omega
  unfold iblk0
  rw [View.read_apply]
  show V c main_arg0 _ = V c main_arg0 _
  congr 1
  funext a
  apply Fin.ext
  match a with
  | ⟨0, _⟩ => show win0_0.index t 0 * 1024 + 1 * p.val = _; rw [hi.1]; simp only [ix2, tile_val, hI, hJ]; omega
  | ⟨1, _⟩ => show win0_0.index t 1 * 64 + 1 * d.val = _; rw [hi.2]; simp only [ix2, tile_val, hI, hJ]; omega

theorem iblk0_1_at (c : Dev nD) (t : Fin cfg0.N) (I J : Fin 4) (ht : t.val = I.val * 4 + J.val) (p : Fin 1024) (d : Fin 64) :
    (iblk0 V c 1 t : S1024x64.Idx → Elt F .f32) (ix2 p d) = V c main_arg1 (ix2 (tile J p) d) := by
  have hi : win0_1.index t 0 = t.val % 4 ∧ win0_1.index t 1 = 0 :=
    (by decide +kernel : ∀ t : Fin grid0.N, win0_1.index t 0 = t.val % 4 ∧ win0_1.index t 1 = 0) t
  have hI : t.val / 4 = I.val := by omega
  have hJ : t.val % 4 = J.val := by omega
  unfold iblk0
  rw [View.read_apply]
  show V c main_arg1 _ = V c main_arg1 _
  congr 1
  funext a
  apply Fin.ext
  match a with
  | ⟨0, _⟩ => show win0_1.index t 0 * 1024 + 1 * p.val = _; rw [hi.1]; simp only [ix2, tile_val, hI, hJ]; omega
  | ⟨1, _⟩ => show win0_1.index t 1 * 64 + 1 * d.val = _; rw [hi.2]; simp only [ix2, tile_val, hI, hJ]; omega

theorem iblk0_2_at (c : Dev nD) (t : Fin cfg0.N) (I J : Fin 4) (ht : t.val = I.val * 4 + J.val) (p : Fin 1024) (d : Fin 1024) :
    (iblk0 V c 2 t : S1024x1024.Idx → Elt F .f32) (ix2 p d) = V c main_arg3 (ix2 (tile I p) (tile J d)) := by
  have hi : win0_2.index t 0 = t.val / 4 ∧ win0_2.index t 1 = t.val % 4 :=
    (by decide +kernel : ∀ t : Fin grid0.N, win0_2.index t 0 = t.val / 4 ∧ win0_2.index t 1 = t.val % 4) t
  have hI : t.val / 4 = I.val := by omega
  have hJ : t.val % 4 = J.val := by omega
  unfold iblk0
  rw [View.read_apply]
  show V c main_arg3 _ = V c main_arg3 _
  congr 1
  funext a
  apply Fin.ext
  match a with
  | ⟨0, _⟩ => show win0_2.index t 0 * 1024 + 1 * p.val = _; rw [hi.1]; simp only [ix2, tile_val, hI, hJ]; omega
  | ⟨1, _⟩ => show win0_2.index t 1 * 1024 + 1 * d.val = _; rw [hi.2]; simp only [ix2, tile_val, hI, hJ]; omega

theorem iblk0_3_at (c : Dev nD) (t : Fin cfg0.N) (I J : Fin 4) (ht : t.val = I.val * 4 + J.val) (p : Fin 1024) (d : Fin 1) :
    (iblk0 V c 3 t : S1024x1.Idx → Elt F .f32) (ix2 p d) = V c main_arg4 (ix2 (tile I p) d) := by
  have hi : win0_3.index t 0 = t.val / 4 ∧ win0_3.index t 1 = 0 :=
    (by decide +kernel : ∀ t : Fin grid0.N, win0_3.index t 0 = t.val / 4 ∧ win0_3.index t 1 = 0) t
  have hI : t.val / 4 = I.val := by omega
  have hJ : t.val % 4 = J.val := by omega
  unfold iblk0
  rw [View.read_apply]
  show V c main_arg4 _ = V c main_arg4 _
  congr 1
  funext a
  apply Fin.ext
  match a with
  | ⟨0, _⟩ => show win0_3.index t 0 * 1024 + 1 * p.val = _; rw [hi.1]; simp only [ix2, tile_val, hI, hJ]; omega
  | ⟨1, _⟩ => show win0_3.index t 1 * 1 + 1 * d.val = _; rw [hi.2]; simp only [ix2, tile_val, hI, hJ]; omega

end Cert.KernelIdeal.Frame0

end
-- ==== Proof.Spec.lean ====
/-
  The function both programs compute, index by index, on the extended reals.

  For queries q, keys k, values v of shape [4096, 64], a uniform-noise array u of shape [4096, 4096] and a
  per-row factor row of shape [4096, 1]:
    t i j   = ((∑ d, q[i,d] · k[j,d]) · 8) · (keep (u[i,j]) · c)     keep x = 1 if 0.1 ≤ x else 0, c = 8388608/7549747
    r i j   = ⌊t i j · row[i,0]⌋
    sumr    = ∑ i, ∑ j, r i j
    out i d = ∑ j, (t i j · (r i j / sumr)) · v[j,d].
  The threshold 0.1 and the scale 8 are kept as the float words both programs carry; what those words, and the
  words the reference builds the same numbers from (64 ^ 0.5, a division by 0.9), denote is computed once, here.
-/
import Idealize.ShloMosaic.PureOps.Ideal
import Idealize.ShloMosaic.PureOps.Ideal.Laws
import Idealize.ShloMosaic.Lib.ValueIdx

noncomputable section

open scoped BigOperators

namespace Cert.Attn

open Idealize.ShloMosaic Idealize.ShloMosaic.ValueIdx

/-! ## The words -/

/-- The word 0x41000000 denotes 8. -/
theorem ofBits_eight : Ideal.ofBits .f32 0x41000000#32 = ((8 : ℝ) : EReal) := by
  simp [Ideal.ofBits, Ideal.ieee, -EReal.coe_mul]; norm_num

/-- The word 0x42800000 denotes 64. -/
theorem ofBits_sixtyfour : Ideal.ofBits .f32 0x42800000#32 = ((64 : ℝ) : EReal) := by
  simp [Ideal.ofBits, Ideal.ieee, -EReal.coe_mul]; norm_num

/-- The word 0x3F000000 denotes 1/2. -/
theorem ofBits_half : Ideal.ofBits .f32 0x3F000000#32 = ((1 / 2 : ℝ) : EReal) := by
  simp [Ideal.ofBits, Ideal.ieee, -EReal.coe_mul]; norm_num

/-- The word 0x3F666666, the float nearest 0.9, denotes 7549747 / 8388608. -/
theorem ofBits_keep : Ideal.ofBits .f32 0x3F666666#32 = ((7549747 / 8388608 : ℝ) : EReal) := by
  simp [Ideal.ofBits, Ideal.ieee, -EReal.coe_mul]; norm_num

/-- 64 to the power 1/2 is 8: the reference's scale is the kernel's literal. -/
theorem pow_sixtyfour_half :
    Ideal.pow (Ideal.ofBits .f32 0x42800000#32) (Ideal.ofBits .f32 0x3F000000#32) = Ideal.ofBits .f32 0x41000000#32 := by
  rw [ofBits_sixtyfour, ofBits_half, ofBits_eight, Ideal.pow_coe_coe]
  have h : Real.rpow 64 (1 / 2) = 8 := by
    rw [show (64 : ℝ) = 8 ^ (2 : ℝ) by norm_num, Real.rpow_eq_pow, ← Real.rpow_mul (by norm_num)]; norm_num
  rw [h]

/-- Dividing by the float nearest 0.9 is multiplying by 8388608 / 7549747, on every extended real. -/
theorem div_keep (x : EReal) :
    Ideal.div x (Ideal.ofBits .f32 0x3F666666#32) = x * ((8388608 / 7549747 : ℝ) : EReal) := by
  rw [ofBits_keep, Ideal.div_coe (by norm_num)]
  congr 2; norm_num

/-! ## The mask -/

/-- The dropout mask of one entry: 1 where the noise is at least the threshold word 0.1, else 0. -/
def maskv (x : EReal) : EReal := if Ideal.ofBits .f32 0x3DCCCCCD#32 ≤ x then 1 else 0

/-- The comparison bit widened to 32 bits and read as a signed integer is the mask. -/
theorem mask_of_sitofp (x : EReal) :
    FloatOps.sitofp (F := Ideal) .f32
      ((FloatOps.cmpf (F := Ideal) (φ := .f32) .oge x (Ideal.ofBits .f32 0x3DCCCCCD#32)).setWidth 32) = maskv x := by
  show (((BitVec.setWidth 32 (Ideal.cmp .oge x (Ideal.ofBits .f32 0x3DCCCCCD#32))).toInt : ℝ) : EReal) = maskv x
  unfold maskv Ideal.cmp
  by_cases h : Ideal.ofBits .f32 0x3DCCCCCD#32 ≤ x
  · rw [if_pos h]; simp [h]
  · rw [if_neg h]; simp [h]

/-- The comparison bit read as an unsigned integer is the mask. -/
theorem mask_of_uitofp (x : EReal) :
    FloatOps.uitofp (F := Ideal) .f32
      (FloatOps.cmpf (F := Ideal) (φ := .f32) .oge x (Ideal.ofBits .f32 0x3DCCCCCD#32)) = maskv x := by
  show (((Ideal.cmp .oge x (Ideal.ofBits .f32 0x3DCCCCCD#32)).toNat : ℝ) : EReal) = maskv x
  unfold maskv Ideal.cmp
  by_cases h : Ideal.ofBits .f32 0x3DCCCCCD#32 ≤ x
  · rw [if_pos h]; simp [h]
  · rw [if_neg h]; simp [h]

/-- The mask scaled by the reciprocal of the keep probability, 8388608 / 7549747. -/
def keepv (x : EReal) : EReal := maskv x * ((8388608 / 7549747 : ℝ) : EReal)

/-! ## The function -/

/-- The scaled, masked score of query row i against key row j. -/
def tval (q k : (⟨2, ![4096, 64]⟩ : Shape).Idx → EReal) (u : (⟨2, ![4096, 4096]⟩ : Shape).Idx → EReal)
    (i j : Fin 4096) : EReal :=
  ((∑ d : Fin 64, q (ix2 i d) * k (ix2 j d)) * Ideal.ofBits .f32 0x41000000#32) * keepv (u (ix2 i j))

/-- The floor of the score times the row's factor. -/
def rval (q k : (⟨2, ![4096, 64]⟩ : Shape).Idx → EReal) (u : (⟨2, ![4096, 4096]⟩ : Shape).Idx → EReal)
    (row : (⟨2, ![4096, 1]⟩ : Shape).Idx → EReal) (i j : Fin 4096) : EReal :=
  Ideal.liftRound Int.floor (tval q k u i j * row (ix2 i (0 : Fin 1)))

/-- The sum of every floored entry. -/
def sumr (q k : (⟨2, ![4096, 64]⟩ : Shape).Idx → EReal) (u : (⟨2, ![4096, 4096]⟩ : Shape).Idx → EReal)
    (row : (⟨2, ![4096, 1]⟩ : Shape).Idx → EReal) : EReal :=
  ∑ i : Fin 4096, ∑ j : Fin 4096, rval q k u row i j

/-- Entry (i, d) of the result: the scores of row i, each weighted by its floored entry's share of the total,
    against column d of the values. -/
def outv (q k v : (⟨2, ![4096, 64]⟩ : Shape).Idx → EReal) (u : (⟨2, ![4096, 4096]⟩ : Shape).Idx → EReal)
    (row : (⟨2, ![4096, 1]⟩ : Shape).Idx → EReal) (i : Fin 4096) (d : Fin 64) : EReal :=
  ∑ j : Fin 4096, (tval q k u i j * Ideal.div (rval q k u row i j) (sumr q k u row)) * v (ix2 j d)

/-- The result array. -/
def G (q k v : (⟨2, ![4096, 64]⟩ : Shape).Idx → EReal) (u : (⟨2, ![4096, 4096]⟩ : Shape).Idx → EReal)
    (row : (⟨2, ![4096, 1]⟩ : Shape).Idx → EReal) : (⟨2, ![4096, 64]⟩ : Shape).Idx → EReal :=
  fun x => outv q k v u row (x 0) (x 1)

theorem G_ix2 (q k v : (⟨2, ![4096, 64]⟩ : Shape).Idx → EReal) (u : (⟨2, ![4096, 4096]⟩ : Shape).Idx → EReal)
    (row : (⟨2, ![4096, 1]⟩ : Shape).Idx → EReal) (i : Fin 4096) (d : Fin 64) :
    G q k v u row (ix2 i d) = outv q k v u row i d := rfl

end Cert.Attn

end
-- ==== Proof.LibIdealAt.lean ====
/-
  Vector operations of a kernel body read at an index, at the extended reals, in the form "if the operands
  read A and B there, the result reads A + B": one lemma per operation, so that the value of a composed
  expression at an index is assembled along the expression's own tree.

  Pointwise operations read the operands at the same index. A matrix product into the zero accumulator reads
  a row of the left operand against a column of the right one. A sum over the middle axis of a rank-3 vector,
  or over the last axis of a rank-2 one, is the finite sum over that coordinate. The layout operations read:
  [a, b, c] viewed as [a·b, c] and back (row p·b + o is node o of graph p), [a] viewed as a column [a, 1], a
  column spread over b columns, [a, c] viewed as [a, 1, c], and that spread over b copies of the middle axis.
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.IdealAt

open Idealize.ShloMosaic Idealize.ShloMosaic.ValueIdx

variable {s : Shape} {φ : FTy}

/-! ## Pointwise operations -/

theorem addf_at {a b : FVec Ideal s φ} {i : s.Idx} {A B : EReal} (ha : a i = A) (hb : b i = B) :
    addf a b i = A + B := by subst ha hb; rfl
theorem subf_at {a b : FVec Ideal s φ} {i : s.Idx} {A B : EReal} (ha : a i = A) (hb : b i = B) :
    subf a b i = A - B := by subst ha hb; rfl
theorem mulf_at {a b : FVec Ideal s φ} {i : s.Idx} {A B : EReal} (ha : a i = A) (hb : b i = B) :
    mulf a b i = A * B := by subst ha hb; rfl
theorem divf_at {a b : FVec Ideal s φ} {i : s.Idx} {A B : EReal} (ha : a i = A) (hb : b i = B) :
    divf a b i = Ideal.div A B := by subst ha hb; rfl
theorem maximumf_at {a b : FVec Ideal s φ} {i : s.Idx} {A B : EReal} (ha : a i = A) (hb : b i = B) :
    maximumf a b i = max A B := by subst ha hb; rfl
theorem rsqrt_at {a : FVec Ideal s φ} {i : s.Idx} {A : EReal} (ha : a i = A) :
    rsqrt a i = Ideal.rsqrt A := by subst ha; rfl
/-- A change of float format is the identity on extended reals. -/
theorem truncf_at {ψ : FTy} {a : FVec Ideal s φ} {h : ψ.bits < φ.bits} {i : s.Idx} {A : EReal} (ha : a i = A) :
    (truncf ψ a h : FVec Ideal s ψ) i = A := by subst ha; rfl
/-- A splat of a scalar constant reads the extended real its word denotes. -/
theorem splat_at (b : BitVec 32) (i : s.Idx) :
    broadcast s (Scalar.ofBits (F := Ideal) .f32 b) i = Ideal.ofBits .f32 b := rfl

/-! ## A matrix product into the zero accumulator -/

/-- For dimension numbers that contract the left operand's columns against the right operand's rows (the four
    coordinate facts, which hold of a printed record by computation), the product at (a, c) is the sum over k
    of left (a, k) times right (k, c). -/
theorem matmul_at {m n q : ℕ} {φ₁ φ₂ : FTy} (D : DotDims ⟨2, ![m, n]⟩ ⟨2, ![n, q]⟩ ⟨2, ![m, q]⟩)
    (hr : D.contr.rank = 1) (hs : D.contr.size ⟨0, by omega⟩ = n)
    (hl0 : ∀ i c, (D.lhsIdx i c 0).val = (i 0).val) (hl1 : ∀ i c, (D.lhsIdx i c 1).val = (c ⟨0, by omega⟩).val)
    (hr0 : ∀ i c, (D.rhsIdx i c 0).val = (c ⟨0, by omega⟩).val) (hr1 : ∀ i c, (D.rhsIdx i c 1).val = (i 1).val)
    (prec : Option ContractPrecision) {l : FVec Ideal ⟨2, ![m, n]⟩ φ₁} {r : FVec Ideal ⟨2, ![n, q]⟩ φ₂}
    {a : Fin m} {c : Fin q} {L R : Fin n → EReal}
    (hL : ∀ k, l (ix2 a k) = L k) (hR : ∀ k, r (ix2 k c) = R k) :
    matmul D prec l r (constant ⟨2, ![m, q]⟩ .f32 0x00000000#32) (ix2 a c) = ∑ k : Fin n, L k * R k := by
  refine (Ideal.matmul_constant_zero_apply D prec l r (ix2 a c)).trans ?_
  rw [← Equiv.sum_comp (contrEquiv1 D n hr hs).symm]
  refine Finset.sum_congr rfl fun k _ => ?_
  have hk := contrEquiv1_symm_val D n hr hs k
  have el : D.lhsIdx (ix2 a c) ((contrEquiv1 D n hr hs).symm k) = ix2 a k := funext fun x => Fin.ext (by
    match x with
    | ⟨0, _⟩ => exact hl0 _ _
    | ⟨1, _⟩ => exact (hl1 _ _).trans hk)
  have er : D.rhsIdx (ix2 a c) ((contrEquiv1 D n hr hs).symm k) = ix2 k c := funext fun x => Fin.ext (by
    match x with
    | ⟨0, _⟩ => exact (hr0 _ _).trans hk
    | ⟨1, _⟩ => exact hr1 _ _)
  rw [el, er, hL, hR]

/-! ## Sums along one axis -/

/-- The sum over the middle axis of a rank-3 vector, at (p, k), is the sum over o of the vector at (p, o, k). -/
theorem sum_mid_at {a b c : ℕ} {src : FVec Ideal ⟨3, ![a, b, c]⟩ .f32} {acc : BitVec 32}
    {h : (⟨3, ![a, b, c]⟩ : Shape).Reduces [1] ⟨2, ![a, c]⟩} {hφ : FKind.Formats .f32}
    {hacc : acc = FKind.add.neutral .f32 hφ} {p : Fin a} {k : Fin c} {f : Fin b → EReal}
    (hf : ∀ o, src (ix3 p o k) = f o) :
    multiReduction .add [1] ⟨2, ![a, c]⟩ src acc h hφ hacc (ix2 p k) = ∑ o : Fin b, f o := by
  refine (Ideal.multiReduction_add_single src acc h hφ hacc (ix2 p k)).trans ?_
  refine Finset.sum_congr rfl fun o _ => (congrArg src ?_).trans (hf o)
  funext x
  match x with
  | ⟨0, _⟩ => rfl
  | ⟨1, _⟩ => rfl
  | ⟨2, _⟩ => rfl

/-- The sum over the last axis of a rank-2 vector, at p, is the sum over k of the vector at (p, k). -/
theorem sum_last_at {a c : ℕ} {src : FVec Ideal ⟨2, ![a, c]⟩ .f32} {acc : BitVec 32}
    {h : (⟨2, ![a, c]⟩ : Shape).Reduces [1] ⟨1, ![a]⟩} {hφ : FKind.Formats .f32}
    {hacc : acc = FKind.add.neutral .f32 hφ} {p : Fin a} {f : Fin c → EReal}
    (hf : ∀ k, src (ix2 p k) = f k) :
    multiReduction .add [1] ⟨1, ![a]⟩ src acc h hφ hacc (ix1 p) = ∑ k : Fin c, f k := by
  refine (Ideal.multiReduction_add_single src acc h hφ hacc (ix1 p)).trans ?_
  refine Finset.sum_congr rfl fun k _ => (congrArg src ?_).trans (hf k)
  funext x
  match x with
  | ⟨0, _⟩ => rfl
  | ⟨1, _⟩ => rfl

/-! ## Layout operations -/

variable {α : Type}

/-- Row p·b + o of the [n, c] view (n = a·b) of an [a, b, c] vector is its row (p, o). -/
theorem shapeCast_merge_at {a b c n : ℕ} (v : (⟨3, ![a, b, c]⟩ : Shape).Idx → α)
    (h : (⟨3, ![a, b, c]⟩ : Shape).ShapeCasts ⟨2, ![n, c]⟩) (p : Fin a) (o : Fin b) (d : Fin c) (r : Fin n)
    (hr : r.val = p.val * b + o.val) : shapeCast ⟨2, ![n, c]⟩ v h (ix2 r d) = v (ix3 p o d) := by
  refine shapeCast_apply v h (ix2 r d) (ix3 p o d) ?_
  rw [Shape.rowMajor_val_two, Shape.rowMajor_val_three]
  show (p.val * b + o.val) * c + d.val = r.val * c + d.val
  rw [hr]

/-- Row (p, o) of the [a, b, c] view of an [n, c] vector (n = a·b) is its row p·b + o. -/
theorem shapeCast_split_at {a b c n : ℕ} (v : (⟨2, ![n, c]⟩ : Shape).Idx → α)
    (h : (⟨2, ![n, c]⟩ : Shape).ShapeCasts ⟨3, ![a, b, c]⟩) (p : Fin a) (o : Fin b) (d : Fin c) (r : Fin n)
    (hr : r.val = p.val * b + o.val) : shapeCast ⟨3, ![a, b, c]⟩ v h (ix3 p o d) = v (ix2 r d) := by
  refine shapeCast_apply v h (ix3 p o d) (ix2 r d) ?_
  rw [Shape.rowMajor_val_two, Shape.rowMajor_val_three]
  show r.val * c + d.val = (p.val * b + o.val) * c + d.val
  rw [hr]

/-- An [a] vector viewed as a column [a, 1] reads its entry p at (p, 0). -/
theorem shapeCast_col_at {a : ℕ} (v : (⟨1, ![a]⟩ : Shape).Idx → α)
    (h : (⟨1, ![a]⟩ : Shape).ShapeCasts ⟨2, ![a, 1]⟩) (p : Fin a) (z : Fin 1) :
    shapeCast ⟨2, ![a, 1]⟩ v h (ix2 p z) = v (ix1 p) := by
  refine shapeCast_apply v h (ix2 p z) (ix1 p) ?_
  rw [Shape.rowMajor_val_two, Shape.rowMajor_val_one]
  show p.val = p.val * 1 + z.val
  have := z.isLt; omega

/-- An [a, c] vector viewed as [a, 1, c] reads (p, j) at (p, 0, j). -/
theorem shapeCast_mid_at {a c : ℕ} (v : (⟨2, ![a, c]⟩ : Shape).Idx → α)
    (h : (⟨2, ![a, c]⟩ : Shape).ShapeCasts ⟨3, ![a, 1, c]⟩) (p : Fin a) (z : Fin 1) (j : Fin c) :
    shapeCast ⟨3, ![a, 1, c]⟩ v h (ix3 p z j) = v (ix2 p j) := by
  refine shapeCast_apply v h (ix3 p z j) (ix2 p j) ?_
  rw [Shape.rowMajor_val_two, Shape.rowMajor_val_three]
  show p.val * c + j.val = (p.val * 1 + z.val) * c + j.val
  have := z.isLt
  have hz : z.val = 0 := by omega
  rw [hz, Nat.mul_one, Nat.add_zero]

/-- A column [a, 1] spread over b columns reads, at (p, k), the column's entry p. -/
theorem broadcastTo_col_at {a b : ℕ} (v : (⟨2, ![a, 1]⟩ : Shape).Idx → α)
    (h : (⟨2, ![a, 1]⟩ : Shape).Broadcasts ⟨2, ![a, b]⟩) (p : Fin a) (k : Fin b) :
    broadcastTo ⟨2, ![a, b]⟩ v h (ix2 p k) = v (ix2 p (0 : Fin 1)) := by
  refine broadcastTo_apply v h (ix2 p k) (ix2 p (0 : Fin 1)) fun ax => ?_
  match ax with
  | ⟨0, _⟩ =>
    show p.val = if a = 1 then 0 else p.val
    split
    · have := p.isLt; omega
    · rfl
  | ⟨1, _⟩ => rfl

/-- An [a, 1, c] vector spread over b copies of its middle axis reads, at (p, o, j), its entry (p, 0, j). -/
theorem broadcastTo_mid_at {a b c : ℕ} (v : (⟨3, ![a, 1, c]⟩ : Shape).Idx → α)
    (h : (⟨3, ![a, 1, c]⟩ : Shape).Broadcasts ⟨3, ![a, b, c]⟩) (p : Fin a) (o : Fin b) (j : Fin c) :
    broadcastTo ⟨3, ![a, b, c]⟩ v h (ix3 p o j) = v (ix3 p (0 : Fin 1) j) := by
  refine broadcastTo_apply v h (ix3 p o j) (ix3 p (0 : Fin 1) j) fun ax => ?_
  match ax with
  | ⟨0, _⟩ =>
    show p.val = if a = 1 then 0 else p.val
    split
    · have := p.isLt; omega
    · rfl
  | ⟨1, _⟩ => rfl
  | ⟨2, _⟩ =>
    show j.val = if c = 1 then 0 else j.val
    split
    · have := j.isLt; omega
    · rfl

end Cert.IdealAt

end
-- ==== Proof.PayIdeal.lean ====
/-
  What one grid point adds, read at an index on the extended reals.

  A grid point (I, J) holds rows I·1024 … I·1024 + 1023 of q, of the noise u and of the row factors, and rows
  J·1024 … J·1024 + 1023 of k and v (columns of u). Entry (p, s) of the tile's score matrix is the specification's
  scaled, masked score of row I·1024 + p against row J·1024 + s: the matrix product into the zero accumulator
  contracts the second axis of both operands, the comparison bit widened and converted is the mask, and the named
  constant is 8388608 / 7549747. The first kernel adds to its one-entry accumulator the sum, over the whole tile, of
  the floored products with the row factor; the second adds to entry (p, d) of its accumulator the tile's
  row-by-column sum of the weighted scores against v, the weights dividing by the entry of the [1, 1] total it is
  handed. A change of float format is the identity on extended reals, so the narrowing before the second product
  disappears.
-/
import proofs.«173389_j39676907883922_1_alg».proof.Proof.Gen.KernelIdeal.Skeleton
import proofs.«173389_j39676907883922_1_alg».proof.Proof.Spec
import proofs.«173389_j39676907883922_1_alg».proof.Proof.TileSums
import proofs.«173389_j39676907883922_1_alg».proof.Proof.LibIdealAt
import Idealize.ShloMosaic.Lib.ValueLayout
import Idealize.ShloMosaic.PureOps.IdealRules

noncomputable section

open scoped BigOperators

namespace Cert.Attn

open Cert.KernelIdeal Cert.KernelIdeal.Gen Idealize.ShloMosaic Idealize.ShloMosaic.ValueIdx Cert.IdealAt

/-! ## Small readings -/

/-- The floor of a vector reads the floor of its entry. -/
theorem floor_at {s : Shape} {φ : FTy} {a : FVec Ideal s φ} {i : s.Idx} {A : EReal} (ha : a i = A) :
    floor a i = Ideal.liftRound Int.floor A := by subst ha; rfl

/-- The named constant is 8388608 / 7549747. -/
theorem inv_keep :
    Named.named (F := Ideal) Cert.KernelIdeal.κ "inv_keep" (φ := .f32) 0x3F8E38E4#32 = ((8388608 / 7549747 : ℝ) : EReal) :=
  IdealRules.named_const.ideal_named_scalar _ _ _ _ rfl

/-! ## The first product's dimension numbers: both operands contract their second axis -/

theorem scoreDims_l0 (i : S1024x1024.Idx) (c : dot_S1024x64_S1024x64_S1024x1024_1_1_0_0_n_n.contr.Idx) :
    (dot_S1024x64_S1024x64_S1024x1024_1_1_0_0_n_n.lhsIdx i c 0).val = (i 0).val := by
  unfold DotDims.lhsIdx
  rw [dif_neg (show ¬(0 : Fin S1024x64.rank) ∈ dot_S1024x64_S1024x64_S1024x1024_1_1_0_0_n_n.lhsBatch by decide),
    dif_pos (show (0 : Fin S1024x64.rank) ∈ dot_S1024x64_S1024x64_S1024x1024_1_1_0_0_n_n.lhsNonContracting by decide)]
  rfl
theorem scoreDims_l1 (i : S1024x1024.Idx) (c : dot_S1024x64_S1024x64_S1024x1024_1_1_0_0_n_n.contr.Idx) :
    (dot_S1024x64_S1024x64_S1024x1024_1_1_0_0_n_n.lhsIdx i c 1).val = (c ⟨0, by decide⟩).val :=
  dot_S1024x64_S1024x64_S1024x1024_1_1_0_0_n_n.lhsIdx_val_of_single rfl i c
theorem scoreDims_r0 (i : S1024x1024.Idx) (c : dot_S1024x64_S1024x64_S1024x1024_1_1_0_0_n_n.contr.Idx) :
    (dot_S1024x64_S1024x64_S1024x1024_1_1_0_0_n_n.rhsIdx i c 0).val = (i 1).val := by
  unfold DotDims.rhsIdx
  rw [dif_neg (show ¬(0 : Fin S1024x64.rank) ∈ dot_S1024x64_S1024x64_S1024x1024_1_1_0_0_n_n.rhsBatch by decide),
    dif_pos (show (0 : Fin S1024x64.rank) ∈ dot_S1024x64_S1024x64_S1024x1024_1_1_0_0_n_n.rhsNonContracting by decide)]
  rfl
theorem scoreDims_r1 (i : S1024x1024.Idx) (c : dot_S1024x64_S1024x64_S1024x1024_1_1_0_0_n_n.contr.Idx) :
    (dot_S1024x64_S1024x64_S1024x1024_1_1_0_0_n_n.rhsIdx i c 1).val = (c ⟨0, by decide⟩).val :=
  dot_S1024x64_S1024x64_S1024x1024_1_1_0_0_n_n.rhsIdx_val_of_single rfl i c

/-- The product that contracts the second axis of both operands, into the zero accumulator: entry (p, s) is row p of
    the left operand against row s of the right one. -/
theorem scores_tile_at {l r : FVec Ideal S1024x64 .f32} {p s : Fin 1024} {L R : Fin 64 → EReal}
    (hL : ∀ d, l (ix2 p d) = L d) (hR : ∀ d, r (ix2 s d) = R d) :
    matmul dot_S1024x64_S1024x64_S1024x1024_1_1_0_0_n_n (some .fp32) l r (constant S1024x1024 .f32 0x00000000#32) (ix2 p s) = ∑ d : Fin 64, L d * R d := by
  refine (Ideal.matmul_constant_zero_apply dot_S1024x64_S1024x64_S1024x1024_1_1_0_0_n_n (some .fp32) l r (ix2 p s)).trans ?_
  rw [← Equiv.sum_comp (contrEquiv1 dot_S1024x64_S1024x64_S1024x1024_1_1_0_0_n_n 64 rfl rfl).symm]
  refine Finset.sum_congr rfl fun d _ => ?_
  have hd := contrEquiv1_symm_val dot_S1024x64_S1024x64_S1024x1024_1_1_0_0_n_n 64 rfl rfl d
  have el : dot_S1024x64_S1024x64_S1024x1024_1_1_0_0_n_n.lhsIdx (ix2 p s) ((contrEquiv1 dot_S1024x64_S1024x64_S1024x1024_1_1_0_0_n_n 64 rfl rfl).symm d) = ix2 p d := funext fun x => Fin.ext (by
    match x with
    | ⟨0, _⟩ => exact scoreDims_l0 _ _
    | ⟨1, _⟩ => exact (scoreDims_l1 _ _).trans hd)
  have er : dot_S1024x64_S1024x64_S1024x1024_1_1_0_0_n_n.rhsIdx (ix2 p s) ((contrEquiv1 dot_S1024x64_S1024x64_S1024x1024_1_1_0_0_n_n 64 rfl rfl).symm d) = ix2 s d := funext fun x => Fin.ext (by
    match x with
    | ⟨0, _⟩ => exact scoreDims_r0 _ _
    | ⟨1, _⟩ => exact (scoreDims_r1 _ _).trans hd)
  rw [el, er, hL, hR]

/-! ## The second product's dimension numbers: rows against columns -/

theorem outDims_l0 (i : S1024x64.Idx) (c : dot_S1024x1024_S1024x64_S1024x64_1_0_0_1_n_n.contr.Idx) :
    (dot_S1024x1024_S1024x64_S1024x64_1_0_0_1_n_n.lhsIdx i c 0).val = (i 0).val := by
  unfold DotDims.lhsIdx
  rw [dif_neg (show ¬(0 : Fin S1024x1024.rank) ∈ dot_S1024x1024_S1024x64_S1024x64_1_0_0_1_n_n.lhsBatch by decide),
    dif_pos (show (0 : Fin S1024x1024.rank) ∈ dot_S1024x1024_S1024x64_S1024x64_1_0_0_1_n_n.lhsNonContracting by decide)]
  rfl
theorem outDims_l1 (i : S1024x64.Idx) (c : dot_S1024x1024_S1024x64_S1024x64_1_0_0_1_n_n.contr.Idx) :
    (dot_S1024x1024_S1024x64_S1024x64_1_0_0_1_n_n.lhsIdx i c 1).val = (c ⟨0, by decide⟩).val :=
  dot_S1024x1024_S1024x64_S1024x64_1_0_0_1_n_n.lhsIdx_val_of_single rfl i c
theorem outDims_r0 (i : S1024x64.Idx) (c : dot_S1024x1024_S1024x64_S1024x64_1_0_0_1_n_n.contr.Idx) :
    (dot_S1024x1024_S1024x64_S1024x64_1_0_0_1_n_n.rhsIdx i c 0).val = (c ⟨0, by decide⟩).val :=
  dot_S1024x1024_S1024x64_S1024x64_1_0_0_1_n_n.rhsIdx_val_of_single rfl i c
theorem outDims_r1 (i : S1024x64.Idx) (c : dot_S1024x1024_S1024x64_S1024x64_1_0_0_1_n_n.contr.Idx) :
    (dot_S1024x1024_S1024x64_S1024x64_1_0_0_1_n_n.rhsIdx i c 1).val = (i 1).val := by
  unfold DotDims.rhsIdx
  rw [dif_neg (show ¬(1 : Fin S1024x64.rank) ∈ dot_S1024x1024_S1024x64_S1024x64_1_0_0_1_n_n.rhsBatch by decide),
    dif_pos (show (1 : Fin S1024x64.rank) ∈ dot_S1024x1024_S1024x64_S1024x64_1_0_0_1_n_n.rhsNonContracting by decide)]
  rfl

/-! ## A tile of the whole arrays -/

section Tile

variable {q k v : (⟨2, ![4096, 64]⟩ : Shape).Idx → EReal} {u : (⟨2, ![4096, 4096]⟩ : Shape).Idx → EReal}
  {row : (⟨2, ![4096, 1]⟩ : Shape).Idx → EReal} {I J : Fin 4}
  {xq xk xv : FVec Ideal S1024x64 .f32} {xu : FVec Ideal S1024x1024 .f32} {xrow : FVec Ideal S1024x1 .f32}

/-- Entry (p, s) of the tile's scaled, masked scores is the specification's score of row I·1024 + p against row
    J·1024 + s. -/
theorem tval_tile_at (hq : ∀ (p : Fin 1024) (d : Fin 64), xq (ix2 p d) = q (ix2 (tile I p) d))
    (hk : ∀ (s : Fin 1024) (d : Fin 64), xk (ix2 s d) = k (ix2 (tile J s) d))
    (hu : ∀ (p s : Fin 1024), xu (ix2 p s) = u (ix2 (tile I p) (tile J s))) (p s : Fin 1024) :
    mulf (mulf (matmul dot_S1024x64_S1024x64_S1024x1024_1_1_0_0_n_n (some .fp32) xq xk (constant S1024x1024 .f32 0x00000000#32))
        (broadcast S1024x1024 (Scalar.ofBits (F := Ideal) .f32 0x41000000#32)))
      (mulf (sitofp .f32 (extui 32 (cmpf .oge xu (broadcast S1024x1024 (Scalar.ofBits (F := Ideal) .f32 0x3DCCCCCD#32))) natLt_1_32))
        (broadcast S1024x1024 (Named.named (F := Ideal) Cert.KernelIdeal.κ "inv_keep" (φ := .f32) 0x3F8E38E4#32))) (ix2 p s)
      = tval q k u (tile I p) (tile J s) := by
  have hmask : (sitofp .f32 (extui 32 (cmpf .oge xu (broadcast S1024x1024 (Scalar.ofBits (F := Ideal) .f32 0x3DCCCCCD#32))) natLt_1_32)
      : FVec Ideal S1024x1024 .f32) (ix2 p s) = maskv (u (ix2 (tile I p) (tile J s))) := by
    show FloatOps.sitofp (F := Ideal) .f32
      ((FloatOps.cmpf (F := Ideal) (φ := .f32) .oge (xu (ix2 p s)) (Ideal.ofBits .f32 0x3DCCCCCD#32)).setWidth 32) = _
    rw [hu]
    exact mask_of_sitofp _
  have hc : broadcast S1024x1024 (Named.named (F := Ideal) Cert.KernelIdeal.κ "inv_keep" (φ := .f32) 0x3F8E38E4#32) (ix2 p s)
      = ((8388608 / 7549747 : ℝ) : EReal) := inv_keep
  exact mulf_at (mulf_at (scores_tile_at (hq p) (hk s)) (splat_at _ _)) (mulf_at hmask hc)

/-- The row factors spread over the tile's columns read the factor of row I·1024 + p. -/
theorem row_tile_at (hrow : ∀ p : Fin 1024, xrow (ix2 p (0 : Fin 1)) = row (ix2 (tile I p) (0 : Fin 1))) (p s : Fin 1024) :
    broadcastTo S1024x1024 xrow broadcasts_S1024x1_S1024x1024 (ix2 p s) = row (ix2 (tile I p) (0 : Fin 1)) :=
  (broadcastTo_col_at xrow broadcasts_S1024x1_S1024x1024 p s).trans (hrow p)

end Tile

/-! ## The sum of a whole tile -/

/-- A rank-2 vector viewed with a leading unit axis has the same total: the double sum of its entries. -/
theorem sum_shapeCast_addUnit {a b : ℕ} (w : (⟨2, ![a, b]⟩ : Shape).Idx → EReal)
    (h : (⟨2, ![a, b]⟩ : Shape).ShapeCasts ⟨3, ![1, a, b]⟩) :
    ∑ i : (⟨3, ![1, a, b]⟩ : Shape).Idx, shapeCast ⟨3, ![1, a, b]⟩ w h i = ∑ p : Fin a, ∑ s : Fin b, w (ix2 p s) := by
  refine (Equiv.sum_comp (Shape.reshapeEquiv h) w).trans ?_
  exact sum_idx2 w

/-- The sum of a [1, 1024, 1024] vector over its two tile axes, at its one index, is the sum of all its entries. -/
theorem total_reduce (src : FVec Ideal S1x1024x1024 .f32) :
    multiReduction .add [1, 2] S1 src 0x00000000#32 reduces_S1x1024x1024_S1 (.inl rfl) rfl (ix1 (0 : Fin 1))
      = ∑ i : S1x1024x1024.Idx, src i :=
  Ideal.multiReduction_add_total src _ reduces_S1x1024x1024_S1 (fun b => by
    match b with
    | ⟨0, _⟩ => rfl) _ _ (ix1 (0 : Fin 1))

/-- A one-entry vector viewed as [1, 1, 1], its entry taken and spread over [1, 1], reads that entry. -/
theorem one_entry (x : FVec Ideal S1 .f32) (i : S1x1.Idx) :
    broadcast S1x1 (extractAt ![0, 0, 0] (shapeCast S1x1x1 x shapeCasts_S1_S1x1x1) inpos_S1x1x1_p0_0_0) i
      = x (ix1 (0 : Fin 1)) := by
  refine shapeCast_apply (s := S1) (t := S1x1x1) x shapeCasts_S1_S1x1x1
    (fun a => ⟨(![0, 0, 0] : Fin 3 → Nat) a, inpos_S1x1x1_p0_0_0 a⟩) (ix1 (0 : Fin 1)) ?_
  rw [Shape.rowMajor_val_one, Shape.rowMajor_val_three]; rfl

/-- A [1024, 1024] vector viewed as [1, 1024, 1024], summed over its two tile axes, viewed as [1, 1, 1], its one
    entry taken and spread over [1, 1]: the double sum of the vector's entries. -/
theorem tile_total_at (w : FVec Ideal S1024x1024 .f32) (f : Fin 1024 → Fin 1024 → EReal)
    (hw : ∀ p s, w (ix2 p s) = f p s) (i : S1x1.Idx) :
    broadcast S1x1 (extractAt ![0, 0, 0] (shapeCast S1x1x1 (multiReduction .add [1, 2] S1
      (shapeCast S1x1024x1024 w shapeCasts_S1024x1024_S1x1024x1024) 0x00000000#32 reduces_S1x1024x1024_S1 (.inl rfl) rfl)
      shapeCasts_S1_S1x1x1) inpos_S1x1x1_p0_0_0) i = ∑ p : Fin 1024, ∑ s : Fin 1024, f p s := by
  refine (one_entry _ i).trans ?_
  refine (total_reduce _).trans ?_
  refine (sum_shapeCast_addUnit w shapeCasts_S1024x1024_S1x1024x1024).trans ?_
  exact Finset.sum_congr rfl fun p _ => Finset.sum_congr rfl fun s _ => hw p s

/-! ## The payloads -/

section Payloads

variable {q k v : (⟨2, ![4096, 64]⟩ : Shape).Idx → EReal} {u : (⟨2, ![4096, 4096]⟩ : Shape).Idx → EReal}
  {row : (⟨2, ![4096, 1]⟩ : Shape).Idx → EReal} {I J : Fin 4}
  {xq xk xv : FVec Ideal S1024x64 .f32} {xu : FVec Ideal S1024x1024 .f32} {xrow : FVec Ideal S1024x1 .f32}
  {acc0 xs : FVec Ideal S1x1 .f32} {acc1 : FVec Ideal S1024x64 .f32}

/-- The first kernel's initial accumulator is zero. -/
theorem pay0_zero : k0_pay1 (F := Ideal) (ix2 (0 : Fin 1) (0 : Fin 1)) = 0 := by
  show Ideal.ofBits .f32 0x00000000#32 = 0
  exact Ideal.ofBits_zero_f32

/-- The first kernel at grid point (I, J) adds to its accumulator the tile's sum of floored entries. -/
theorem pay0_at (hq : ∀ (p : Fin 1024) (d : Fin 64), xq (ix2 p d) = q (ix2 (tile I p) d))
    (hk : ∀ (s : Fin 1024) (d : Fin 64), xk (ix2 s d) = k (ix2 (tile J s) d))
    (hu : ∀ (p s : Fin 1024), xu (ix2 p s) = u (ix2 (tile I p) (tile J s)))
    (hrow : ∀ p : Fin 1024, xrow (ix2 p (0 : Fin 1)) = row (ix2 (tile I p) (0 : Fin 1))) :
    k0_pay2 (F := Ideal) xq xk xu xrow acc0 (ix2 (0 : Fin 1) (0 : Fin 1))
      = acc0 (ix2 (0 : Fin 1) (0 : Fin 1))
        + ∑ p : Fin 1024, ∑ s : Fin 1024, rval q k u row (tile I p) (tile J s) := by
  unfold k0_pay2
  refine addf_at (congrFun (shapeCast_self acc0 shapeCasts_S1x1_S1x1) _) ?_
  refine tile_total_at _ _ (fun p s => ?_) _
  exact floor_at (mulf_at (tval_tile_at hq hk hu p s) (row_tile_at hrow p s))

/-- The second kernel's initial accumulator is zero. -/
theorem pay1_zero (y : S1024x64.Idx) : k1_pay1 (F := Ideal) y = 0 := by
  show Ideal.ofBits .f32 0x00000000#32 = 0
  exact Ideal.ofBits_zero_f32

/-- The second kernel at grid point (I, J) adds to entry (p, d) of its accumulator the tile's row-by-column sum of
    the weighted scores against v, the weights dividing by the total it is handed. -/
theorem pay1_at (hq : ∀ (p : Fin 1024) (d : Fin 64), xq (ix2 p d) = q (ix2 (tile I p) d))
    (hk : ∀ (s : Fin 1024) (d : Fin 64), xk (ix2 s d) = k (ix2 (tile J s) d))
    (hu : ∀ (p s : Fin 1024), xu (ix2 p s) = u (ix2 (tile I p) (tile J s)))
    (hrow : ∀ p : Fin 1024, xrow (ix2 p (0 : Fin 1)) = row (ix2 (tile I p) (0 : Fin 1)))
    (hv : ∀ (s : Fin 1024) (d : Fin 64), xv (ix2 s d) = v (ix2 (tile J s) d)) (p : Fin 1024) (d : Fin 64) :
    k1_pay2 (F := Ideal) xq xk xu xrow xs acc1 xv (ix2 p d)
      = acc1 (ix2 p d)
        + ∑ s : Fin 1024, (tval q k u (tile I p) (tile J s)
            * Ideal.div (rval q k u row (tile I p) (tile J s)) (xs (ix2 (0 : Fin 1) (0 : Fin 1))))
          * v (ix2 (tile J s) d) := by
  unfold k1_pay2
  refine (congrFun (shapeCast_self _ shapeCasts_S1024x64_S1024x64) _).trans ?_
  refine addf_at rfl ?_
  refine matmul_at dot_S1024x1024_S1024x64_S1024x64_1_0_0_1_n_n rfl rfl outDims_l0 outDims_l1 outDims_r0 outDims_r1 none
    (L := fun s => tval q k u (tile I p) (tile J s)
      * Ideal.div (rval q k u row (tile I p) (tile J s)) (xs (ix2 (0 : Fin 1) (0 : Fin 1))))
    (R := fun s => v (ix2 (tile J s) d)) (fun s => ?_) (fun s => truncf_at (hv s d))
  have hs : broadcast S1024x1024 (extractAt ![0, 0] xs inpos_S1x1_p0_0) (ix2 p s) = xs (ix2 (0 : Fin 1) (0 : Fin 1)) :=
    congrArg xs (funext fun a => by
      match a with
      | ⟨0, _⟩ => rfl
      | ⟨1, _⟩ => rfl)
  exact truncf_at (mulf_at (tval_tile_at hq hk hu p s)
    (divf_at (floor_at (mulf_at (tval_tile_at hq hk hu p s) (row_tile_at hrow p s))) hs))

end Payloads

end Cert.Attn

end
-- ==== Proof.KI.Glue0.lean ====
/- The first region's result is the sum of the floor mask over the whole 4096 x 4096 matrix. The accumulator after
   grid point t = 4 I + J is what it held before plus the double sum over tile (I, J), and it starts from the zero
   the first point stores; sixteen such steps over the sixteen tiles make the whole double sum. -/
import proofs.«173389_j39676907883922_1_alg».proof.Proof.KI.R0Value
import proofs.«173389_j39676907883922_1_alg».proof.Proof.KI.Blocks0
import proofs.«173389_j39676907883922_1_alg».proof.Proof.PayIdeal
import proofs.«173389_j39676907883922_1_alg».proof.Proof.TileSums

set_option maxRecDepth 16384

noncomputable section

namespace Cert.KernelIdeal.Frame0

open Cert.KernelIdeal Cert.KernelIdeal.Gen
open Idealize.ShloMosaic Idealize.ShloMosaic.TcCoe Idealize.SL.Sem
open Idealize.ShloMosaic.ValueIdx Cert.Attn
open scoped BigOperators

variable (V : (c : Dev nD) → (b : Ref sig .tc) → Buf (Elt Ideal) ((c : Thread nD τ).loc b))

/-- The accumulator's one entry before step n of the sixteen: zero before the first, then the chain's entry. -/
def accAt0 (c : Dev nD) : ℕ → EReal
  | 0 => 0
  | n + 1 => if h : n < cfg0.N then chain0 V c n h (ix2 (0 : Fin 1) (0 : Fin 1)) else 0

/-- One step: at point 4 I + J the accumulator gains the double sum of the floor mask over tile (I, J). -/
theorem accAt0_step (c : Dev nD) (I J : Fin 4) :
    accAt0 V c (I.val * 4 + J.val + 1) = accAt0 V c (I.val * 4 + J.val)
      + ∑ p : Fin 1024, ∑ s : Fin 1024,
          rval (V c main_arg0) (V c main_arg1) (V c main_arg3) (V c main_arg4) (tile I p) (tile J s) := by
  have hN : cfg0.N = 16 := N_0
  have hlt : I.val * 4 + J.val < cfg0.N := by omega
  show (if h : I.val * 4 + J.val < cfg0.N then chain0 V c (I.val * 4 + J.val) h (ix2 (0 : Fin 1) (0 : Fin 1)) else 0) = _
  rw [dif_pos hlt]
  generalize hn : I.val * 4 + J.val = n at hlt ⊢
  cases n with
  | zero =>
    show k0_pay2 (F := Ideal) _ _ _ _ (k0_pay1 (F := Ideal)) (ix2 (0 : Fin 1) (0 : Fin 1)) = (0 : EReal) + _
    rw [pay0_at (I := I) (J := J) (iblk0_0_at V c ⟨0, hlt⟩ I J hn.symm) (iblk0_1_at V c ⟨0, hlt⟩ I J hn.symm)
      (iblk0_2_at V c ⟨0, hlt⟩ I J hn.symm) (fun p => iblk0_3_at V c ⟨0, hlt⟩ I J hn.symm p 0), pay0_zero]
  | succ n =>
    show k0_pay2 (F := Ideal) _ _ _ _ (chain0 V c n _) (ix2 (0 : Fin 1) (0 : Fin 1)) = (if h : n < cfg0.N then chain0 V c n h (ix2 (0 : Fin 1) (0 : Fin 1)) else 0) + _
    rw [dif_pos (Nat.lt_of_succ_lt hlt)]
    exact pay0_at (I := I) (J := J) (iblk0_0_at V c ⟨n + 1, hlt⟩ I J hn.symm) (iblk0_1_at V c ⟨n + 1, hlt⟩ I J hn.symm)
      (iblk0_2_at V c ⟨n + 1, hlt⟩ I J hn.symm) (fun p => iblk0_3_at V c ⟨n + 1, hlt⟩ I J hn.symm p 0)

/-- The first region's result array holds, at its one entry, the sum of the floor mask over the whole matrix. -/
theorem result0_eq (c : Dev nD) :
    result0 V c (ix2 (0 : Fin 1) (0 : Fin 1)) = sumr (V c main_arg0) (V c main_arg1) (V c main_arg3) (V c main_arg4) := by
  have h := acc_sixteen_tiles (fun i j => rval (V c main_arg0) (V c main_arg1) (V c main_arg3) (V c main_arg4) i j)
    (accAt0 V c) rfl (accAt0_step V c)
  have hN : cfg0.N = 16 := N_0
  have e : accAt0 V c 16 = result0 V c (ix2 (0 : Fin 1) (0 : Fin 1)) := by
    show (if h : 15 < cfg0.N then chain0 V c 15 h (ix2 (0 : Fin 1) (0 : Fin 1)) else 0) = _
    rw [dif_pos (by omega)]
  rw [← e, h]; rfl

end Cert.KernelIdeal.Frame0

end
-- ==== Proof.KI.R1Value.lean ====
import proofs.«173389_j39676907883922_1_alg».proof.Proof.KI.R1Frame
import Idealize.ShloMosaic.Lib.Pipeline.Value

-- membership of an index in a rectangle of these extents is checked structurally, one step per coordinate
set_option maxRecDepth 16384

noncomputable section

namespace Cert.KernelIdeal.Frame1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! # The second kernel region: the accumulator and the output block as values

The pieces the three runs found, read back: at a first column tile the accumulator ends at one accumulation step over
the zero block, at a later column tile at one step over what the point before left, and at a last column tile the
output window's buffer ends holding the accumulator. No separation logic in the statements. -/

theorem hz : (![0, 0] : Fin 2 → Nat) = fun _ => 0 := funext fun a => by fin_cases a <;> rfl

/-- What case A leaves in the accumulator: the body's accumulation step on the point's blocks, over the zero block the reset stored. -/
theorem sout_A (c : Dev nD) (i : grid1.Coords) (arg2 : Memref sig .tc .vmem S1024x64 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1x1 .f32) (harg7 : arg7.IsWhole) (arg8 : Memref sig .tc .vmem S1024x64 .f32) (harg8 : arg8.IsWhole) (arg9 : Memref sig .tc .vmem S1024x64 .f32) (harg9 : arg9.IsWhole) (hc0 : cond1_0 i) (hc1 : ¬cond1_1 i)
    (x0 : Vec F S1024x64 .f32) (x1 : Vec F S1024x64 .f32) (x2 : Vec F S1024x64 .f32) (x3 : Vec F S1024x1024 .f32) (x4 : Vec F S1024x1 .f32) (x5 : Vec F S1x1 .f32) :
    sout1_A_0 c i arg2 harg2 arg3 harg3 arg4 harg4 arg5 harg5 arg6 harg6 arg7 harg7 arg8 harg8 arg9 harg9 hc0 hc1 x0 x1 x2 x3 x4 x5 = k1_pay2 x0 x1 x3 x4 x5 (k1_pay1 (F := F)) x2 := by
  unfold sout1_A_0
  rw [View.read_writes_eq_canon _ _ _ (scover1_A_0 c i arg2 harg2 arg3 harg3 arg4 harg4 arg5 harg5 arg6 harg6 arg7 harg7 arg8 harg8 arg9 harg9 hc0 hc1 x0 x1 x2 x3 x4 x5)]
  unfold kernelRun1_A
  dsimp only
  sl_unfold_words
  rw [View.canon_cons_unit_zero (S := S1024x64) hz]
  rw [View.readCov_unit_zero (S := S1024x64) _ hz]
  simp only [View.readAt_eq_ld, harg2.read_unread, harg3.read_unread, harg4.read_unread, harg5.read_unread, harg6.read_unread, harg7.read_unread, View.ld_unit_zero (S := S1024x64) hz, View.ld_unit_zero (S := S1024x1024) hz, View.ld_unit_zero (S := S1024x1) hz, View.ld_unit_zero (S := S1x1) hz]

/-- What case B leaves in the accumulator: the body's accumulation step on the point's blocks, over what the accumulator held. -/
theorem sout_B (c : Dev nD) (i : grid1.Coords) (arg2 : Memref sig .tc .vmem S1024x64 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1x1 .f32) (harg7 : arg7.IsWhole) (arg8 : Memref sig .tc .vmem S1024x64 .f32) (harg8 : arg8.IsWhole) (arg9 : Memref sig .tc .vmem S1024x64 .f32) (harg9 : arg9.IsWhole) (hc0 : ¬cond1_0 i) (hc1 : ¬cond1_1 i)
    (x0 : Vec F S1024x64 .f32) (x1 : Vec F S1024x64 .f32) (x2 : Vec F S1024x64 .f32) (x3 : Vec F S1024x1024 .f32) (x4 : Vec F S1024x1 .f32) (x5 : Vec F S1x1 .f32) (xs0 : Vec F S1024x64 .f32) :
    sout1_B_0 c i arg2 harg2 arg3 harg3 arg4 harg4 arg5 harg5 arg6 harg6 arg7 harg7 arg8 harg8 arg9 harg9 hc0 hc1 x0 x1 x2 x3 x4 x5 xs0 = k1_pay2 x0 x1 x3 x4 x5 xs0 x2 := by
  unfold sout1_B_0
  rw [View.read_writes_eq_canon _ _ _ (scover1_B_0 c i arg2 harg2 arg3 harg3 arg4 harg4 arg5 harg5 arg6 harg6 arg7 harg7 arg8 harg8 arg9 harg9 hc0 hc1 x0 x1 x2 x3 x4 x5 xs0)]
  unfold kernelRun1_B
  dsimp only
  sl_unfold_words
  rw [View.canon_unit_zero (S := S1024x64) hz]
  simp only [View.readAt_eq_ld, harg2.read_unread, harg3.read_unread, harg4.read_unread, harg5.read_unread, harg6.read_unread, harg7.read_unread, harg9.read_unread, View.ld_unit_zero (S := S1024x64) hz, View.ld_unit_zero (S := S1024x1024) hz, View.ld_unit_zero (S := S1024x1) hz, View.ld_unit_zero (S := S1x1) hz]

/-- What case C leaves in the accumulator: the body's accumulation step on the point's blocks, over what the accumulator held. -/
theorem sout_C (c : Dev nD) (i : grid1.Coords) (arg2 : Memref sig .tc .vmem S1024x64 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1x1 .f32) (harg7 : arg7.IsWhole) (arg8 : Memref sig .tc .vmem S1024x64 .f32) (harg8 : arg8.IsWhole) (arg9 : Memref sig .tc .vmem S1024x64 .f32) (harg9 : arg9.IsWhole) (hc0 : ¬cond1_0 i) (hc1 : cond1_1 i)
    (x0 : Vec F S1024x64 .f32) (x1 : Vec F S1024x64 .f32) (x2 : Vec F S1024x64 .f32) (x3 : Vec F S1024x1024 .f32) (x4 : Vec F S1024x1 .f32) (x5 : Vec F S1x1 .f32) (xs0 : Vec F S1024x64 .f32) :
    sout1_C_0 c i arg2 harg2 arg3 harg3 arg4 harg4 arg5 harg5 arg6 harg6 arg7 harg7 arg8 harg8 arg9 harg9 hc0 hc1 x0 x1 x2 x3 x4 x5 xs0 = k1_pay2 x0 x1 x3 x4 x5 xs0 x2 := by
  unfold sout1_C_0
  rw [View.read_writes_eq_canon _ _ _ (scover1_C_0 c i arg2 harg2 arg3 harg3 arg4 harg4 arg5 harg5 arg6 harg6 arg7 harg7 arg8 harg8 arg9 harg9 hc0 hc1 x0 x1 x2 x3 x4 x5 xs0)]
  unfold kernelRun1_C
  dsimp only
  sl_unfold_words
  rw [View.canon_unit_zero (S := S1024x64) hz]
  simp only [View.readAt_eq_ld, harg2.read_unread, harg3.read_unread, harg4.read_unread, harg5.read_unread, harg6.read_unread, harg7.read_unread, harg9.read_unread, View.ld_unit_zero (S := S1024x64) hz, View.ld_unit_zero (S := S1024x1024) hz, View.ld_unit_zero (S := S1024x1) hz, View.ld_unit_zero (S := S1x1) hz]

/-- What case C leaves in the output window's buffer: the accumulator as the case leaves it (the copy reads it back
    after the step's store). -/
theorem out_C (c : Dev nD) (i : grid1.Coords) (arg2 : Memref sig .tc .vmem S1024x64 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1x1 .f32) (harg7 : arg7.IsWhole) (arg8 : Memref sig .tc .vmem S1024x64 .f32) (harg8 : arg8.IsWhole) (arg9 : Memref sig .tc .vmem S1024x64 .f32) (harg9 : arg9.IsWhole) (hc0 : ¬cond1_0 i) (hc1 : cond1_1 i)
    (x0 : Vec F S1024x64 .f32) (x1 : Vec F S1024x64 .f32) (x2 : Vec F S1024x64 .f32) (x3 : Vec F S1024x1024 .f32) (x4 : Vec F S1024x1 .f32) (x5 : Vec F S1x1 .f32) (xs0 : Vec F S1024x64 .f32) :
    out1_C_6 c i arg2 harg2 arg3 harg3 arg4 harg4 arg5 harg5 arg6 harg6 arg7 harg7 arg8 harg8 arg9 harg9 hc0 hc1 x0 x1 x2 x3 x4 x5 xs0 = k1_pay2 x0 x1 x3 x4 x5 xs0 x2 := by
  unfold out1_C_6
  rw [View.read_writes_eq_canon _ _ _ (cover1_C_6 c i arg2 harg2 arg3 harg3 arg4 harg4 arg5 harg5 arg6 harg6 arg7 harg7 arg8 harg8 arg9 harg9 hc0 hc1 x0 x1 x2 x3 x4 x5 xs0)]
  unfold kernelRun1_C
  dsimp only
  sl_unfold_words
  rw [View.canon_unit_zero (S := S1024x64) hz]
  rw [View.readCov_unit_zero (S := S1024x64) _ hz]
  simp only [View.readAt_eq_ld, harg2.read_unread, harg3.read_unread, harg4.read_unread, harg5.read_unread, harg6.read_unread, harg7.read_unread, harg9.read_unread, View.ld_unit_zero (S := S1024x64) hz, View.ld_unit_zero (S := S1024x1024) hz, View.ld_unit_zero (S := S1024x1) hz, View.ld_unit_zero (S := S1x1) hz]

section Region
variable (V : (c : Dev nD) → (b : Ref sig .tc) → Buf (Elt F) ((c : Thread nD τ).loc b))

/-- At a first column tile the accumulator ends at one step over the zero block. -/
theorem scratch1_first (c : Dev nD) (t : Fin cfg1.N) (h : t.val % 4 = 0) :
    (outsAt1 V c t.val t.isLt).2 = k1_pay2 (iblk1 V c 0 t) (iblk1 V c 1 t) (iblk1 V c 3 t) (iblk1 V c 4 t) (iblk1 V c 5 t) (k1_pay1 (F := F)) (iblk1 V c 2 t) := by
  rw [outsAt1_A V c t h (by omega)]
  dsimp only
  exact sout_A (F := F) ..

/-- At any other column tile it ends at one step over what the point before left. -/
theorem scratch1_next (c : Dev nD) (t : Fin cfg1.N) (h : ¬ t.val % 4 = 0) :
    (outsAt1 V c t.val t.isLt).2 = k1_pay2 (iblk1 V c 0 t) (iblk1 V c 1 t) (iblk1 V c 3 t) (iblk1 V c 4 t) (iblk1 V c 5 t) ((outsAt1 V c (t.val - 1) (by omega)).2) (iblk1 V c 2 t) := by
  by_cases h1 : t.val % 4 = 3
  · rw [outsAt1_C V c t h h1]
    dsimp only
    exact sout_C (F := F) ..
  · rw [outsAt1_B V c t h h1]
    dsimp only
    exact sout_B (F := F) ..

/-- At a last column tile the output window's buffer ends holding the accumulator. -/
theorem out1_last (c : Dev nD) (t : Fin cfg1.N) (h : t.val % 4 = 3) :
    (outsAt1 V c t.val t.isLt).1 = (outsAt1 V c t.val t.isLt).2 := by
  rw [outsAt1_C V c t (by omega) h]
  dsimp only
  exact (out_C (F := F) ..).trans (sout_C (F := F) ..).symm

end Region

end Cert.KernelIdeal.Frame1

end
-- ==== Proof.KI.Blocks1.lean ====
/- The second region's windows, read entry by entry: at grid point t = 4 I + J, entry (p, d) of a window's block is
   the entry of the window's array at the block's offset plus (p, d) — row tile I for the queries, the uniform
   draws' rows, the row factors and the output; row tile J for the keys, the values and the uniform draws' columns;
   the one-element sum is its own block at every point. -/
import proofs.«173389_j39676907883922_1_alg».proof.Proof.KI.R1Runs
import proofs.«173389_j39676907883922_1_alg».proof.Proof.TileSums
import Idealize.ShloMosaic.Lib.ValueIdx
import Idealize.ShloMosaic.Lib.Pipeline.Value

set_option maxRecDepth 16384

noncomputable section

namespace Cert.KernelIdeal.Frame1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

open Idealize.ShloMosaic.ValueIdx Cert.Attn

variable (V : (c : Dev nD) → (b : Ref sig .tc) → Buf (Elt F) ((c : Thread nD τ).loc b))

theorem iblk1_0_at (c : Dev nD) (t : Fin cfg1.N) (I J : Fin 4) (ht : t.val = I.val * 4 + J.val) (p : Fin 1024) (d : Fin 64) :
    (iblk1 V c 0 t : S1024x64.Idx → Elt F .f32) (ix2 p d) = V c main_arg0 (ix2 (tile I p) d) := by
  have hi : win1_0.index t 0 = t.val / 4 ∧ win1_0.index t 1 = 0 :=
    (by decide +kernel : ∀ t : Fin grid1.N, win1_0.index t 0 = t.val / 4 ∧ win1_0.index t 1 = 0) t
  have hI : t.val / 4 = I.val := by omega
  have hJ : t.val % 4 = J.val := by omega
  unfold iblk1
  rw [View.read_apply]
  show V c main_arg0 _ = V c main_arg0 _
  congr 1
  funext a
  apply Fin.ext
  match a with
  | ⟨0, _⟩ => show win1_0.index t 0 * 1024 + 1 * p.val = _; rw [hi.1]; simp only [ix2, tile_val, hI, hJ]; omega
  | ⟨1, _⟩ => show win1_0.index t 1 * 64 + 1 * d.val = _; rw [hi.2]; simp only [ix2, tile_val, hI, hJ]; omega

theorem iblk1_1_at (c : Dev nD) (t : Fin cfg1.N) (I J : Fin 4) (ht : t.val = I.val * 4 + J.val) (p : Fin 1024) (d : Fin 64) :
    (iblk1 V c 1 t : S1024x64.Idx → Elt F .f32) (ix2 p d) = V c main_arg1 (ix2 (tile J p) d) := by
  have hi : win1_1.index t 0 = t.val % 4 ∧ win1_1.index t 1 = 0 :=
    (by decide +kernel : ∀ t : Fin grid1.N, win1_1.index t 0 = t.val % 4 ∧ win1_1.index t 1 = 0) t
  have hI : t.val / 4 = I.val := by omega
  have hJ : t.val % 4 = J.val := by omega
  unfold iblk1
  rw [View.read_apply]
  show V c main_arg1 _ = V c main_arg1 _
  congr 1
  funext a
  apply Fin.ext
  match a with
  | ⟨0, _⟩ => show win1_1.index t 0 * 1024 + 1 * p.val = _; rw [hi.1]; simp only [ix2, tile_val, hI, hJ]; omega
  | ⟨1, _⟩ => show win1_1.index t 1 * 64 + 1 * d.val = _; rw [hi.2]; simp only [ix2, tile_val, hI, hJ]; omega

theorem iblk1_2_at (c : Dev nD) (t : Fin cfg1.N) (I J : Fin 4) (ht : t.val = I.val * 4 + J.val) (p : Fin 1024) (d : Fin 64) :
    (iblk1 V c 2 t : S1024x64.Idx → Elt F .f32) (ix2 p d) = V c main_arg2 (ix2 (tile J p) d) := by
  have hi : win1_2.index t 0 = t.val % 4 ∧ win1_2.index t 1 = 0 :=
    (by decide +kernel : ∀ t : Fin grid1.N, win1_2.index t 0 = t.val % 4 ∧ win1_2.index t 1 = 0) t
  have hI : t.val / 4 = I.val := by omega
  have hJ : t.val % 4 = J.val := by omega
  unfold iblk1
  rw [View.read_apply]
  show V c main_arg2 _ = V c main_arg2 _
  congr 1
  funext a
  apply Fin.ext
  match a with
  | ⟨0, _⟩ => show win1_2.index t 0 * 1024 + 1 * p.val = _; rw [hi.1]; simp only [ix2, tile_val, hI, hJ]; omega
  | ⟨1, _⟩ => show win1_2.index t 1 * 64 + 1 * d.val = _; rw [hi.2]; simp only [ix2, tile_val, hI, hJ]; omega

theorem iblk1_3_at (c : Dev nD) (t : Fin cfg1.N) (I J : Fin 4) (ht : t.val = I.val * 4 + J.val) (p : Fin 1024) (d : Fin 1024) :
    (iblk1 V c 3 t : S1024x1024.Idx → Elt F .f32) (ix2 p d) = V c main_arg3 (ix2 (tile I p) (tile J d)) := by
  have hi : win1_3.index t 0 = t.val / 4 ∧ win1_3.index t 1 = t.val % 4 :=
    (by decide +kernel : ∀ t : Fin grid1.N, win1_3.index t 0 = t.val / 4 ∧ win1_3.index t 1 = t.val % 4) t
  have hI : t.val / 4 = I.val := by omega
  have hJ : t.val % 4 = J.val := by omega
  unfold iblk1
  rw [View.read_apply]
  show V c main_arg3 _ = V c main_arg3 _
  congr 1
  funext a
  apply Fin.ext
  match a with
  | ⟨0, _⟩ => show win1_3.index t 0 * 1024 + 1 * p.val = _; rw [hi.1]; simp only [ix2, tile_val, hI, hJ]; omega
  | ⟨1, _⟩ => show win1_3.index t 1 * 1024 + 1 * d.val = _; rw [hi.2]; simp only [ix2, tile_val, hI, hJ]; omega

theorem iblk1_4_at (c : Dev nD) (t : Fin cfg1.N) (I J : Fin 4) (ht : t.val = I.val * 4 + J.val) (p : Fin 1024) (d : Fin 1) :
    (iblk1 V c 4 t : S1024x1.Idx → Elt F .f32) (ix2 p d) = V c main_arg4 (ix2 (tile I p) d) := by
  have hi : win1_4.index t 0 = t.val / 4 ∧ win1_4.index t 1 = 0 :=
    (by decide +kernel : ∀ t : Fin grid1.N, win1_4.index t 0 = t.val / 4 ∧ win1_4.index t 1 = 0) t
  have hI : t.val / 4 = I.val := by omega
  have hJ : t.val % 4 = J.val := by omega
  unfold iblk1
  rw [View.read_apply]
  show V c main_arg4 _ = V c main_arg4 _
  congr 1
  funext a
  apply Fin.ext
  match a with
  | ⟨0, _⟩ => show win1_4.index t 0 * 1024 + 1 * p.val = _; rw [hi.1]; simp only [ix2, tile_val, hI, hJ]; omega
  | ⟨1, _⟩ => show win1_4.index t 1 * 1 + 1 * d.val = _; rw [hi.2]; simp only [ix2, tile_val, hI, hJ]; omega

theorem iblk1_5_at (c : Dev nD) (t : Fin cfg1.N) (I J : Fin 4) (ht : t.val = I.val * 4 + J.val) (p : Fin 1) (d : Fin 1) :
    (iblk1 V c 5 t : S1x1.Idx → Elt F .f32) (ix2 p d) = V c main_v0 (ix2 p d) := by
  have hi : win1_5.index t 0 = 0 ∧ win1_5.index t 1 = 0 :=
    (by decide +kernel : ∀ t : Fin grid1.N, win1_5.index t 0 = 0 ∧ win1_5.index t 1 = 0) t
  have hI : t.val / 4 = I.val := by omega
  have hJ : t.val % 4 = J.val := by omega
  unfold iblk1
  rw [View.read_apply]
  show V c main_v0 _ = V c main_v0 _
  congr 1
  funext a
  apply Fin.ext
  match a with
  | ⟨0, _⟩ => show win1_5.index t 0 * 1 + 1 * p.val = _; rw [hi.1]; simp only [ix2, tile_val, hI, hJ]; omega
  | ⟨1, _⟩ => show win1_5.index t 1 * 1 + 1 * d.val = _; rw [hi.2]; simp only [ix2, tile_val, hI, hJ]; omega

end Cert.KernelIdeal.Frame1

end
-- ==== Proof.KI.Glue1.lean ====
/- The second region's result, entry by entry. Fix a row tile I and an entry (p, d) of its output block. Along the
   four grid points 4 I + J the scratch's entry (p, d) starts from the zero stored at J = 0 and gains, at column
   tile J, the sum over that tile's 1024 keys of (score · (floor entry / total)) · value; four such steps make the sum
   over all 4096 keys. The last of the four points copies the scratch to the output block, which is written back as
   rows 1024 I … 1024 I + 1023 of the result; the four row tiles cover the result. -/
import proofs.«173389_j39676907883922_1_alg».proof.Proof.KI.R1Value
import proofs.«173389_j39676907883922_1_alg».proof.Proof.KI.Blocks1
import proofs.«173389_j39676907883922_1_alg».proof.Proof.PayIdeal
import proofs.«173389_j39676907883922_1_alg».proof.Proof.TileSums
import Idealize.ShloMosaic.Lib.Pipeline.Value

set_option maxRecDepth 16384

noncomputable section

namespace Cert.KernelIdeal.Frame1

open Cert.KernelIdeal Cert.KernelIdeal.Gen
open Idealize.ShloMosaic Idealize.ShloMosaic.TcCoe Idealize.SL.Sem
open Idealize.ShloMosaic.Pipeline (Dat)
open Idealize.ShloMosaic.ValueIdx Cert.Attn
open scoped BigOperators

variable (V : (c : Dev nD) → (b : Ref sig .tc) → Buf (Elt Ideal) ((c : Thread nD τ).loc b))

/-- The total the region divides by: the one entry of the sum array as the region finds it. -/
abbrev totalOf (c : Dev nD) : EReal := (V c main_v0 : S1x1.Idx → EReal) (ix2 (0 : Fin 1) (0 : Fin 1))

/-- One key's contribution to entry (i, d) of the result. -/
def term1 (c : Dev nD) (i : Fin 4096) (d : Fin 64) (j : Fin 4096) : EReal :=
  (tval (V c main_arg0) (V c main_arg1) (V c main_arg3) i j
      * Ideal.div (rval (V c main_arg0) (V c main_arg1) (V c main_arg3) (V c main_arg4) i j) (totalOf V c))
    * (V c main_arg2 : S4096x64.Idx → EReal) (ix2 j d)

/-- What the result array ends holding, as a function of the arrays the region finds. -/
def Gout (c : Dev nD) : S4096x64.Idx → EReal := fun x => ∑ j : Fin 4096, term1 V c (x 0) (x 1) j

/-- The scratch's entry (p, d) before step n of the four steps of row tile I: zero, then the scratch after 4 I + n - 1. -/
def accAt1 (c : Dev nD) (I : Fin 4) (p : Fin 1024) (d : Fin 64) : ℕ → EReal
  | 0 => 0
  | n + 1 => if h : I.val * 4 + n < cfg1.N then (outsAt1 V c (I.val * 4 + n) h).2 (ix2 p d) else 0

/-- One step: at point 4 I + J the scratch's entry gains the sum over column tile J. -/
theorem accAt1_step (c : Dev nD) (I : Fin 4) (p : Fin 1024) (d : Fin 64) (J : Fin 4) :
    accAt1 V c I p d (J.val + 1) = accAt1 V c I p d J.val + ∑ s : Fin 1024, term1 V c (tile I p) d (tile J s) := by
  have hN : cfg1.N = 16 := N_1
  have hlt : I.val * 4 + J.val < cfg1.N := by omega
  show (if h : I.val * 4 + J.val < cfg1.N then (outsAt1 V c (I.val * 4 + J.val) h).2 (ix2 p d) else 0) = _
  rw [dif_pos hlt]
  have hx5 : (iblk1 V c 5 ⟨I.val * 4 + J.val, hlt⟩ : S1x1.Idx → EReal) (ix2 (0 : Fin 1) (0 : Fin 1)) = totalOf V c :=
    iblk1_5_at V c ⟨I.val * 4 + J.val, hlt⟩ I J rfl 0 0
  obtain ⟨Jv, hJ⟩ := J
  cases Jv with
  | zero =>
    have h0 : (⟨I.val * 4 + 0, hlt⟩ : Fin cfg1.N).val % 4 = 0 := by dsimp only; omega
    rw [scratch1_first V c ⟨I.val * 4 + 0, hlt⟩ h0]
    rw [pay1_at (I := I) (J := ⟨0, hJ⟩) (iblk1_0_at V c _ I ⟨0, hJ⟩ rfl) (iblk1_1_at V c _ I ⟨0, hJ⟩ rfl)
      (iblk1_3_at V c _ I ⟨0, hJ⟩ rfl) (fun p => iblk1_4_at V c _ I ⟨0, hJ⟩ rfl p 0) (iblk1_2_at V c _ I ⟨0, hJ⟩ rfl) p d,
      pay1_zero, hx5]
    rfl
  | succ n =>
    have h0 : ¬(⟨I.val * 4 + (n + 1), hlt⟩ : Fin cfg1.N).val % 4 = 0 := by dsimp only; omega
    rw [scratch1_next V c ⟨I.val * 4 + (n + 1), hlt⟩ h0]
    rw [pay1_at (I := I) (J := ⟨n + 1, hJ⟩) (iblk1_0_at V c _ I ⟨n + 1, hJ⟩ rfl) (iblk1_1_at V c _ I ⟨n + 1, hJ⟩ rfl)
      (iblk1_3_at V c _ I ⟨n + 1, hJ⟩ rfl) (fun p => iblk1_4_at V c _ I ⟨n + 1, hJ⟩ rfl p 0) (iblk1_2_at V c _ I ⟨n + 1, hJ⟩ rfl) p d,
      hx5]
    show _ = (if h : I.val * 4 + n < cfg1.N then (outsAt1 V c (I.val * 4 + n) h).2 (ix2 p d) else 0) + _
    rw [dif_pos (by omega)]
    rfl

/-- After the last of its four points the scratch's entry (p, d) is the sum over all 4096 keys. -/
theorem scratch_row (c : Dev nD) (I : Fin 4) (p : Fin 1024) (d : Fin 64) (h : I.val * 4 + 3 < cfg1.N) :
    (outsAt1 V c (I.val * 4 + 3) h).2 (ix2 p d) = ∑ j : Fin 4096, term1 V c (tile I p) d j := by
  have e := acc_four_tiles (fun j => term1 V c (tile I p) d j) (accAt1 V c I p d) rfl (accAt1_step V c I p d)
  rw [← e]
  show _ = (if h' : I.val * 4 + 3 < cfg1.N then (outsAt1 V c (I.val * 4 + 3) h').2 (ix2 p d) else 0)
  rw [dif_pos h]

/-- The output window's block index at point t: row tile t / 4, the one column tile. -/
theorem idx6 : ∀ t : Fin cfg1.N, win1_6.index t (0 : Fin 2) = t.val / 4 ∧ win1_6.index t (1 : Fin 2) = 0 :=
  (by decide +kernel : ∀ t : Fin grid1.N, win1_6.index t (0 : Fin 2) = t.val / 4 ∧ win1_6.index t (1 : Fin 2) = 0)

/-- What a flushing point writes back is its block of the result function. -/
theorem flushed1_eq (c : Dev nD) (t : Fin cfg1.N) (hf : (cfg1.win 6).flush t = true) :
    (dat1 V c).flushed 6 t = ((cfg1.win 6).blk t).view.read (Elt Ideal) (Gout V c) := by
  have hN : cfg1.N = 16 := N_1
  have h3 : t.val % 4 = 3 := (flush1_6 t).mp hf
  obtain ⟨e0, e1⟩ := idx6 t
  show (cfg1.win 6).cut (grid1.coords t) ((dat1 V c).after 6 t) = _
  rw [after1_6, out1_last V c t h3]
  funext j
  obtain ⟨p, d, rfl⟩ : ∃ (p : Fin 1024) (d : Fin 64), j = ix2 p d := ⟨j 0, j 1, eq_ix2 j⟩
  have hI : t.val / 4 < 4 := by have := t.isLt; omega
  have ht : t.val = (⟨t.val / 4, hI⟩ : Fin 4).val * 4 + 3 := by show t.val = t.val / 4 * 4 + 3; omega
  show (outsAt1 V c t.val t.isLt).2 (ix2 p d) = Gout V c (((cfg1.win 6).blk t).view.emb (ix2 p d))
  have hemb : ((cfg1.win 6).blk t).view.emb (ix2 p d) = ix2 (tile ⟨t.val / 4, hI⟩ p) d := by
    funext a; apply Fin.ext
    match a with
    | ⟨0, _⟩ => show win1_6.index t (0 : Fin 2) * 1024 + 1 * p.val = _; rw [e0]; simp only [ix2, tile_val]; omega
    | ⟨1, _⟩ => show win1_6.index t (1 : Fin 2) * 64 + 1 * d.val = _; rw [e1]; simp only [ix2]; omega
  rw [hemb]
  have hsr := scratch_row V c ⟨t.val / 4, hI⟩ p d (by rw [← ht]; exact t.isLt)
  simp only [← ht] at hsr
  exact hsr

/-- An index of the result is in point t's block iff each coordinate is in the block's range on its axis. -/
theorem mem_blk6 (t : Fin cfg1.N) (i : S4096x64.Idx) :
    i ∈ ((cfg1.win 6).blk t).view.set ↔ ∀ a : Fin 2, win1_6.index t a * S1024x64.size a ≤ (i a).val ∧ (i a).val < win1_6.index t a * S1024x64.size a + S1024x64.size a := by
  show i ∈ ((View.whole main_v1).slice (win1_6.rect t)).set ↔ _
  rw [View.set_slice_whole, Rect.mem_set_unit]
  exact Iff.rfl

/-- So the result array ends holding the result function: row r is covered by the flushing point of row tile r / 1024. -/
theorem final1 (c : Dev nD) : (dat1 V c).arrAt 6 cfg1.N = Gout V c :=
  (dat1 V c).arrAt_eq_of_cover 6 (Gout V c) (flushed1_eq V c) fun i => by
    have hN : cfg1.N = 16 := N_1
    have hi0 : (i 0).val < 4096 := (i 0).isLt
    have hi1 : (i 1).val < 64 := (i 1).isLt
    have hlt : (i 0).val / 1024 * 4 + 3 < cfg1.N := by omega
    refine ⟨⟨(i 0).val / 1024 * 4 + 3, hlt⟩, (flush1_6 _).mpr (by dsimp only; omega), ?_⟩
    rw [mem_blk6]
    obtain ⟨e0, e1⟩ := idx6 ⟨(i 0).val / 1024 * 4 + 3, hlt⟩
    intro a
    match a with
    | ⟨0, _⟩ => show win1_6.index _ (0 : Fin 2) * 1024 ≤ (i 0).val ∧ (i 0).val < win1_6.index _ (0 : Fin 2) * 1024 + 1024
                rw [e0]; dsimp only; omega
    | ⟨1, _⟩ => show win1_6.index _ (1 : Fin 2) * 64 ≤ (i 1).val ∧ (i 1).val < win1_6.index _ (1 : Fin 2) * 64 + 64
                rw [e1]; omega

end Cert.KernelIdeal.Frame1

end
-- ==== Proof.KI.Final.lean ====
/- The idealized kernel's result is the specification. Between the two regions every array the second region reads
   holds what it held at launch, except the one-element sum, which holds the first region's result: the sum of the
   floor mask over the whole matrix. So the result function of the second region, read at the contents it is entered
   with, is the specification of the five argument arrays. -/
import proofs.«173389_j39676907883922_1_alg».proof.Proof.KI.Run
import proofs.«173389_j39676907883922_1_alg».proof.Proof.KI.Glue0
import proofs.«173389_j39676907883922_1_alg».proof.Proof.KI.Glue1

set_option maxRecDepth 16384

noncomputable section

namespace Cert.KernelIdeal.Run

open Cert.KernelIdeal Cert.KernelIdeal.Gen Cert.KernelIdeal.Frame0 Cert.KernelIdeal.Frame1
open Idealize.ShloMosaic Idealize.ShloMosaic.TcCoe Idealize.SL.Sem
open Idealize.ShloMosaic.Pipeline (Dat)
open Idealize.ShloMosaic.ValueIdx Cert.Attn
open scoped BigOperators

variable (m : (ℓ : Loc nD τ sig) → Buf (Elt Ideal) ℓ) (ρ : Dev nD → PrngReg)

/-- The first region writes none of the arrays the second reads, other than the sum. -/
theorem V1_arg0 (c : Dev nD) : V1 m ρ c main_arg0 = m ((c : Thread nD τ).loc main_arg0) :=
  (W1_arr m ρ c 0).trans (((dat0 (V0 m ρ) c).arrAt_in 0 rfl _).trans (A_eq0 (V0 m ρ) c 0))
theorem V1_arg1 (c : Dev nD) : V1 m ρ c main_arg1 = m ((c : Thread nD τ).loc main_arg1) :=
  (W1_arr m ρ c 1).trans (((dat0 (V0 m ρ) c).arrAt_in 1 rfl _).trans (A_eq0 (V0 m ρ) c 1))
theorem V1_arg2 (c : Dev nD) : V1 m ρ c main_arg2 = m ((c : Thread nD τ).loc main_arg2) :=
  W1_of_ne m ρ c main_arg2 (by decide)
theorem V1_arg3 (c : Dev nD) : V1 m ρ c main_arg3 = m ((c : Thread nD τ).loc main_arg3) :=
  (W1_arr m ρ c 2).trans (((dat0 (V0 m ρ) c).arrAt_in 2 rfl _).trans (A_eq0 (V0 m ρ) c 2))
theorem V1_arg4 (c : Dev nD) : V1 m ρ c main_arg4 = m ((c : Thread nD τ).loc main_arg4) :=
  (W1_arr m ρ c 3).trans (((dat0 (V0 m ρ) c).arrAt_in 3 rfl _).trans (A_eq0 (V0 m ρ) c 3))

/-- The total the second region divides by is the sum of the floor mask over the whole matrix. -/
theorem V1_total (c : Dev nD) :
    totalOf (V1 m ρ) c = sumr (m ((c : Thread nD τ).loc main_arg0)) (m ((c : Thread nD τ).loc main_arg1)) (m ((c : Thread nD τ).loc main_arg3)) (m ((c : Thread nD τ).loc main_arg4)) := by
  unfold totalOf
  rw [V1_main_v0 m ρ c, final0 (V0 m ρ) c]
  exact result0_eq (V0 m ρ) c

/-- The second region's result array ends holding the specification of the five argument arrays. -/
theorem final_value (c : Dev nD) :
    (dat1 (V1 m ρ) c).arrAt 6 cfg1.N
      = G (m ((c : Thread nD τ).loc main_arg0)) (m ((c : Thread nD τ).loc main_arg1)) (m ((c : Thread nD τ).loc main_arg2)) (m ((c : Thread nD τ).loc main_arg3)) (m ((c : Thread nD τ).loc main_arg4)) := by
  rw [final1 (V1 m ρ) c]
  funext x
  show ∑ j : Fin 4096, term1 (V1 m ρ) c (x 0) (x 1) j = outv _ _ _ _ _ (x 0) (x 1)
  unfold outv
  refine Finset.sum_congr rfl fun j _ => ?_
  unfold term1
  rw [V1_total m ρ c, V1_arg0 m ρ c, V1_arg1 m ρ c, V1_arg2 m ρ c, V1_arg3 m ρ c, V1_arg4 m ρ c]

/-- The idealized kernel's run with its result named: the result array at the specification, the arguments unchanged. -/
theorem value_run : θ_run defs (onTc (τ := τ) (main (F := Ideal))) ⟨m, fun _ => 0, ρ⟩ (fun r => ∀ c : Dev nD,
      r.2.mem ((c.tc : Thread nD τ).loc main_v1)
        = G (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c).1.trans (final_value m ρ c), (h c).2⟩) (run m ρ)

end Cert.KernelIdeal.Run

end
-- ==== Proof.RefIsSpec.lean ====
/-
  The reference computes the specification.

  Read one operation at a time, at entry (a, j) of the [4096, 4096] stages: the product of q with the transposed
  k is the row-by-row sum ∑ d, q[a,d] · k[j,d]; 64 ^ 0.5 is the word for 8; the comparison with 0.1 converted to a
  float is the mask, and its quotient by the float nearest 0.9 is the mask times 8388608 / 7549747; the floor of
  the product with the row factor is the floored entry; the sum of all of them from the initial value 0 is the
  total; and the last product against v is the row-by-column sum of the specification.
-/
import proofs.«173389_j39676907883922_1_alg».proof.Proof.Gen.ReferenceIdeal.Read
import proofs.«173389_j39676907883922_1_alg».proof.Proof.Spec

noncomputable section

open scoped BigOperators

namespace Cert.Attn

open Cert.ReferenceIdeal Cert.ReferenceIdeal.Gen Idealize.ShloMosaic Idealize.ShloMosaic.TcCoe Idealize.ShloMosaic.ValueIdx
open Cert.ReferenceIdeal.Read

variable (x0 x1 x2 : (⟨S4096x64, .f32⟩ : BufTy).Contents (Elt Ideal))
  (x3 : (⟨S4096x4096, .f32⟩ : BufTy).Contents (Elt Ideal)) (x4 : (⟨S4096x1, .f32⟩ : BufTy).Contents (Elt Ideal))

/-- Entry (a, j) of q times the transposed k: row a of q against row j of k. -/
theorem scores_at (a j : Fin 4096) :
    val_main_v1 (F := Ideal) x0 x1 (ix2 a j) = ∑ d : Fin 64, x0 (ix2 a d) * x1 (ix2 j d) := by
  rw [val_main_v1_apply]
  refine Finset.sum_congr rfl fun k _ => ?_
  rw [val_main_v0_apply]
  have e1 : lidx_main_v1 (ix2 a j) k = ix2 a k := funext fun x => by
    match x with
    | ⟨0, _⟩ => rfl
    | ⟨1, _⟩ => rfl
  have e2 : idx_main_v0 (ridx_main_v1 (ix2 a j) k) = ix2 j k := funext fun x => by
    match x with
    | ⟨0, _⟩ => rfl
    | ⟨1, _⟩ => rfl
  rw [e1, e2]

/-- Entry (a, j) of the scaled, masked scores. -/
theorem tval_at (a j : Fin 4096) : val_main_v10 (F := Ideal) x0 x1 x3 (ix2 a j) = tval x0 x1 x3 a j := by
  rw [val_main_v10_apply, val_main_v4_apply, val_main_v9_apply, scores_at, val_main_v3_apply, val_main_v2_apply,
    val_main_cst_apply, val_main_cst_0_apply, val_main_v7_apply, val_main_v6_apply, val_main_v5_apply,
    val_main_cst_1_apply, val_main_v8_apply, val_main_cst_2_apply]
  simp only [Ideal.mulf_def, Ideal.hostPowf_def, Ideal.hostDivf_def, Ideal.ofBits_def, pow_sixtyfour_half,
    mask_of_uitofp, div_keep]
  rfl

/-- Entry (a, j) of the floored products with the row factor. -/
theorem rval_at (a j : Fin 4096) : val_main_v13 (F := Ideal) x0 x1 x3 x4 (ix2 a j) = rval x0 x1 x3 x4 a j := by
  rw [val_main_v13_apply, val_main_v12_apply, val_main_v11_apply, tval_at]
  have e : idx_main_v11 (ix2 a j) = ix2 a (0 : Fin 1) := funext fun x => by
    match x with
    | ⟨0, _⟩ => rfl
    | ⟨1, _⟩ => rfl
  rw [e]
  rfl

/-- The total of the floored entries: the host's sum over both axes from the initial value 0. -/
theorem sumr_at (i : S_.Idx) : val_main_v14 (F := Ideal) x0 x1 x3 x4 i = sumr x0 x1 x3 x4 := by
  rw [val_main_v14_apply, val_main_cst_3_apply, Ideal.ofBits_def, Ideal.ofBits_zero_f32, zero_add, sum_idx2]
  exact Finset.sum_congr rfl fun a _ => Finset.sum_congr rfl fun j _ => rval_at x0 x1 x3 x4 a j

/-- Entry (a, j) of the weighted scores: the score times its floored entry's share of the total. -/
theorem weighted_at (a j : Fin 4096) :
    val_main_v17 (F := Ideal) x0 x1 x3 x4 (ix2 a j)
      = tval x0 x1 x3 a j * Ideal.div (rval x0 x1 x3 x4 a j) (sumr x0 x1 x3 x4) := by
  rw [val_main_v17_apply, val_main_v16_apply, val_main_v15_apply, tval_at, rval_at, sumr_at]
  rfl

/-- The reference's result is the specification of its five arguments. -/
theorem ref_is_G : val_main_v18 (F := Ideal) x0 x1 x2 x3 x4 = G x0 x1 x2 x3 x4 := by
  funext i
  obtain ⟨a, d, rfl⟩ : ∃ (a : Fin 4096) (d : Fin 64), i = ix2 a d := ⟨i 0, i 1, eq_ix2 i⟩
  rw [val_main_v18_apply, G_ix2]
  refine Finset.sum_congr rfl fun j _ => ?_
  have e1 : lidx_main_v18 (ix2 a d) j = ix2 a j := funext fun x => by
    match x with
    | ⟨0, _⟩ => rfl
    | ⟨1, _⟩ => rfl
  have e2 : ridx_main_v18 (ix2 a d) j = ix2 j d := funext fun x => by
    match x with
    | ⟨0, _⟩ => rfl
    | ⟨1, _⟩ => rfl
  rw [e1, e2, weighted_at]

end Cert.Attn

end
-- ==== Proof.lean ====
/- The proof of the certificate's claim: a two-kernel sparse-attention program against its whole-array reference.
   With q, k, v of shape [4096, 64], uniform draws u of shape [4096, 4096] and row factors of shape [4096, 1], both
   programs compute t = ((q kᵀ) · 8) · (mask(u ≥ 0.1) · c), r = ⌊t · row⌋, and out = (t · (r / Σ r)) v, where the kernel
   multiplies by a folded constant c that the reference obtains as a division by the float nearest 0.9; the constant is
   named 8388608 / 7549747, the exact reciprocal of that float, and at the extended reals the two are one number.
   The kernel program is two regions over a 4 x 4 grid of 1024 x 1024 tiles: the first accumulates Σ r over the sixteen
   tiles into a one-element array, the second accumulates each row tile's output over the four column tiles in a
   scratch buffer and writes it out at the last. Both sums are the reference's sums regrouped by tiles, which needs
   only commutativity and associativity of addition on the extended reals; no finiteness of the inputs is used.
   The frames of the two kernel programs (word level and idealized) are one argument, written once for each; the
   reference's frame and value come from its generated run, read one operation at a time. -/
import proofs.«173389_j39676907883922_1_alg».proof.Defs
import proofs.«173389_j39676907883922_1_alg».proof.Proof.Gen.Kernel
import proofs.«173389_j39676907883922_1_alg».proof.Proof.Gen.KernelIdeal
import proofs.«173389_j39676907883922_1_alg».proof.Proof.Gen.ReferenceIdeal
import proofs.«173389_j39676907883922_1_alg».proof.Proof.Gen.Pre_finite_inputs
import proofs.«173389_j39676907883922_1_alg».proof.Proof.Gen.ReferenceIdeal.Run
import proofs.«173389_j39676907883922_1_alg».proof.Proof.Gen.ReferenceIdeal.Read
import proofs.«173389_j39676907883922_1_alg».proof.Proof.K.Run
import proofs.«173389_j39676907883922_1_alg».proof.Proof.KI.Final
import proofs.«173389_j39676907883922_1_alg».proof.Proof.RefIsSpec
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Run.frame m ρ
theorem frame_ki : Cert.frame_KernelIdeal := fun m ρ _ => Cert.KernelIdeal.Run.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization named the folded reciprocal at its two sites, one per kernel body: the name denotes
    8388608 / 7549747 at the extended reals. -/
theorem preserves : Cert.preserves_Kernel_KernelIdeal :=
  ⟨IdealRules.named_const.statement Cert.KernelIdeal.κ "inv_keep" .f32 0x3F8E38E4#32 ((8388608 / 7549747 : ℝ) : EReal) rfl,
   IdealRules.named_const.statement Cert.KernelIdeal.κ "inv_keep" .f32 0x3F8E38E4#32 ((8388608 / 7549747 : ℝ) : EReal) rfl⟩

/-- Both idealized programs end with the specification of the five argument arrays in their result. -/
theorem algebraic : Cert.algebraic_KernelIdeal_ReferenceIdeal := by
  intro m ρ m' ρ' _ hagree
  refine ⟨fun c => Cert.Attn.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    Cert.KernelIdeal.Run.value_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq, Cert.Attn.ref_is_G, (hagree c).1, (hagree c).2.1, (hagree c).2.2.1,
    (hagree c).2.2.2.1, (hagree c).2.2.2.2.1]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
